-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S3x256x256 : Shape := ⟨3, ![3, 256, 256]⟩
abbrev S3x256 : Shape := ⟨2, ![3, 256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S512x10 .f32) (main_arg9 : FVec F S10 .f32) (main_v33 : IVec S_ 1) : IVec S_ 1 :=
  let main_v34 : FVec F S512x10 .f32 := Host.absf main_arg8
  let main_cst_12 : FVec F S_ .f32 := constant S_ .f32 0x7F800000#32
  let main_v35 : FVec F S512x10 .f32 := broadcastInDim S512x10 ![] bcast_S_S512x10 main_cst_12
  let main_v36 : IVec S512x10 1 := cmpf .olt main_v34 main_v35
  let main_c_13 : IVec S_ 1 := constantI S_ 1 1#1
  let main_v37 : IVec S_ 1 := (fun x v => Host.reduce IntOp.andi x v reducesTo_S512x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S3x256 .f32) (main_arg6 : FVec F S256x512 .f32) (main_arg7 : FVec F S512 .f32) (main_arg8 : FVec F S512x10 .f32) (main_arg9 : FVec F S10 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S131072x256 .f32) (main_arg1 : IVec S131072 32) (main_arg2 : FVec F S3x256x256 .f32) (main_arg3 : FVec F S3x256 .f32) (main_arg4 : FVec F S3x256x256 .f32) (main_arg5 : FVec F S3x256 .f32) (main_arg6 : FVec F S256x512 .f32) (main_arg7 : FVec F S512 .f32) (main_arg8 : FVec F S512x10 .f32) (main_arg9 : FVec F S10 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_arg9 main_v13 main_v16
-- ==== Kernel.lean ====
abbrev S131072x256 : Shape := ⟨2, ![131072, 256]⟩
abbrev S131072 : Shape := ⟨1, ![131072]⟩
abbrev S3x256x256 : Shape := ⟨3, ![3, 256, 256]⟩
abbrev S3x256 : Shape := ⟨2, ![3, 256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S_ : Shape := ⟨0, ![]⟩
abbrev S131072x1 : Shape := ⟨2, ![131072, 1]⟩
abbrev S4096x1 : Shape := ⟨2, ![4096, 1]⟩
abbrev S4096x256 : Shape := ⟨2, ![4096, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2048x256 : Shape := ⟨2, ![2048, 256]⟩
abbrev S1x512 : Shape := ⟨2, ![1, 512]⟩
abbrev S1x10 : Shape := ⟨2, ![1, 10]⟩
abbrev S4096x10 : Shape := ⟨2, ![4096, 10]⟩
abbrev S1024x256 : Shape := ⟨2, ![1024, 256]⟩
abbrev S1024x10 : Shape := ⟨2, ![1024, 10]⟩
abbrev S1024x512 : Shape := ⟨2, ![1024, 512]⟩

abbrev nBuf : Space → Nat
  | .hbm => 118
  | .vmem => 32
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S3x256x256, .f32⟩
  | .hbm, ⟨3, _⟩ => ⟨S3x256, .f32⟩
  | .hbm, ⟨4, _⟩ => ⟨S3x256x256, .f32⟩
  | .hbm, ⟨5, _⟩ => ⟨S3x256, .f32⟩
  | .hbm, ⟨6, _⟩ => ⟨S256x512, .f32⟩
  | .hbm, ⟨7, _⟩ => ⟨S512, .f32⟩
  | .hbm, ⟨8, _⟩ => ⟨S512x10, .f32⟩
  | .hbm, ⟨9, _⟩ => ⟨S10, .f32⟩
  | .hbm, ⟨10, _⟩ => ⟨S_, .f32⟩
  | .hbm, ⟨11, _⟩ => ⟨S131072x1, .f32⟩
  | .hbm, ⟨12, _⟩ => ⟨S_, .f32⟩
  | .hbm, ⟨13, _⟩ => ⟨S4096x1, .f32⟩
  | .hbm, ⟨14, _⟩ => ⟨S131072x1, .i32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x256, .f32⟩
  | .hbm, ⟨24, _⟩ => ⟨S131072x1, .i32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S1x256x256, .f32⟩
  | .hbm, ⟨29, _⟩ => ⟨S256x256, .f32⟩
  | .hbm, ⟨30, _⟩ => ⟨S4096x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x256, .f32⟩
  | .hbm, ⟨45, _⟩ => ⟨S1x256x256, .f32⟩
  | .hbm, ⟨46, _⟩ => ⟨S256x256, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S131072x256, .f32⟩
  | .hbm, ⟨51, _⟩ => ⟨S_, .f32⟩
  | .hbm, ⟨52, _⟩ => ⟨S4096x256, .f32⟩
  | .hbm, ⟨53, _⟩ => ⟨S131072x1, .i32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S1x256x256, .f32⟩
  | .hbm, ⟨58, _⟩ => ⟨S256x256, .f32⟩
  | .hbm, ⟨59, _⟩ => ⟨S4096x256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S_, .i32⟩
  | .hbm, ⟨66, _⟩ => ⟨S131072, .i32⟩
  | .hbm, ⟨67, _⟩ => ⟨S131072, .i1⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S131072, .i32⟩
  | .hbm, ⟨72, _⟩ => ⟨S131072x1, .i32⟩
  | .hbm, ⟨73, _⟩ => ⟨S131072x256, .f32⟩
  | .hbm, ⟨74, _⟩ => ⟨S1x256x256, .f32⟩
  | .hbm, ⟨75, _⟩ => ⟨S256x256, .f32⟩
  | .hbm, ⟨76, _⟩ => ⟨S1x256, .f32⟩
  | .hbm, ⟨77, _⟩ => ⟨S256, .f32⟩
  | .hbm, ⟨78, _⟩ => ⟨S1x256, .f32⟩
  | .hbm, ⟨79, _⟩ => ⟨S131072x256, .f32⟩
  | .hbm, ⟨80, _⟩ => ⟨S_, .f32⟩
  | .hbm, ⟨81, _⟩ => ⟨S4096x256, .f32⟩
  | .hbm, ⟨82, _⟩ => ⟨S131072x1, .i32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S1x256x256, .f32⟩
  | .hbm, ⟨87, _⟩ => ⟨S256x256, .f32⟩
  | .hbm, ⟨88, _⟩ => ⟨S4096x256, .f32⟩
  | .hbm, ⟨89, _⟩ => ⟨S1x256, .f32⟩
  | .hbm, ⟨90, _⟩ => ⟨S256, .f32⟩
  | .hbm, ⟨91, _⟩ => ⟨S1x256, .f32⟩
  | .hbm, ⟨92, _⟩ => ⟨S4096x256, .f32⟩
  | .hbm, ⟨93, _⟩ => ⟨S4096x256, .f32⟩
  | .hbm, ⟨94, _⟩ => ⟨S_, .i32⟩
  | .hbm, ⟨95, _⟩ => ⟨S131072, .i32⟩
  | .hbm, ⟨96, _⟩ => ⟨S131072, .i1⟩
  | .hbm, ⟨97, _⟩ => ⟨S_, .i32⟩
  | .hbm, ⟨98, _⟩ => ⟨S131072, .i32⟩
  | .hbm, ⟨99, _⟩ => ⟨S131072, .i32⟩
  | .hbm, ⟨100, _⟩ => ⟨S131072, .i32⟩
  | .hbm, ⟨101, _⟩ => ⟨S131072x1, .i32⟩
  | .hbm, ⟨102, _⟩ => ⟨S131072x256, .f32⟩
  | .hbm, ⟨103, _⟩ => ⟨S1x256x256, .f32⟩
  | .hbm, ⟨104, _⟩ => ⟨S256x256, .f32⟩
  | .hbm, ⟨105, _⟩ => ⟨S1x256, .f32⟩
  | .hbm, ⟨106, _⟩ => ⟨S256, .f32⟩
  | .hbm, ⟨107, _⟩ => ⟨S1x256, .f32⟩
  | .hbm, ⟨108, _⟩ => ⟨S131072x256, .f32⟩
  | .hbm, ⟨109, _⟩ => ⟨S_, .f32⟩
  | .hbm, ⟨110, _⟩ => ⟨S4096x256, .f32⟩
  | .hbm, ⟨111, _⟩ => ⟨S131072x1, .i32⟩
  | .hbm, ⟨112, _⟩ => ⟨S4096x256, .f32⟩
  | .hbm, ⟨113, _⟩ => ⟨S4096x256, .f32⟩
  | .hbm, ⟨114, _⟩ => ⟨S4096x256, .f32⟩
  | .hbm, ⟨115, _⟩ => ⟨S1x512, .f32⟩
  | .hbm, ⟨116, _⟩ => ⟨S1x10, .f32⟩
  | .hbm, ⟨117, _⟩ => ⟨S4096x10, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S1x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S1024x256, .f32⟩
  | .local _ .vmem, ⟨25, _⟩ => ⟨S1024x256, .f32⟩
  | .local _ .vmem, ⟨26, _⟩ => ⟨S256x512, .f32⟩
  | .local _ .vmem, ⟨27, _⟩ => ⟨S1x512, .f32⟩
  | .local _ .vmem, ⟨28, _⟩ => ⟨S512x10, .f32⟩
  | .local _ .vmem, ⟨29, _⟩ => ⟨S1x10, .f32⟩
  | .local _ .vmem, ⟨30, _⟩ => ⟨S1024x10, .f32⟩
  | .local _ .vmem, ⟨31, _⟩ => ⟨S1024x10, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_9 : Ref sig .tc := ⟨.hbm, 94, rfl⟩
abbrev main_v73 : Ref sig .tc := ⟨.hbm, 95, rfl⟩
abbrev main_v74 : Ref sig .tc := ⟨.hbm, 96, rfl⟩
abbrev main_c_10 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S131072x1 : S_.BroadcastsInDim S131072x1 (![] : Fin 0 → Fin S131072x1.rank)
  bcast_S_S4096x1 : S_.BroadcastsInDim S4096x1 (![] : Fin 0 → Fin S4096x1.rank)
  bcast_S131072_S131072x1_0 : S131072.BroadcastsInDim S131072x1 (![0] : Fin 1 → Fin S131072x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S131072 : S_.BroadcastsInDim S131072 (![] : Fin 0 → Fin S131072.rank)
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S2048x256 : S2048x256.ShapeCasts S2048x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S512_S1x512_1 : S512.BroadcastsInDim S1x512 (![1] : Fin 1 → Fin S1x512.rank)
  bcast_S10_S1x10_1 : S10.BroadcastsInDim S1x10 (![1] : Fin 1 → Fin S1x10.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  scatter_S4096x1_S131072x1_S131072x1_1_0_0_1_wf : ScatterDims.WF S4096x1 S131072x1 S131072x1 [1] [0] [0] 1
  scatter_S4096x256_S131072x1_S131072x256_1_0_0_1_wf : ScatterDims.WF S4096x256 S131072x1 S131072x256 [1] [0] [0] 1
  dot_S4096x256_S256x256_S4096x256_1_0_0_1_n_n_wf : DotDims.WF S4096x256 S256x256 S4096x256 [1] [0] [0] [1] [] []
  gather_S4096x256_S131072x1_S131072x256_1_0_n_n_0_1_1256_wf : GatherDims.WF S4096x256 S131072x1 S131072x256 [1] [0] [] [0] [] 1 ![1, 256]
  dot_S2048x256_S256x256_S2048x256_1_0_0_1_n_n_wf : DotDims.WF S2048x256 S256x256 S2048x256 [1] [0] [0] [1] [] []
  dot_S1024x256_S256x512_S1024x512_1_0_0_1_n_n_wf : DotDims.WF S1024x256 S256x512 S1024x512 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S131072x256.size a
  hwx1_0 : ∀ i : grid1.Coords, EltTy.bits .f32 = 32 ∨ (Rect.block (s := S131072x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S131072x256.size a
  hwx1_3 : ∀ i : grid1.Coords, EltTy.bits .f32 = 32 ∨ (Rect.block (s := S131072x256) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S131072x256.size a
  hwx1_4 : ∀ i : grid1.Coords, EltTy.bits .f32 = 32 ∨ (Rect.block (s := S131072x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S131072x256.size a
  hwx2_0 : ∀ i : grid2.Coords, EltTy.bits .f32 = 32 ∨ (Rect.block (s := S131072x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S131072x256.size a
  hwx2_3 : ∀ i : grid2.Coords, EltTy.bits .f32 = 32 ∨ (Rect.block (s := S131072x256) S2048x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S131072x256.size a
  hwx2_4 : ∀ i : grid2.Coords, EltTy.bits .f32 = 32 ∨ (Rect.block (s := S131072x256) S2048x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .f32 = 32 ∨ (Rect.block (s := S4096x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .f32 = 32 ∨ (Rect.block (s := S256x512) S256x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x10.size a ≤ S4096x10.size a
  hwx3_5 : ∀ i : grid3.Coords, EltTy.bits .f32 = 32 ∨ (Rect.block (s := S4096x10) S1024x10.size (cc3_transform_5 i) (hinb3_5 i)).WholeWords (EltTy.packing .f32)

variable [Facts₀]

def scatter_S4096x1_S131072x1_S131072x1_1_0_0_1 : ScatterDims S4096x1 S131072x1 S131072x1 where
  updateWindowDims := [1]
  insertedWindowDims := [0]
  scatterDimsToOperandDims := [0]
  indexVectorDim := 1
  wf := scatter_S4096x1_S131072x1_S131072x1_1_0_0_1_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v85) S2048x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v90) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S512x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S1024x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S131072x256 : Shape := ⟨2, ![131072, 256]⟩
abbrev S131072 : Shape := ⟨1, ![131072]⟩
abbrev S3x256x256 : Shape := ⟨3, ![3, 256, 256]⟩
abbrev S3x256 : Shape := ⟨2, ![3, 256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S4096x256 : Shape := ⟨2, ![4096, 256]⟩
abbrev S131072x1 : Shape := ⟨2, ![131072, 1]⟩
abbrev S4096x1 : Shape := ⟨2, ![4096, 1]⟩
abbrev S4096x512 : Shape := ⟨2, ![4096, 512]⟩
abbrev S1x512 : Shape := ⟨2, ![1, 512]⟩
abbrev S4096x10 : Shape := ⟨2, ![4096, 10]⟩
abbrev S1x10 : Shape := ⟨2, ![1, 10]⟩

abbrev nBuf : Space → Nat
  | .hbm => 204
  | .vmem => 0
  | .smem => 0
  | _ => 0

abbrev hbmTy0_0 (i : Nat) : BufTy := match i % 128 with
  | 0 => ⟨S131072x256, .f32⟩
  | 1 => ⟨S131072, .i32⟩
  | 2 => ⟨S3x256x256, .f32⟩
  | 3 => ⟨S3x256, .f32⟩
  | 4 => ⟨S3x256x256, .f32⟩
  | 5 => ⟨S3x256, .f32⟩
  | 6 => ⟨S256x512, .f32⟩
  | 7 => ⟨S512, .f32⟩
  | 8 => ⟨S512x10, .f32⟩
  | 9 => ⟨S10, .f32⟩
  | 10 => ⟨S1x256x256, .f32⟩
  | 11 => ⟨S256x256, .f32⟩
  | 12 => ⟨S131072x256, .f32⟩
  | 13 => ⟨S1x256, .f32⟩
  | 14 => ⟨S256, .f32⟩
  | 15 => ⟨S1x256, .f32⟩
  | 16 => ⟨S131072x256, .f32⟩
  | 17 => ⟨S131072x256, .f32⟩
  | 18 => ⟨S_, .f32⟩
  | 19 => ⟨S4096x256, .f32⟩
  | 20 => ⟨S131072x1, .i32⟩
  | 21 => ⟨S4096x256, .f32⟩
  | 22 => ⟨S_, .f32⟩
  | 23 => ⟨S131072x1, .f32⟩
  | 24 => ⟨S_, .f32⟩
  | 25 => ⟨S4096x1, .f32⟩
  | 26 => ⟨S131072x1, .i32⟩
  | 27 => ⟨S4096x1, .f32⟩
  | 28 => ⟨S_, .f32⟩
  | 29 => ⟨S4096x1, .f32⟩
  | 30 => ⟨S4096x1, .f32⟩
  | 31 => ⟨S4096x256, .f32⟩
  | 32 => ⟨S4096x256, .f32⟩
  | 33 => ⟨S1x256x256, .f32⟩
  | 34 => ⟨S256x256, .f32⟩
  | 35 => ⟨S4096x256, .f32⟩
  | 36 => ⟨S1x256, .f32⟩
  | 37 => ⟨S256, .f32⟩
  | 38 => ⟨S1x256, .f32⟩
  | 39 => ⟨S4096x256, .f32⟩
  | 40 => ⟨S4096x256, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x256, .f32⟩
  | 50 => ⟨S131072x256, .f32⟩
  | 51 => ⟨S_, .f32⟩
  | 52 => ⟨S131072x256, .f32⟩
  | 53 => ⟨S131072x256, .i1⟩
  | 54 => ⟨S_, .f32⟩
  | 55 => ⟨S131072x256, .f32⟩
  | 56 => ⟨S131072x256, .i1⟩
  | 57 => ⟨S_, .f32⟩
  | 58 => ⟨S_, .f32⟩
  | 59 => ⟨S131072x256, .f32⟩
  | 60 => ⟨S131072x256, .f32⟩
  | 61 => ⟨S131072x256, .f32⟩
  | 62 => ⟨S_, .f32⟩
  | 63 => ⟨S131072x256, .f32⟩
  | 64 => ⟨S131072x256, .f32⟩
  | 65 => ⟨S131072x256, .f32⟩
  | 66 => ⟨S1x256x256, .f32⟩
  | 67 => ⟨S256x256, .f32⟩
  | 68 => ⟨S131072x256, .f32⟩
  | 69 => ⟨S1x256, .f32⟩
  | 70 => ⟨S256, .f32⟩
  | 71 => ⟨S1x256, .f32⟩
  | 72 => ⟨S131072x256, .f32⟩
  | 73 => ⟨S131072x256, .f32⟩
  | 74 => ⟨S_, .f32⟩
  | 75 => ⟨S4096x256, .f32⟩
  | 76 => ⟨S131072x1, .i32⟩
  | 77 => ⟨S4096x256, .f32⟩
  | 78 => ⟨S_, .f32⟩
  | 79 => ⟨S131072x1, .f32⟩
  | 80 => ⟨S_, .f32⟩
  | 81 => ⟨S4096x1, .f32⟩
  | 82 => ⟨S131072x1, .i32⟩
  | 83 => ⟨S4096x1, .f32⟩
  | 84 => ⟨S_, .f32⟩
  | 85 => ⟨S4096x1, .f32⟩
  | 86 => ⟨S4096x1, .f32⟩
  | 87 => ⟨S4096x256, .f32⟩
  | 88 => ⟨S4096x256, .f32⟩
  | 89 => ⟨S1x256x256, .f32⟩
  | 90 => ⟨S256x256, .f32⟩
  | 91 => ⟨S4096x256, .f32⟩
  | 92 => ⟨S1x256, .f32⟩
  | 93 => ⟨S256, .f32⟩
  | 94 => ⟨S1x256, .f32⟩
  | 95 => ⟨S4096x256, .f32⟩
  | 96 => ⟨S4096x256, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x256, .f32⟩
  | 106 => ⟨S131072x256, .f32⟩
  | 107 => ⟨S_, .f32⟩
  | 108 => ⟨S131072x256, .f32⟩
  | 109 => ⟨S131072x256, .i1⟩
  | 110 => ⟨S_, .f32⟩
  | 111 => ⟨S131072x256, .f32⟩
  | 112 => ⟨S131072x256, .i1⟩
  | 113 => ⟨S_, .f32⟩
  | 114 => ⟨S_, .f32⟩
  | 115 => ⟨S131072x256, .f32⟩
  | 116 => ⟨S131072x256, .f32⟩
  | 117 => ⟨S131072x256, .f32⟩
  | 118 => ⟨S_, .f32⟩
  | 119 => ⟨S131072x256, .f32⟩
  | 120 => ⟨S131072x256, .f32⟩
  | 121 => ⟨S131072x256, .f32⟩
  | 122 => ⟨S1x256x256, .f32⟩
  | 123 => ⟨S256x256, .f32⟩
  | 124 => ⟨S131072x256, .f32⟩
  | 125 => ⟨S1x256, .f32⟩
  | 126 => ⟨S256, .f32⟩
  | 127 => ⟨S1x256, .f32⟩
  | _ => ⟨S131072x256, .f32⟩

abbrev hbmTy0_1 (i : Nat) : BufTy := match i % 128 with
  | 0 => ⟨S131072x256, .f32⟩
  | 1 => ⟨S131072x256, .f32⟩
  | 2 => ⟨S_, .f32⟩
  | 3 => ⟨S4096x256, .f32⟩
  | 4 => ⟨S131072x1, .i32⟩
  | 5 => ⟨S4096x256, .f32⟩
  | 6 => ⟨S_, .f32⟩
  | 7 => ⟨S131072x1, .f32⟩
  | 8 => ⟨S_, .f32⟩
  | 9 => ⟨S4096x1, .f32⟩
  | 10 => ⟨S131072x1, .i32⟩
  | 11 => ⟨S4096x1, .f32⟩
  | 12 => ⟨S_, .f32⟩
  | 13 => ⟨S4096x1, .f32⟩
  | 14 => ⟨S4096x1, .f32⟩
  | 15 => ⟨S4096x256, .f32⟩
  | 16 => ⟨S4096x256, .f32⟩
  | 17 => ⟨S1x256x256, .f32⟩
  | 18 => ⟨S256x256, .f32⟩
  | 19 => ⟨S4096x256, .f32⟩
  | 20 => ⟨S1x256, .f32⟩
  | 21 => ⟨S256, .f32⟩
  | 22 => ⟨S1x256, .f32⟩
  | 23 => ⟨S4096x256, .f32⟩
  | 24 => ⟨S4096x256, .f32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S131072x256, .f32⟩
  | 34 => ⟨S131072x256, .f32⟩
  | 35 => ⟨S_, .f32⟩
  | 36 => ⟨S131072x256, .f32⟩
  | 37 => ⟨S131072x256, .i1⟩
  | 38 => ⟨S_, .f32⟩
  | 39 => ⟨S131072x256, .f32⟩
  | 40 => ⟨S131072x256, .i1⟩
  | 41 => ⟨S_, .f32⟩
  | 42 => ⟨S_, .f32⟩
  | 43 => ⟨S131072x256, .f32⟩
  | 44 => ⟨S131072x256, .f32⟩
  | 45 => ⟨S131072x256, .f32⟩
  | 46 => ⟨S_, .f32⟩
  | 47 => ⟨S131072x256, .f32⟩
  | 48 => ⟨S131072x256, .f32⟩
  | 49 => ⟨S131072x256, .f32⟩
  | 50 => ⟨S_, .f32⟩
  | 51 => ⟨S4096x256, .f32⟩
  | 52 => ⟨S131072x1, .i32⟩
  | 53 => ⟨S4096x256, .f32⟩
  | 54 => ⟨S_, .f32⟩
  | 55 => ⟨S131072x1, .f32⟩
  | 56 => ⟨S_, .f32⟩
  | 57 => ⟨S4096x1, .f32⟩
  | 58 => ⟨S131072x1, .i32⟩
  | 59 => ⟨S4096x1, .f32⟩
  | 60 => ⟨S_, .f32⟩
  | 61 => ⟨S4096x1, .f32⟩
  | 62 => ⟨S4096x1, .f32⟩
  | 63 => ⟨S4096x256, .f32⟩
  | 64 => ⟨S4096x256, .f32⟩
  | 65 => ⟨S4096x512, .f32⟩
  | 66 => ⟨S1x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x10, .f32⟩
  | 73 => ⟨S1x10, .f32⟩
  | 74 => ⟨S4096x10, .f32⟩
  | 75 => ⟨S4096x10, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_8 : Ref sig .tc := ⟨.hbm, 97, rfl⟩
abbrev main_v63 : Ref sig .tc := ⟨.hbm, 98, rfl⟩
abbrev main_v64 : Ref sig .tc := ⟨.hbm, 99, rfl⟩
abbrev main_c_9 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_cst_1 : Ref sig .tc := ⟨.hbm, 113, rfl⟩
abbrev main_call1_call0_v0 : Ref sig .tc := ⟨.hbm, 114, rfl⟩
abbrev main_call1_call0_v1 : Ref sig .tc := ⟨.hbm, 115, rfl⟩
abbrev main_call1_v4 : Ref sig .tc := ⟨.hbm, 116, rfl⟩
abbrev main_call1_v5 : Ref sig .tc := ⟨.hbm, 117, rfl⟩
abbrev main_call1_cst_2 : Ref sig .tc := ⟨.hbm, 118, rfl⟩
abbrev main_call1_v6 : Ref sig .tc := ⟨.hbm, 119, rfl⟩
abbrev main_call1_v7 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_10 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_11 : Ref sig .tc := ⟨.hbm, 134, rfl⟩
abbrev main_v83 : Ref sig .tc := ⟨.hbm, 135, rfl⟩
abbrev main_cst_12 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_13 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_14 : Ref sig .tc := ⟨.hbm, 153, rfl⟩
abbrev main_v99 : Ref sig .tc := ⟨.hbm, 154, rfl⟩
abbrev main_v100 : Ref sig .tc := ⟨.hbm, 155, rfl⟩
abbrev main_c_15 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_cst_1 : Ref sig .tc := ⟨.hbm, 169, rfl⟩
abbrev main_call2_call0_v0 : Ref sig .tc := ⟨.hbm, 170, rfl⟩
abbrev main_call2_call0_v1 : Ref sig .tc := ⟨.hbm, 171, rfl⟩
abbrev main_call2_v4 : Ref sig .tc := ⟨.hbm, 172, rfl⟩
abbrev main_call2_v5 : Ref sig .tc := ⟨.hbm, 173, rfl⟩
abbrev main_call2_cst_2 : Ref sig .tc := ⟨.hbm, 174, rfl⟩
abbrev main_call2_v6 : Ref sig .tc := ⟨.hbm, 175, rfl⟩
abbrev main_call2_v7 : Ref sig .tc := ⟨.hbm, 176, rfl⟩
abbrev main_v107 : Ref sig .tc := ⟨.hbm, 177, rfl⟩
abbrev main_cst_16 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_17 : Ref sig .tc := ⟨.hbm, 182, rfl⟩
abbrev main_v111 : Ref sig .tc := ⟨.hbm, 183, rfl⟩
abbrev main_cst_18 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_19 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_call3_cst : Ref sig .tc := ⟨.hbm, 197, rfl⟩
abbrev main_call3_v0 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S4096x256 : S_.BroadcastsInDim S4096x256 (![] : Fin 0 → Fin S4096x256.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  bcast_S_S131072 : S_.BroadcastsInDim S131072 (![] : Fin 0 → Fin S131072.rank)
  bcast_S_S131072x256 : S_.BroadcastsInDim S131072x256 (![] : Fin 0 → Fin S131072x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S131072x256_S256x256_S131072x256_1_0_0_1_n_n_wf : DotDims.WF S131072x256 S256x256 S131072x256 [1] [0] [0] [1] [] []
  scatter_S4096x256_S131072x1_S131072x256_1_0_0_1_wf : ScatterDims.WF S4096x256 S131072x1 S131072x256 [1] [0] [0] 1
  scatter_S4096x1_S131072x1_S131072x1_1_0_0_1_wf : ScatterDims.WF S4096x1 S131072x1 S131072x1 [1] [0] [0] 1
  dot_S4096x256_S256x256_S4096x256_1_0_0_1_n_n_wf : DotDims.WF S4096x256 S256x256 S4096x256 [1] [0] [0] [1] [] []
  gather_S4096x256_S131072x1_S131072x256_1_0_n_n_0_1_1256_wf : GatherDims.WF S4096x256 S131072x1 S131072x256 [1] [0] [] [0] [] 1 ![1, 256]
  dot_S4096x256_S256x512_S4096x512_1_0_0_1_n_n_wf : DotDims.WF S4096x256 S256x512 S4096x512 [1] [0] [0] [1] [] []
  dot_S4096x512_S512x10_S4096x10_1_0_0_1_n_n_wf : DotDims.WF S4096x512 S512x10 S4096x10 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def scatter_S4096x1_S131072x1_S131072x1_1_0_0_1 : ScatterDims S4096x1 S131072x1 S131072x1 where
  updateWindowDims := [1]
  insertedWindowDims := [0]
  scatterDimsToOperandDims := [0]
  indexVectorDim := 1
  wf := scatter_S4096x1_S131072x1_S131072x1_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x10_S4096x10_1_0_0_1_n_n : DotDims S4096x512 S512x10 S4096x10 where
  lhsContracting := [1]
  rhsContracting := [0]
  lhsNonContracting := [0]
  rhsNonContracting := [1]
  lhsBatch := []
  rhsBatch := []
  wf := dot_S4096x512_S512x10_S4096x10_1_0_0_1_n_n_wf

class Facts : Prop extends Facts₀ where

variable [Facts]
-- ==== Proof.KerRun.lean ====
/-
  The idealized kernel program's run, with its result named.

  The program is four pipelined regions among stretches of host operations. Every weakly fair execution from a memory
  with zero counters terminates without a fault; in the final state every unscoped buffer holds the contents the
  last boundary of the segment chain assigns it. Read at the result buffer this names the program's result as the
  last boundary's contents there; read at an argument's buffer it gives the argument back, since no host operation and
  no region writes an argument.
-/
import proofs.«138804_j12352325943902_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segment chain: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v93) = W8 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v93 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KerRun

end
-- ==== Proof.Stages.lean ====
/-
  The two fused stages of the network, as whole-array functions on the extended reals, in the spelling a host
  program gives them.

  * layerHost h w b g: one layer update. With y = (h·w + b spread over the rows) + g, an S×D array, the result is
    elu y entry by entry, where elu is written as jax.nn.elu lowers: y where y > 0, and 1·expm1(y') elsewhere,
    y' being y where y ≤ 0 and 0 where y > 0. Here h is the S×D state, w a D×D weight, b a one-row bias [1, D],
    g the S×D term gathered from the per-graph means.
  * finalHost p w1 b1 w2 b2: the read-out max(p·w1 + b1, 0)·w2 + b2 on the G×D pooled array p, with one-row biases.
-/
import proofs.«138804_j12352325943902_1_alg».proof.ReferenceIdeal
import proofs.«138804_j12352325943902_1_alg».proof.Proof.Gen.ReferenceIdeal
import Idealize.ShloMosaic.PureOps.Ideal

noncomputable section

namespace Cert.Stages

open Idealize.ShloMosaic Cert.ReferenceIdeal Cert.ReferenceIdeal.Gen

/-- The exponential linear unit on an S×D array, as jax.nn.elu lowers. -/
def eluHost (y : FVec Ideal S131072x256 .f32) : FVec Ideal S131072x256 .f32 :=
  select (cmpf .ogt y (broadcastInDim S131072x256 ![] bcast_S_S131072x256 (constant (F := Ideal) S_ .f32 0x00000000#32))) y
    (mulf (broadcastInDim S131072x256 ![] bcast_S_S131072x256 (constant (F := Ideal) S_ .f32 0x3F800000#32))
      (Host.expm1 (select (cmpf .ogt y (broadcastInDim S131072x256 ![] bcast_S_S131072x256 (constant (F := Ideal) S_ .f32 0x00000000#32)))
        (broadcastInDim S131072x256 ![] bcast_S_S131072x256 (id (constant (F := Ideal) S_ .f32 0x00000000#32))) y)))

/-- One layer update: elu((h·w + b) + g). -/
def layerHost (h : FVec Ideal S131072x256 .f32) (w : FVec Ideal S256x256 .f32) (b : FVec Ideal S1x256 .f32)
    (g : FVec Ideal S131072x256 .f32) : FVec Ideal S131072x256 .f32 :=
  eluHost (addf (addf (Host.dotGeneral (F := Ideal) dot_S131072x256_S256x256_S131072x256_1_0_0_1_n_n none h w)
    (broadcastInDim S131072x256 ![0, 1] bcast_S1x256_S131072x256_0_1 b)) g)

/-- The read-out: max(p·w1 + b1, 0)·w2 + b2. -/
def finalHost (p : FVec Ideal S4096x256 .f32) (w1 : FVec Ideal S256x512 .f32) (b1 : FVec Ideal S1x512 .f32)
    (w2 : FVec Ideal S512x10 .f32) (b2 : FVec Ideal S1x10 .f32) : FVec Ideal S4096x10 .f32 :=
  addf (Host.dotGeneral (F := Ideal) dot_S4096x512_S512x10_S4096x10_1_0_0_1_n_n none
      (maximumf (addf (Host.dotGeneral (F := Ideal) dot_S4096x256_S256x512_S4096x512_1_0_0_1_n_n none p w1)
          (broadcastInDim S4096x512 ![0, 1] bcast_S1x512_S4096x512_0_1 b1))
        (broadcastInDim S4096x512 ![] bcast_S_S4096x512 (constant (F := Ideal) S_ .f32 0x00000000#32))) w2)
    (broadcastInDim S4096x10 ![0, 1] bcast_S1x10_S4096x10_0_1 b2)

end Cert.Stages

end
-- ==== Proof.LibRegionAsOp.lean ====
/-
  A pipelined region seen from outside is one pure operation on whole arrays.

  When a region is left, the buffers hold what they held when it was entered, except the region's own arrays, which
  hold what the write-backs left. If those final arrays are exactly what a single host operation would compute from
  the entry contents (the inputs untouched, each output a pure function of the inputs), then the buffer contents at
  the exit ARE that operation's result on the entry contents, as whole valuations. A program of several regions among
  host operations is then one straight line of pure operations, and its results are read off by folding that line.
-/
import Idealize.ShloMosaic.Lib.Pipeline.FrameSuffix
import Idealize.ShloMosaic.Lib.StableHlo.Run

noncomputable section

namespace Cert.LibRegionAsOp

open Idealize.ShloMosaic Idealize.ShloMosaic.StableHlo Idealize.ShloMosaic.Pipeline

variable {nD : Nat} {τ : Topo} {sig : RefSig} {Val : EltTy → Type}

/-- The exit contents of a region whose arrays end at `A` are the result of the operation `op` on the entry contents
    `V`, provided every array of the region ends at what `op` leaves in it (`hA`: for an array `op` does not write
    this says it is unchanged) and `op` writes nothing but arrays of the region (`hsub`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val)
    (hA : ∀ w, A w = op.result V (Proc.devRef .tc (arrRef win w)))
    (hsub : ∀ b ∈ op.writes, ∃ w, Proc.devRef .tc (arrRef win w) = b) :
    withArrays win c V A = op.result V := by
  funext b
  by_cases h : ∃ w, Proc.devRef .tc (arrRef win w) = b
  · obtain ⟨w, rfl⟩ := h
    rw [withArrays_arr win hinj c V A w, hA w]
  · unfold withArrays
    rw [dif_neg h]
    exact (op.result_of_not_mem V fun hb => h (hsub b hb)).symm

end Cert.LibRegionAsOp

end
-- ==== Proof.LibNary5.lean ====
/-
  A host operation of five operands, read at its result.

  An operation over a family of references takes its operands as that family. Over the LITERAL family of five
  references ![x0, x1, x2, x3, x4] its result is its function of the five operands' contents, each read at its own
  literal reference (rather than under a binder at ![…] k), so that a fold over a line of operations goes on
  rewriting the operands' contents. With the simp form (the result reference un-indexed) beside it.
-/
import Idealize.ShloMosaic.Lib.StableHlo.Run

noncomputable section

namespace Idealize.ShloMosaic.StableHlo

open TcCoe

variable {τ : Topo} {sig : RefSig} {Val : EltTy → Type}
variable {x0 x1 x2 x3 x4 y : Ref sig .tc}

/-- The result of a five-operand operation, each operand's contents at its own reference. -/
theorem nary5_result
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

/-- The same, for one simp pass over a long line. -/
theorem nary5_result'
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) :=
  nary5_result f hxs hy F

end Idealize.ShloMosaic.StableHlo

end
-- ==== Proof.KerLine.lean ====
/-
  The idealized kernel program as one straight line of whole-array operations.

  The program is four pipelined regions among stretches of host operations. Seen from outside a region is one pure
  operation on whole arrays: its inputs are left as they were and its output array ends at a function of the input
  arrays — for the three layer regions elu((h·w + b) + g), for the last region the read-out
  max(p·w1 + b1, 0)·w2 + b2. So the buffer contents at the program's end are the fold of ONE line of operations —
  the host stretches with each region replaced by its operation — over the launch contents.
-/
import proofs.«138804_j12352325943902_1_alg».proof.Proof.Gen.KernelIdeal.Frame
import proofs.«138804_j12352325943902_1_alg».proof.Proof.Stages
import proofs.«138804_j12352325943902_1_alg».proof.Proof.LibRegionAsOp
import proofs.«138804_j12352325943902_1_alg».proof.Proof.LibNary5
import Idealize.ShloMosaic.Lib.StableHlo.Run

noncomputable section

namespace Cert.KernelIdeal.KerLine

open Cert.KernelIdeal Cert.KernelIdeal.Gen
open Idealize.ShloMosaic Idealize.ShloMosaic.TcCoe Idealize.ShloMosaic.StableHlo Idealize.SL.Sem

/-- What a region's proof data leave in its arrays, as hypotheses: each input array as entered, the output array
    at the stage's function of the input arrays. -/
structure RegionValues : Prop where
  layer0 : ∀ (V : (c : Dev nD) → (b : Ref sig .tc) → Buf (Elt Ideal) ((c : Thread nD τ).loc b)) (c : Dev nD),
    (dat0 (F := Ideal) V c).arrAt 4 cfg0.N = Cert.Stages.layerHost (V c (Pipeline.arrRef spec0 0)) (V c (Pipeline.arrRef spec0 1))
      (V c (Pipeline.arrRef spec0 2)) (V c (Pipeline.arrRef spec0 3))
  in0 : ∀ (V : (c : Dev nD) → (b : Ref sig .tc) → Buf (Elt Ideal) ((c : Thread nD τ).loc b)) (c : Dev nD) (w : Fin 5), w ≠ 4 →
    (dat0 (F := Ideal) V c).arrAt w cfg0.N = V c (Pipeline.arrRef spec0 w)
  layer1 : ∀ (V : (c : Dev nD) → (b : Ref sig .tc) → Buf (Elt Ideal) ((c : Thread nD τ).loc b)) (c : Dev nD),
    (dat1 (F := Ideal) V c).arrAt 4 cfg1.N = Cert.Stages.layerHost (V c (Pipeline.arrRef spec1 0)) (V c (Pipeline.arrRef spec1 1))
      (V c (Pipeline.arrRef spec1 2)) (V c (Pipeline.arrRef spec1 3))
  in1 : ∀ (V : (c : Dev nD) → (b : Ref sig .tc) → Buf (Elt Ideal) ((c : Thread nD τ).loc b)) (c : Dev nD) (w : Fin 5), w ≠ 4 →
    (dat1 (F := Ideal) V c).arrAt w cfg1.N = V c (Pipeline.arrRef spec1 w)
  layer2 : ∀ (V : (c : Dev nD) → (b : Ref sig .tc) → Buf (Elt Ideal) ((c : Thread nD τ).loc b)) (c : Dev nD),
    (dat2 (F := Ideal) V c).arrAt 4 cfg2.N = Cert.Stages.layerHost (V c (Pipeline.arrRef spec2 0)) (V c (Pipeline.arrRef spec2 1))
      (V c (Pipeline.arrRef spec2 2)) (V c (Pipeline.arrRef spec2 3))
  in2 : ∀ (V : (c : Dev nD) → (b : Ref sig .tc) → Buf (Elt Ideal) ((c : Thread nD τ).loc b)) (c : Dev nD) (w : Fin 5), w ≠ 4 →
    (dat2 (F := Ideal) V c).arrAt w cfg2.N = V c (Pipeline.arrRef spec2 w)
  final : ∀ (V : (c : Dev nD) → (b : Ref sig .tc) → Buf (Elt Ideal) ((c : Thread nD τ).loc b)) (c : Dev nD),
    (dat3 (F := Ideal) V c).arrAt 5 cfg3.N = Cert.Stages.finalHost (V c (Pipeline.arrRef spec3 0)) (V c (Pipeline.arrRef spec3 1))
      (V c (Pipeline.arrRef spec3 2)) (V c (Pipeline.arrRef spec3 3)) (V c (Pipeline.arrRef spec3 4))
  in3 : ∀ (V : (c : Dev nD) → (b : Ref sig .tc) → Buf (Elt Ideal) ((c : Thread nD τ).loc b)) (c : Dev nD) (w : Fin 6), w ≠ 5 →
    (dat3 (F := Ideal) V c).arrAt w cfg3.N = V c (Pipeline.arrRef spec3 w)

/-- Layer region 0 as one operation: h, w, b, g ↦ elu((h·w + b) + g). -/
abbrev op0 : HloOp τ sig (Elt Ideal) :=
  quaternary main_arg0 main_v29 main_v32 main_v27 main_v33 (fun h w b g => Cert.Stages.layerHost h w b g)
/-- Layer region 1. -/
abbrev op1 : HloOp τ sig (Elt Ideal) :=
  quaternary main_v33 main_v55 main_v58 main_v53 main_v59 (fun h w b g => Cert.Stages.layerHost h w b g)
/-- Layer region 2. -/
abbrev op2 : HloOp τ sig (Elt Ideal) :=
  quaternary main_v59 main_v81 main_v84 main_v79 main_v85 (fun h w b g => Cert.Stages.layerHost h w b g)
/-- The read-out region as one operation. -/
abbrev op3 : HloOp τ sig (Elt Ideal) :=
  nary ![main_v90, main_arg6, main_v91, main_arg8, main_v92] main_v93
    (fun u => Cert.Stages.finalHost (u 0) (u 1) (u 2) (u 3) (u 4))

variable (m : (ℓ : Loc nD τ sig) → Buf (Elt Ideal) ℓ) (ρ : Dev nD → PrngReg) (hR : RegionValues)

set_option maxHeartbeats 2000000 in
include hR in
/-- Region 0 seen from outside: the contents at its exit are its operation's result on the contents at its entry. -/
theorem region0_as_op (Wf : Dev nD → Valuation τ sig (Elt Ideal)) (c : Dev nD) :
    Pipeline.withArrays spec0 c (Wf c) (fun w => (dat0 (F := Ideal) (fun c b => Wf c b) c).arrAt w cfg0.N) = op0.result (Wf c) := by
  refine Cert.LibRegionAsOp.withArrays_eq_result spec0 launch0.win.arr_inj c (Wf c) _ op0 (fun w => ?_) (fun b hb => ?_)
  · match w with
    | 0 =>
      refine (hR.in0 (fun c b => Wf c b) c 0 (by decide)).trans ?_
      show Wf c (Proc.devRef .tc main_arg0) = op0.result (Wf c) (Proc.devRef .tc main_arg0)
      exact (HloOp.result_of_not_mem op0 (Wf c) (by rw [quaternary_writes, Finset.mem_singleton]; exact devRef_ne_of_ne (by decide))).symm
    | 1 =>
      refine (hR.in0 (fun c b => Wf c b) c 1 (by decide)).trans ?_
      show Wf c (Proc.devRef .tc main_v29) = op0.result (Wf c) (Proc.devRef .tc main_v29)
      exact (HloOp.result_of_not_mem op0 (Wf c) (by rw [quaternary_writes, Finset.mem_singleton]; exact devRef_ne_of_ne (by decide))).symm
    | 2 =>
      refine (hR.in0 (fun c b => Wf c b) c 2 (by decide)).trans ?_
      show Wf c (Proc.devRef .tc main_v32) = op0.result (Wf c) (Proc.devRef .tc main_v32)
      exact (HloOp.result_of_not_mem op0 (Wf c) (by rw [quaternary_writes, Finset.mem_singleton]; exact devRef_ne_of_ne (by decide))).symm
    | 3 =>
      refine (hR.in0 (fun c b => Wf c b) c 3 (by decide)).trans ?_
      show Wf c (Proc.devRef .tc main_v27) = op0.result (Wf c) (Proc.devRef .tc main_v27)
      exact (HloOp.result_of_not_mem op0 (Wf c) (by rw [quaternary_writes, Finset.mem_singleton]; exact devRef_ne_of_ne (by decide))).symm
    | 4 =>
      refine (hR.layer0 (fun c b => Wf c b) c).trans ?_
      show Cert.Stages.layerHost (Wf c (Proc.devRef .tc main_arg0)) (Wf c (Proc.devRef .tc main_v29)) (Wf c (Proc.devRef .tc main_v32)) (Wf c (Proc.devRef .tc main_v27)) = op0.result (Wf c) (Proc.devRef .tc main_v33)
      exact (quaternary_result main_arg0 main_v29 main_v32 main_v27 main_v33 (fun h w b g => Cert.Stages.layerHost h w b g) _ _ _ _ _ (Wf c)).symm
  · rw [quaternary_writes, Finset.mem_singleton] at hb
    exact ⟨4, hb.symm⟩

set_option maxHeartbeats 2000000 in
include hR in
/-- Region 1 seen from outside: the contents at its exit are its operation's result on the contents at its entry. -/
theorem region1_as_op (Wf : Dev nD → Valuation τ sig (Elt Ideal)) (c : Dev nD) :
    Pipeline.withArrays spec1 c (Wf c) (fun w => (dat1 (F := Ideal) (fun c b => Wf c b) c).arrAt w cfg1.N) = op1.result (Wf c) := by
  refine Cert.LibRegionAsOp.withArrays_eq_result spec1 launch1.win.arr_inj c (Wf c) _ op1 (fun w => ?_) (fun b hb => ?_)
  · match w with
    | 0 =>
      refine (hR.in1 (fun c b => Wf c b) c 0 (by decide)).trans ?_
      show Wf c (Proc.devRef .tc main_v33) = op1.result (Wf c) (Proc.devRef .tc main_v33)
      exact (HloOp.result_of_not_mem op1 (Wf c) (by rw [quaternary_writes, Finset.mem_singleton]; exact devRef_ne_of_ne (by decide))).symm
    | 1 =>
      refine (hR.in1 (fun c b => Wf c b) c 1 (by decide)).trans ?_
      show Wf c (Proc.devRef .tc main_v55) = op1.result (Wf c) (Proc.devRef .tc main_v55)
      exact (HloOp.result_of_not_mem op1 (Wf c) (by rw [quaternary_writes, Finset.mem_singleton]; exact devRef_ne_of_ne (by decide))).symm
    | 2 =>
      refine (hR.in1 (fun c b => Wf c b) c 2 (by decide)).trans ?_
      show Wf c (Proc.devRef .tc main_v58) = op1.result (Wf c) (Proc.devRef .tc main_v58)
      exact (HloOp.result_of_not_mem op1 (Wf c) (by rw [quaternary_writes, Finset.mem_singleton]; exact devRef_ne_of_ne (by decide))).symm
    | 3 =>
      refine (hR.in1 (fun c b => Wf c b) c 3 (by decide)).trans ?_
      show Wf c (Proc.devRef .tc main_v53) = op1.result (Wf c) (Proc.devRef .tc main_v53)
      exact (HloOp.result_of_not_mem op1 (Wf c) (by rw [quaternary_writes, Finset.mem_singleton]; exact devRef_ne_of_ne (by decide))).symm
    | 4 =>
      refine (hR.layer1 (fun c b => Wf c b) c).trans ?_
      show Cert.Stages.layerHost (Wf c (Proc.devRef .tc main_v33)) (Wf c (Proc.devRef .tc main_v55)) (Wf c (Proc.devRef .tc main_v58)) (Wf c (Proc.devRef .tc main_v53)) = op1.result (Wf c) (Proc.devRef .tc main_v59)
      exact (quaternary_result main_v33 main_v55 main_v58 main_v53 main_v59 (fun h w b g => Cert.Stages.layerHost h w b g) _ _ _ _ _ (Wf c)).symm
  · rw [quaternary_writes, Finset.mem_singleton] at hb
    exact ⟨4, hb.symm⟩

set_option maxHeartbeats 2000000 in
include hR in
/-- Region 2 seen from outside: the contents at its exit are its operation's result on the contents at its entry. -/
theorem region2_as_op (Wf : Dev nD → Valuation τ sig (Elt Ideal)) (c : Dev nD) :
    Pipeline.withArrays spec2 c (Wf c) (fun w => (dat2 (F := Ideal) (fun c b => Wf c b) c).arrAt w cfg2.N) = op2.result (Wf c) := by
  refine Cert.LibRegionAsOp.withArrays_eq_result spec2 launch2.win.arr_inj c (Wf c) _ op2 (fun w => ?_) (fun b hb => ?_)
  · match w with
    | 0 =>
      refine (hR.in2 (fun c b => Wf c b) c 0 (by decide)).trans ?_
      show Wf c (Proc.devRef .tc main_v59) = op2.result (Wf c) (Proc.devRef .tc main_v59)
      exact (HloOp.result_of_not_mem op2 (Wf c) (by rw [quaternary_writes, Finset.mem_singleton]; exact devRef_ne_of_ne (by decide))).symm
    | 1 =>
      refine (hR.in2 (fun c b => Wf c b) c 1 (by decide)).trans ?_
      show Wf c (Proc.devRef .tc main_v81) = op2.result (Wf c) (Proc.devRef .tc main_v81)
      exact (HloOp.result_of_not_mem op2 (Wf c) (by rw [quaternary_writes, Finset.mem_singleton]; exact devRef_ne_of_ne (by decide))).symm
    | 2 =>
      refine (hR.in2 (fun c b => Wf c b) c 2 (by decide)).trans ?_
      show Wf c (Proc.devRef .tc main_v84) = op2.result (Wf c) (Proc.devRef .tc main_v84)
      exact (HloOp.result_of_not_mem op2 (Wf c) (by rw [quaternary_writes, Finset.mem_singleton]; exact devRef_ne_of_ne (by decide))).symm
    | 3 =>
      refine (hR.in2 (fun c b => Wf c b) c 3 (by decide)).trans ?_
      show Wf c (Proc.devRef .tc main_v79) = op2.result (Wf c) (Proc.devRef .tc main_v79)
      exact (HloOp.result_of_not_mem op2 (Wf c) (by rw [quaternary_writes, Finset.mem_singleton]; exact devRef_ne_of_ne (by decide))).symm
    | 4 =>
      refine (hR.layer2 (fun c b => Wf c b) c).trans ?_
      show Cert.Stages.layerHost (Wf c (Proc.devRef .tc main_v59)) (Wf c (Proc.devRef .tc main_v81)) (Wf c (Proc.devRef .tc main_v84)) (Wf c (Proc.devRef .tc main_v79)) = op2.result (Wf c) (Proc.devRef .tc main_v85)
      exact (quaternary_result main_v59 main_v81 main_v84 main_v79 main_v85 (fun h w b g => Cert.Stages.layerHost h w b g) _ _ _ _ _ (Wf c)).symm
  · rw [quaternary_writes, Finset.mem_singleton] at hb
    exact ⟨4, hb.symm⟩

set_option maxHeartbeats 2000000 in
include hR in
/-- Region 3 seen from outside: the contents at its exit are its operation's result on the contents at its entry. -/
theorem region3_as_op (Wf : Dev nD → Valuation τ sig (Elt Ideal)) (c : Dev nD) :
    Pipeline.withArrays spec3 c (Wf c) (fun w => (dat3 (F := Ideal) (fun c b => Wf c b) c).arrAt w cfg3.N) = op3.result (Wf c) := by
  refine Cert.LibRegionAsOp.withArrays_eq_result spec3 launch3.win.arr_inj c (Wf c) _ op3 (fun w => ?_) (fun b hb => ?_)
  · match w with
    | 0 =>
      refine (hR.in3 (fun c b => Wf c b) c 0 (by decide)).trans ?_
      show Wf c (Proc.devRef .tc main_v90) = op3.result (Wf c) (Proc.devRef .tc main_v90)
      exact (HloOp.result_of_not_mem op3 (Wf c) (by rw [nary_writes, Finset.mem_singleton]; exact devRef_ne_of_ne (by decide))).symm
    | 1 =>
      refine (hR.in3 (fun c b => Wf c b) c 1 (by decide)).trans ?_
      show Wf c (Proc.devRef .tc main_arg6) = op3.result (Wf c) (Proc.devRef .tc main_arg6)
      exact (HloOp.result_of_not_mem op3 (Wf c) (by rw [nary_writes, Finset.mem_singleton]; exact devRef_ne_of_ne (by decide))).symm
    | 2 =>
      refine (hR.in3 (fun c b => Wf c b) c 2 (by decide)).trans ?_
      show Wf c (Proc.devRef .tc main_v91) = op3.result (Wf c) (Proc.devRef .tc main_v91)
      exact (HloOp.result_of_not_mem op3 (Wf c) (by rw [nary_writes, Finset.mem_singleton]; exact devRef_ne_of_ne (by decide))).symm
    | 3 =>
      refine (hR.in3 (fun c b => Wf c b) c 3 (by decide)).trans ?_
      show Wf c (Proc.devRef .tc main_arg8) = op3.result (Wf c) (Proc.devRef .tc main_arg8)
      exact (HloOp.result_of_not_mem op3 (Wf c) (by rw [nary_writes, Finset.mem_singleton]; exact devRef_ne_of_ne (by decide))).symm
    | 4 =>
      refine (hR.in3 (fun c b => Wf c b) c 4 (by decide)).trans ?_
      show Wf c (Proc.devRef .tc main_v92) = op3.result (Wf c) (Proc.devRef .tc main_v92)
      exact (HloOp.result_of_not_mem op3 (Wf c) (by rw [nary_writes, Finset.mem_singleton]; exact devRef_ne_of_ne (by decide))).symm
    | 5 =>
      refine (hR.final (fun c b => Wf c b) c).trans ?_
      show Cert.Stages.finalHost (Wf c (Proc.devRef .tc main_v90)) (Wf c (Proc.devRef .tc main_arg6)) (Wf c (Proc.devRef .tc main_v91)) (Wf c (Proc.devRef .tc main_arg8)) (Wf c (Proc.devRef .tc main_v92)) = op3.result (Wf c) (Proc.devRef .tc main_v93)
      exact (nary5_result (x0 := main_v90) (x1 := main_arg6) (x2 := main_v91) (x3 := main_arg8) (x4 := main_v92) (y := main_v93) (fun u => Cert.Stages.finalHost (u 0) (u 1) (u 2) (u 3) (u 4)) _ _ (Wf c)).symm
  · rw [nary_writes, Finset.mem_singleton] at hb
    exact ⟨5, hb.symm⟩

end Cert.KernelIdeal.KerLine

end
-- ==== Proof.KerSpec.lean ====
/-
  The stages of the network as whole-array functions on the extended reals, in the spelling of the kernel program's host
  operations.

  With S rows, G segments and D features: idxCol idx is the index vector as an [S,1] column; cnt idx is
  max(number of rows of each segment, 1) as a [G,1] column (a scatter-add of ones into zeros, then the maximum with
  1); segSum h idx the per-segment sums of the rows of h (a scatter-add into zeros); the per-segment mean is
  segSum · (1 / cnt) spread over the columns; wrapIdx adds G to a negative index; gath p w b idx gathers the rows of p·w + b at
  the wrapped indices; wSlice_k and bRow_k take the k-th [D,D] weight and the k-th bias as a [1,D] row.
  A layer is layerHost h w_k b_k (gath (mean h) w'_k b'_k), and the result is finalHost of the last layer's mean.
-/
import proofs.«138804_j12352325943902_1_alg».proof.KernelIdeal
import proofs.«138804_j12352325943902_1_alg».proof.Proof.Gen.KernelIdeal
import proofs.«138804_j12352325943902_1_alg».proof.Proof.Stages
import Idealize.ShloMosaic.PureOps.Ideal

noncomputable section

namespace Cert.KernelIdeal.KerSpec

open Idealize.ShloMosaic Cert.KernelIdeal Cert.KernelIdeal.Gen

/-- The index vector as a column. -/
def idxCol (idx : (⟨S131072, .i32⟩ : BufTy).Contents (Elt Ideal)) : (⟨S131072x1, .i32⟩ : BufTy).Contents (Elt Ideal) :=
  broadcastInDim S131072x1 ![0] bcast_S131072_S131072x1_0 idx

/-- max(rows per segment, 1), a [G,1] column. -/
def cnt (idx : (⟨S131072, .i32⟩ : BufTy).Contents (Elt Ideal)) : FVec Ideal S4096x1 .f32 :=
  maximumf (Host.scatterAdd (F := Ideal) scatter_S4096x1_S131072x1_S131072x1_1_0_0_1
      (broadcastInDim S4096x1 ![] bcast_S_S4096x1 (constant (F := Ideal) S_ .f32 0x00000000#32)) (idxCol idx)
      (broadcastInDim S131072x1 ![] bcast_S_S131072x1 (constant (F := Ideal) S_ .f32 0x3F800000#32)))
    (broadcastInDim S4096x1 ![] bcast_S_S4096x1 (constant (F := Ideal) S_ .f32 0x3F800000#32))

/-- The per-segment sums of the rows of h. -/
def segSum (h : FVec Ideal S131072x256 .f32) (idx : (⟨S131072, .i32⟩ : BufTy).Contents (Elt Ideal)) : FVec Ideal S4096x256 .f32 :=
  Host.scatterAdd (F := Ideal) scatter_S4096x256_S131072x1_S131072x256_1_0_0_1
    (broadcastInDim S4096x256 ![] bcast_S_S4096x256 (constant (F := Ideal) S_ .f32 0x00000000#32)) (idxCol idx) h

/-- 1 / cnt, computed once. -/
def invCnt (idx : (⟨S131072, .i32⟩ : BufTy).Contents (Elt Ideal)) : FVec Ideal S4096x1 .f32 :=
  Host.divf (F := Ideal) (broadcastInDim S4096x1 ![] bcast_S_S4096x1 (constant (F := Ideal) S_ .f32 0x3F800000#32)) (cnt idx)

/-- The per-segment mean, as a product with 1 / cnt. -/
def mean (h : FVec Ideal S131072x256 .f32) (idx : (⟨S131072, .i32⟩ : BufTy).Contents (Elt Ideal)) : FVec Ideal S4096x256 .f32 :=
  mulf (segSum h idx) (broadcastInDim S4096x256 ![0, 1] bcast_S4096x1_S4096x256_0_1 (invCnt idx))

/-- A negative index read from the end. -/
def wrapIdx (idx : (⟨S131072, .i32⟩ : BufTy).Contents (Elt Ideal)) : (⟨S131072, .i32⟩ : BufTy).Contents (Elt Ideal) :=
  select (cmpi .slt idx (broadcastInDim S131072 ![] bcast_S_S131072 (constantI S_ 32 0#32)))
    (addi idx (broadcastInDim S131072 ![] bcast_S_S131072 (constantI S_ 32 4096#32))) idx

/-- The rows of p·w + b at the wrapped indices. -/
def gath (p : FVec Ideal S4096x256 .f32) (w : FVec Ideal S256x256 .f32) (b : FVec Ideal S1x256 .f32)
    (idx : (⟨S131072, .i32⟩ : BufTy).Contents (Elt Ideal)) : FVec Ideal S131072x256 .f32 :=
  Host.gather gather_S4096x256_S131072x1_S131072x256_1_0_n_n_0_1_1256
    (addf (Host.dotGeneral (F := Ideal) dot_S4096x256_S256x256_S4096x256_1_0_0_1_n_n none p w)
      (broadcastInDim S4096x256 ![0, 1] bcast_S1x256_S4096x256_0_1 b)) (idxCol (wrapIdx idx))

/-- The weight of layer 0. -/
def wSlice0 (a : FVec Ideal S3x256x256 .f32) : FVec Ideal S256x256 .f32 :=
  shapeCast S256x256 (extractStridedSlice S1x256x256 ![0, 0, 0] a slices_S3x256x256_S1x256x256_0_0_0) shapeCasts_S1x256x256_S256x256
/-- The bias of layer 0 as a one-row array. -/
def bRow0 (a : FVec Ideal S3x256 .f32) : FVec Ideal S1x256 .f32 :=
  broadcastInDim S1x256 ![1] bcast_S256_S1x256_1
    (shapeCast S256 (extractStridedSlice S1x256 ![0, 0] a slices_S3x256_S1x256_0_0) shapeCasts_S1x256_S256)
/-- Layer 0. -/
def layer0 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice0 a2) (bRow0 a3) (gath (mean h idx) (wSlice0 a4) (bRow0 a5) idx)
/-- The weight of layer 1. -/
def wSlice1 (a : FVec Ideal S3x256x256 .f32) : FVec Ideal S256x256 .f32 :=
  shapeCast S256x256 (extractStridedSlice S1x256x256 ![1, 0, 0] a slices_S3x256x256_S1x256x256_1_0_0) shapeCasts_S1x256x256_S256x256
/-- The bias of layer 1 as a one-row array. -/
def bRow1 (a : FVec Ideal S3x256 .f32) : FVec Ideal S1x256 .f32 :=
  broadcastInDim S1x256 ![1] bcast_S256_S1x256_1
    (shapeCast S256 (extractStridedSlice S1x256 ![1, 0] a slices_S3x256_S1x256_1_0) shapeCasts_S1x256_S256)
/-- Layer 1. -/
def layer1 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice1 a2) (bRow1 a3) (gath (mean h idx) (wSlice1 a4) (bRow1 a5) idx)
/-- The weight of layer 2. -/
def wSlice2 (a : FVec Ideal S3x256x256 .f32) : FVec Ideal S256x256 .f32 :=
  shapeCast S256x256 (extractStridedSlice S1x256x256 ![2, 0, 0] a slices_S3x256x256_S1x256x256_2_0_0) shapeCasts_S1x256x256_S256x256
/-- The bias of layer 2 as a one-row array. -/
def bRow2 (a : FVec Ideal S3x256 .f32) : FVec Ideal S1x256 .f32 :=
  broadcastInDim S1x256 ![1] bcast_S256_S1x256_1
    (shapeCast S256 (extractStridedSlice S1x256 ![2, 0] a slices_S3x256_S1x256_2_0) shapeCasts_S1x256_S256)
/-- Layer 2. -/
def layer2 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice2 a2) (bRow2 a3) (gath (mean h idx) (wSlice2 a4) (bRow2 a5) idx)

/-- The program's result as a function of its ten arguments. -/
def out (a0 : FVec Ideal S131072x256 .f32) (a1 : (⟨S131072, .i32⟩ : BufTy).Contents (Elt Ideal))
    (a2 : FVec Ideal S3x256x256 .f32) (a3 : FVec Ideal S3x256 .f32) (a4 : FVec Ideal S3x256x256 .f32) (a5 : FVec Ideal S3x256 .f32)
    (a6 : FVec Ideal S256x512 .f32) (a7 : FVec Ideal S512 .f32) (a8 : FVec Ideal S512x10 .f32) (a9 : FVec Ideal S10 .f32) :
    FVec Ideal S4096x10 .f32 :=
  Cert.Stages.finalHost (mean (layer2 (layer1 (layer0 a0 a1 a2 a3 a4 a5) a1 a2 a3 a4 a5) a1 a2 a3 a4 a5) a1) a6
    (broadcastInDim S1x512 ![1] bcast_S512_S1x512_1 a7) a8 (broadcastInDim S1x10 ![1] bcast_S10_S1x10_1 a9)

end Cert.KernelIdeal.KerSpec

end
-- ==== Proof.KerValue.lean ====
/-
  The idealized kernel program's result as a function of its arguments.

  The buffer contents at the program's end are the fold of one line of whole-array operations over the launch
  contents: the host stretches, with each pipelined region replaced by its operation. Read at the result buffer, the
  fold is the composition of the network's stages: three layers, each elu((h·w_k + b_k) + gathered rows of
  mean(h)·w'_k + b'_k), then the read-out of the last layer's per-segment mean.
-/
import proofs.«138804_j12352325943902_1_alg».proof.Proof.KerLine
import proofs.«138804_j12352325943902_1_alg».proof.Proof.KerSpec

noncomputable section

namespace Cert.KernelIdeal.KerValue

open Cert.KernelIdeal Cert.KernelIdeal.Gen Cert.KernelIdeal.KerLine
open Idealize.ShloMosaic Idealize.ShloMosaic.TcCoe Idealize.ShloMosaic.StableHlo Idealize.SL.Sem

variable (m : (ℓ : Loc nD τ sig) → Buf (Elt Ideal) ℓ) (ρ : Dev nD → PrngReg) (hR : RegionValues)

include hR in
/-- The contents at the program's end: the regions' operations and the host stretches, composed. -/
theorem W8_eq (c : Dev nD) :
    W8 m ρ c = op3.result (after hostOps3 (op2.result (after hostOps2 (op1.result (after hostOps1
      (op0.result (after hostOps0 (W0 m ρ c)))))))) := by
  have h2 : W2 m ρ c = op0.result (W1 m ρ c) := region0_as_op hR (W1 m ρ) c
  have h4 : W4 m ρ c = op1.result (W3 m ρ c) := region1_as_op hR (W3 m ρ) c
  have h6 : W6 m ρ c = op2.result (W5 m ρ c) := region2_as_op hR (W5 m ρ) c
  have h8 : W8 m ρ c = op3.result (W7 m ρ c) := region3_as_op hR (W7 m ρ) c
  rw [h8]
  show op3.result (after hostOps3 (W6 m ρ c)) = _
  rw [h6]
  show op3.result (after hostOps3 (op2.result (after hostOps2 (W4 m ρ c)))) = _
  rw [h4]
  show op3.result (after hostOps3 (op2.result (after hostOps2 (op1.result (after hostOps1 (W2 m ρ c)))))) = _
  rw [h2]

attribute [local irreducible] Host.scatterAdd Host.gather in
set_option maxRecDepth 16384 in
set_option maxHeartbeats 4000000 in
include hR in
/-- The result buffer at the program's end holds the network's function of the ten arguments. -/
theorem out_read (c : Dev nD) :
    W8 m ρ c (Proc.devRef .tc main_v93) = Cert.KernelIdeal.KerSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W8_eq m ρ hR c]
  have h3 : ∀ X : Valuation τ sig (Elt Ideal), op3.result X (Proc.devRef .tc main_v93)
      = Cert.Stages.finalHost (X (Proc.devRef .tc main_v90)) (X (Proc.devRef .tc main_arg6)) (X (Proc.devRef .tc main_v91))
          (X (Proc.devRef .tc main_arg8)) (X (Proc.devRef .tc main_v92)) := fun X =>
    nary5_result (x0 := main_v90) (x1 := main_arg6) (x2 := main_v91) (x3 := main_arg8) (x4 := main_v92) (y := main_v93)
      (fun u => Cert.Stages.finalHost (u 0) (u 1) (u 2) (u 3) (u 4)) _ _ X
  rw [h3]
  simp only [hostOps0, hostOps1, hostOps2, hostOps3, op0, op1, op2]
  after_results_simp
  rfl

end Cert.KernelIdeal.KerValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«138804_j12352325943902_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibEluStage.lean ====
/-
  An affine stage, and the exponential linear unit after it, on the extended reals — in the two spellings that
  lower from "x @ w + b" and from "where(y > 0, y, exp(y) - 1)" against "elu(y)".

  For an M×K array x, a K×N weight w and a bias given as a one-row array b (shape [1, N]) the affine stage is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast
    to its own shape) spread over the rows, is the affine stage.
  * affine_of_dotGeneral: the host's product over the same dimension numbers plus the bias row spread along the axes
    [0, 1] is the affine stage.
  * affine_rows: a row of the stage depends on x only through the same row of x, so a block of rows of x gives that
    block of the stage (for kernels that tile the rows over a grid).
  * row_of_vector_cast, row_of_vector_bcast: a length-N vector made a [1, N] row by a reshape, or by a broadcast that
    keeps axis 1, reads the vector's entry c at (0, c); so the two rows are one array (row_cast_eq_bcast).

  The unit: elu y is y where the comparison y > 0 answers 1, and e^y − 1 elsewhere (the comparison against the zero word,
  the 1 written as the word 0x3F800000).
  * elu_of_where: the kernel's spelling select(y > 0, y, exp y − 1), with splat scalar constants, is elu entry by entry.
  * elu_of_expm1: the host's spelling select(y > 0, y, 1·expm1(select(y > 0, 0, y))), with rank-0 constants spread
    along no axis, is elu entry by entry: where the comparison answers 1 both give y; elsewhere the inner select
    gives y back, expm1 y is e^y − 1 by definition, and 1·z = z on the extended reals.
  No finiteness hypothesis anywhere. Over the library, the plain-product lemmas, the dense-stage row lemmas, the
  word spellings and the host-broadcast lemmas; every extent is a variable.
-/
import Idealize.ShloMosaic.PureOps.Ideal.Laws
import Idealize.ShloMosaic.Lib.ValueIdx
import Idealize.ShloMosaic.Lib.Pipeline.Value
import proofs.«138804_j12352325943902_1_alg».proof.Proof.LibPlainDot
import proofs.«138804_j12352325943902_1_alg».proof.Proof.LibDenseStage
import proofs.«138804_j12352325943902_1_alg».proof.Proof.LibSpellings
import proofs.«138804_j12352325943902_1_alg».proof.Proof.LibHostBroadcast

noncomputable section

namespace Cert.LibEluStage

open Idealize.ShloMosaic Idealize.ShloMosaic.ValueIdx

variable (M K N : Nat)

/-! ## The affine stage -/

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- Row a' of a block's stage is row a of the whole's, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The matrix unit's spelling of the affine stage. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the affine stage. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-! ## A vector as a one-row array -/

/-- A length-N vector reshaped to a [1, N] row reads, at (0, c), the vector's entry c. -/
theorem row_of_vector_cast {α : Type} (v : (⟨1, ![N]⟩ : Shape).Idx → α) (h : (⟨1, ![N]⟩ : Shape).ShapeCasts ⟨2, ![1, N]⟩)
    (u : Fin 1) (c : Fin N) : shapeCast ⟨2, ![1, N]⟩ v h (ix2 u c) = v (ix1 c) :=
  shapeCast_apply v h _ _ (by
    rw [Shape.rowMajor_val_two, Shape.rowMajor_val_one]
    show c.val = u.val * N + c.val
    have hu : u.val = 0 := Nat.lt_one_iff.mp u.isLt
    rw [hu, Nat.zero_mul, Nat.zero_add])

/-- The reshape and the axis-1 broadcast of a vector to a one-row array are one array. -/
theorem row_cast_eq_bcast {α : Type} (v : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    broadcastInDim ⟨2, ![1, N]⟩ ![1] h' v = shapeCast ⟨2, ![1, N]⟩ v h := by
  funext i
  obtain ⟨u, c, rfl⟩ : ∃ (u : Fin 1) (c : Fin N), i = ix2 u c := ⟨i 0, i 1, eq_ix2 i⟩
  rw [Cert.LibHostBroadcast.vec_to_row, row_of_vector_cast]

/-! ## The exponential linear unit -/

/-- y where y > 0 answers 1, e^y − 1 elsewhere. -/
def elu (y : Ideal .f32) : Ideal .f32 :=
  Scalar.select (FloatOps.cmpf .ogt y (Ideal.ofBits .f32 0x00000000#32)) y (Ideal.exp y - Ideal.ofBits .f32 0x3F800000#32)

/-- The kernel's spelling. -/
theorem elu_of_where {s : Shape} (y : FVec Ideal s .f32) :
    select (cmpf .ogt y (broadcast s (Scalar.ofBits (F := Ideal) .f32 0x00000000#32))) y
      (subf (exp y) (broadcast s (Scalar.ofBits (F := Ideal) .f32 0x3F800000#32)))
      = fun i => elu (y i) := rfl

/-- The host's spelling. -/
theorem elu_of_expm1 {s : Shape} (y : FVec Ideal s .f32)
    (h0 : (⟨0, ![]⟩ : Shape).BroadcastsInDim s (![] : Fin 0 → Fin s.rank)) :
    select (cmpf .ogt y (broadcastInDim s ![] h0 (constant (F := Ideal) ⟨0, ![]⟩ .f32 0x00000000#32))) y
      (mulf (broadcastInDim s ![] h0 (constant (F := Ideal) ⟨0, ![]⟩ .f32 0x3F800000#32))
        (Host.expm1 (select (cmpf .ogt y (broadcastInDim s ![] h0 (constant (F := Ideal) ⟨0, ![]⟩ .f32 0x00000000#32)))
          (broadcastInDim s ![] h0 (id (constant (F := Ideal) ⟨0, ![]⟩ .f32 0x00000000#32))) y)))
      = fun i => elu (y i) := by
  funext i
  have hz : broadcastInDim s ![] h0 (constant (F := Ideal) ⟨0, ![]⟩ .f32 0x00000000#32) i = Ideal.ofBits .f32 0x00000000#32 :=
    Cert.LibHostBroadcast.scalar_to_any _ h0 i
  have ho : broadcastInDim s ![] h0 (constant (F := Ideal) ⟨0, ![]⟩ .f32 0x3F800000#32) i = Ideal.ofBits .f32 0x3F800000#32 :=
    Cert.LibHostBroadcast.scalar_to_any _ h0 i
  rw [select_apply, cmpf_apply, hz, mulf_apply, ho]
  show Scalar.select _ (y i) (Ideal.ofBits .f32 0x3F800000#32 * (Ideal.exp (select _ _ y i) - 1)) = elu (y i)
  rw [select_apply, cmpf_apply, hz]
  unfold elu
  rcases BitVec.eq_zero_or_eq_one (FloatOps.cmpf (F := Ideal) .ogt (y i) (Ideal.ofBits .f32 0x00000000#32)) with hc | hc
  · rw [hc, select_zero, select_zero, select_zero, Cert.LibSpellings.ofBits_one_f32, one_mul]
  · rw [hc, select_one, select_one]

end Cert.LibEluStage

end
-- ==== Proof.RegionSpec.lean ====
/-
  The two fused stages of the network as functions of whole arrays, entry by entry, on the extended reals — over
  variable extents — and each in the spelling a tiled kernel body gives it on a block of rows.

  * layer h w b g, for an M×K state h, a K×N weight w, a one-row bias b ([1, N]) and an M×N added term g:
        (a, c) ↦ elu (Σ_{k<K} h(a,k)·w(k,c) + b(0,c) + g(a,c)) .
    layer_of_body: a matrix unit's product of the 16-bit-narrowed operands (narrowing is the identity on the extended
    reals; the operands first recast to their own shapes) into a zero accumulator, plus the bias row spread over the
    rows, plus g, then select(y > 0, y, exp y − 1), is layer. layer_of_host: the host's product plus the bias row
    spread along the axes [0, 1], plus g, then select(y > 0, y, 1·expm1(select(y > 0, 0, y))), is layer.
    layer_rows: row a' of layer on a block of rows is row a of layer on the whole, when the block's row a' is the
    whole's row a in both h and g.
  * readout p w1 b1 w2 b2, for an M×K array p, a K×H weight, an H×N weight and one-row biases:
        (a, c) ↦ Σ_{j<H} max (Σ_{k<K} p(a,k)·w1(k,j) + b1(0,j)) 0 · w2(j,c) + b2(0,c) .
    readout_of_body, readout_of_host, readout_rows: the same three facts.
  No finiteness hypothesis anywhere.
-/
import Idealize.ShloMosaic.PureOps.Ideal.Laws
import Idealize.ShloMosaic.Lib.ValueIdx
import Idealize.ShloMosaic.Lib.Pipeline.Value
import proofs.«138804_j12352325943902_1_alg».proof.Proof.LibDenseStage
import proofs.«138804_j12352325943902_1_alg».proof.Proof.LibEluStage

noncomputable section

namespace Cert.RegionSpec

open Idealize.ShloMosaic Idealize.ShloMosaic.ValueIdx

/-! ## One layer update -/

section Layer

variable (M K N : Nat)

/-- elu of the affine stage plus the added term. -/
def layer (h : FVec Ideal ⟨2, ![M, K]⟩ .f32) (w : FVec Ideal ⟨2, ![K, N]⟩ .f32) (b : FVec Ideal ⟨2, ![1, N]⟩ .f32)
    (g : FVec Ideal ⟨2, ![M, N]⟩ .f32) : FVec Ideal ⟨2, ![M, N]⟩ .f32 :=
  fun i => Cert.LibEluStage.elu (addf (Cert.LibEluStage.affine M K N h w b) g i)

theorem layer_apply (h : FVec Ideal ⟨2, ![M, K]⟩ .f32) (w : FVec Ideal ⟨2, ![K, N]⟩ .f32) (b : FVec Ideal ⟨2, ![1, N]⟩ .f32)
    (g : FVec Ideal ⟨2, ![M, N]⟩ .f32) (a : Fin M) (c : Fin N) :
    layer M K N h w b g (ix2 a c)
      = Cert.LibEluStage.elu (Cert.LibEluStage.affine M K N h w b (ix2 a c) + g (ix2 a c)) := rfl

/-- Row a' of a block's layer is row a of the whole's, when the block's row a' is the whole's row a. -/
theorem layer_rows (M' : Nat) (H : FVec Ideal ⟨2, ![M, K]⟩ .f32) (x : FVec Ideal ⟨2, ![M', K]⟩ .f32)
    (w : FVec Ideal ⟨2, ![K, N]⟩ .f32) (b : FVec Ideal ⟨2, ![1, N]⟩ .f32)
    (G : FVec Ideal ⟨2, ![M, N]⟩ .f32) (g : FVec Ideal ⟨2, ![M', N]⟩ .f32) (a : Fin M) (a' : Fin M')
    (hx : ∀ k : Fin K, x (ix2 a' k) = H (ix2 a k)) (c : Fin N) (hg : g (ix2 a' c) = G (ix2 a c)) :
    layer M' K N x w b g (ix2 a' c) = layer M K N H w b G (ix2 a c) := by
  rw [layer_apply, layer_apply, Cert.LibEluStage.affine_rows M K N M' H x w b a a' hx c, hg]

/-- The kernel body's spelling, on operands recast to their own shapes. -/
theorem layer_of_body (x : FVec Ideal ⟨2, ![M, K]⟩ .f32) (w : FVec Ideal ⟨2, ![K, N]⟩ .f32) (b : FVec Ideal ⟨2, ![1, N]⟩ .f32)
    (g : FVec Ideal ⟨2, ![M, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    select (cmpf .ogt
        (addf (addf (matmul (F := Ideal) (DotDims.plain M K N) none (truncf .bf16 x h1) (truncf .bf16 w h2)
          (constant ⟨2, ![M, N]⟩ .f32 0x00000000#32)) (broadcastTo ⟨2, ![M, N]⟩ (shapeCast ⟨2, ![1, N]⟩ b hc) hb)) g)
        (broadcast ⟨2, ![M, N]⟩ (Scalar.ofBits (F := Ideal) .f32 0x00000000#32)))
      (addf (addf (matmul (F := Ideal) (DotDims.plain M K N) none (truncf .bf16 x h1) (truncf .bf16 w h2)
          (constant ⟨2, ![M, N]⟩ .f32 0x00000000#32)) (broadcastTo ⟨2, ![M, N]⟩ (shapeCast ⟨2, ![1, N]⟩ b hc) hb)) g)
      (subf (exp (addf (addf (matmul (F := Ideal) (DotDims.plain M K N) none (truncf .bf16 x h1) (truncf .bf16 w h2)
          (constant ⟨2, ![M, N]⟩ .f32 0x00000000#32)) (broadcastTo ⟨2, ![M, N]⟩ (shapeCast ⟨2, ![1, N]⟩ b hc) hb)) g))
        (broadcast ⟨2, ![M, N]⟩ (Scalar.ofBits (F := Ideal) .f32 0x3F800000#32)))
      = layer M K N x w b g := by
  rw [Cert.LibEluStage.affine_of_matmul M K N x w b h1 h2 hc hb]
  exact Cert.LibEluStage.elu_of_where _

/-- The host's spelling. -/
theorem layer_of_host (h : FVec Ideal ⟨2, ![M, K]⟩ .f32) (w : FVec Ideal ⟨2, ![K, N]⟩ .f32) (b : FVec Ideal ⟨2, ![1, N]⟩ .f32)
    (g : FVec Ideal ⟨2, ![M, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    select (cmpf .ogt
        (addf (addf (Host.dotGeneral (F := Ideal) (DotDims.plain M K N) none h w) (broadcastInDim ⟨2, ![M, N]⟩ ![0, 1] hb b)) g)
        (broadcastInDim ⟨2, ![M, N]⟩ ![] h0 (constant (F := Ideal) ⟨0, ![]⟩ .f32 0x00000000#32)))
      (addf (addf (Host.dotGeneral (F := Ideal) (DotDims.plain M K N) none h w) (broadcastInDim ⟨2, ![M, N]⟩ ![0, 1] hb b)) g)
      (mulf (broadcastInDim ⟨2, ![M, N]⟩ ![] h0 (constant (F := Ideal) ⟨0, ![]⟩ .f32 0x3F800000#32))
        (Host.expm1 (select (cmpf .ogt
            (addf (addf (Host.dotGeneral (F := Ideal) (DotDims.plain M K N) none h w) (broadcastInDim ⟨2, ![M, N]⟩ ![0, 1] hb b)) g)
            (broadcastInDim ⟨2, ![M, N]⟩ ![] h0 (constant (F := Ideal) ⟨0, ![]⟩ .f32 0x00000000#32)))
          (broadcastInDim ⟨2, ![M, N]⟩ ![] h0 (id (constant (F := Ideal) ⟨0, ![]⟩ .f32 0x00000000#32)))
          (addf (addf (Host.dotGeneral (F := Ideal) (DotDims.plain M K N) none h w) (broadcastInDim ⟨2, ![M, N]⟩ ![0, 1] hb b)) g))))
      = layer M K N h w b g := by
  rw [Cert.LibEluStage.affine_of_dotGeneral M K N h w b hb]
  exact Cert.LibEluStage.elu_of_expm1 _ h0

end Layer

/-! ## The read-out -/

section Readout

variable (M K H N : Nat)

/-- The dense stage with the positive part, then the affine stage. -/
def readout (p : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  Cert.LibEluStage.affine M H N (Cert.LibDenseStage.stage M K H p w1 b1) w2 b2

/-- Row a' of a block's read-out is row a of the whole's, when the block's row a' is the whole's row a. -/
theorem readout_rows (M' : Nat) (P : FVec Ideal ⟨2, ![M, K]⟩ .f32) (x : FVec Ideal ⟨2, ![M', K]⟩ .f32)
    (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (a : Fin M) (a' : Fin M')
    (hx : ∀ k : Fin K, x (ix2 a' k) = P (ix2 a k)) (c : Fin N) :
    readout M' K H N x w1 b1 w2 b2 (ix2 a' c) = readout M K H N P w1 b1 w2 b2 (ix2 a c) :=
  Cert.LibEluStage.affine_rows M H N M' _ _ w2 b2 a a'
    (fun j => Cert.LibDenseStage.stage_rows M K H M' P x w1 b1 a a' hx j) c

/-- The kernel body's spelling. -/
theorem readout_of_body (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (h1 h2 h3 h4 : FTy.bf16.bits < FTy.f32.bits)
    (hc1 : (⟨2, ![1, H]⟩ : Shape).ShapeCasts ⟨2, ![1, H]⟩) (hb1 : (⟨2, ![1, H]⟩ : Shape).Broadcasts ⟨2, ![M, H]⟩)
    (hc2 : (⟨2, ![1, N]⟩ : Shape).ShapeCasts ⟨2, ![1, N]⟩) (hb2 : (⟨2, ![1, N]⟩ : Shape).Broadcasts ⟨2, ![M, N]⟩) :
    addf (matmul (F := Ideal) (DotDims.plain M H N) none
          (truncf .bf16 (maximumf (addf (matmul (F := Ideal) (DotDims.plain M K H) none (truncf .bf16 x h1) (truncf .bf16 w1 h2)
                (constant ⟨2, ![M, H]⟩ .f32 0x00000000#32))
              (broadcastTo ⟨2, ![M, H]⟩ (shapeCast ⟨2, ![1, H]⟩ b1 hc1) hb1))
            (broadcast ⟨2, ![M, H]⟩ (Scalar.ofBits (F := Ideal) .f32 0x00000000#32))) h3)
          (truncf .bf16 w2 h4) (constant ⟨2, ![M, N]⟩ .f32 0x00000000#32))
        (broadcastTo ⟨2, ![M, N]⟩ (shapeCast ⟨2, ![1, N]⟩ b2 hc2) hb2)
      = readout M K H N x w1 b1 w2 b2 := by
  rw [Cert.LibDenseStage.stage_of_matmul M K H x w1 b1 h1 h2 hc1 hb1]
  exact Cert.LibEluStage.affine_of_matmul M H N _ w2 b2 h3 h4 hc2 hb2

/-- The host's spelling. -/
theorem readout_of_host (p : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hb1 : (⟨2, ![1, H]⟩ : Shape).BroadcastsInDim ⟨2, ![M, H]⟩ (![0, 1] : Fin 2 → Fin 2))
    (h0 : (⟨0, ![]⟩ : Shape).BroadcastsInDim ⟨2, ![M, H]⟩ (![] : Fin 0 → Fin 2))
    (hb2 : (⟨2, ![1, N]⟩ : Shape).BroadcastsInDim ⟨2, ![M, N]⟩ (![0, 1] : Fin 2 → Fin 2)) :
    addf (Host.dotGeneral (F := Ideal) (DotDims.plain M H N) none
          (maximumf (addf (Host.dotGeneral (F := Ideal) (DotDims.plain M K H) none p w1) (broadcastInDim ⟨2, ![M, H]⟩ ![0, 1] hb1 b1))
            (broadcastInDim ⟨2, ![M, H]⟩ ![] h0 (constant (F := Ideal) ⟨0, ![]⟩ .f32 0x00000000#32))) w2)
        (broadcastInDim ⟨2, ![M, N]⟩ ![0, 1] hb2 b2)
      = readout M K H N p w1 b1 w2 b2 := by
  rw [Cert.LibDenseStage.stage_of_dotGeneral M K H p w1 b1 hb1 h0]
  exact Cert.LibEluStage.affine_of_dotGeneral M H N _ w2 b2 hb2

end Readout

end Cert.RegionSpec

end
-- ==== Proof.RegionHost.lean ====
/-
  The two host-spelt stages are the entry-by-entry stages: the layer update at 131072×256 by 256×256, and the read-out
  at 4096×256 by 256×512 by 512×10. The reference's dimension-number records are the plain ones, by unfolding.
-/
import proofs.«138804_j12352325943902_1_alg».proof.ReferenceIdeal
import proofs.«138804_j12352325943902_1_alg».proof.Proof.Gen.ReferenceIdeal
import proofs.«138804_j12352325943902_1_alg».proof.Proof.Stages
import proofs.«138804_j12352325943902_1_alg».proof.Proof.RegionSpec

noncomputable section

namespace Cert.RegionHost

open Idealize.ShloMosaic Cert.ReferenceIdeal Cert.ReferenceIdeal.Gen

theorem dotL_eq : dot_S131072x256_S256x256_S131072x256_1_0_0_1_n_n = DotDims.plain 131072 256 256 := rfl
theorem dotF1_eq : dot_S4096x256_S256x512_S4096x512_1_0_0_1_n_n = DotDims.plain 4096 256 512 := rfl
theorem dotF2_eq : dot_S4096x512_S512x10_S4096x10_1_0_0_1_n_n = DotDims.plain 4096 512 10 := rfl

/-- The host's layer update is the entry-by-entry one. -/
theorem layerHost_eq (h : FVec Ideal S131072x256 .f32) (w : FVec Ideal S256x256 .f32) (b : FVec Ideal S1x256 .f32)
    (g : FVec Ideal S131072x256 .f32) :
    Cert.Stages.layerHost h w b g = Cert.RegionSpec.layer 131072 256 256 h w b g := by
  unfold Cert.Stages.layerHost Cert.Stages.eluHost
  rw [dotL_eq]
  exact Cert.RegionSpec.layer_of_host 131072 256 256 h w b g bcast_S1x256_S131072x256_0_1 bcast_S_S131072x256

/-- The host's read-out is the entry-by-entry one. -/
theorem finalHost_eq (p : FVec Ideal S4096x256 .f32) (w1 : FVec Ideal S256x512 .f32) (b1 : FVec Ideal S1x512 .f32)
    (w2 : FVec Ideal S512x10 .f32) (b2 : FVec Ideal S1x10 .f32) :
    Cert.Stages.finalHost p w1 b1 w2 b2 = Cert.RegionSpec.readout 4096 256 512 10 p w1 b1 w2 b2 := by
  unfold Cert.Stages.finalHost
  rw [dotF1_eq, dotF2_eq]
  exact Cert.RegionSpec.readout_of_host 4096 256 512 10 p w1 b1 w2 b2 bcast_S1x512_S4096x512_0_1 bcast_S_S4096x512 bcast_S1x10_S4096x10_0_1

end Cert.RegionHost

end
-- ==== Proof.RegionLayer0.lean ====
/-
  Region 0 of the kernel program — a tiled layer update, 64 blocks of 2048 rows — as a function of whole arrays: the
  output array after the region is elu((h·w + b) + g) of the four input arrays as the region finds them, in the host's
  spelling; the input arrays are as the region finds them.
  The body's stored value is the entry-by-entry layer update of its loaded blocks; block t of the state, of the added
  term and of the output is rows 2048·t … 2048·t + 2047 of its array, the weight and the bias row are read whole; a
  row of the update depends on the state and the added term through that row only; the 64 blocks cover the array.
-/
import proofs.«138804_j12352325943902_1_alg».proof.Proof.Gen.KernelIdeal.Frame
import Idealize.ShloMosaic.Lib.Pipeline.Value
import proofs.«138804_j12352325943902_1_alg».proof.Proof.Stages
import proofs.«138804_j12352325943902_1_alg».proof.Proof.RegionSpec
import proofs.«138804_j12352325943902_1_alg».proof.Proof.RegionHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's stored value -/

/-- The zero offsets, as a constant function. -/
theorem hz0 : (![0, 0] : Fin 2 → Nat) = fun _ => 0 := funext fun a => by fin_cases a <;> rfl

/-- The body's dimension numbers are the plain ones of a 2048×256 by 256×256 product. -/
theorem dot0_eq : dot_S2048x256_S256x256_S2048x256_1_0_0_1_n_n = DotDims.plain 2048 256 256 := rfl

/-- The body's stored value is the layer update of its four loaded blocks. -/
theorem pay0_eq (x0 : FVec Ideal S2048x256 .f32) (x1 : FVec Ideal S256x256 .f32) (x2 : FVec Ideal S1x256 .f32)
    (x3 : FVec Ideal S2048x256 .f32) :
    k0_pay1 (F := Ideal) x0 x1 x2 x3 = Cert.RegionSpec.layer 2048 256 256 x0 x1 x2 x3 := by
  unfold k0_pay1
  dsimp only
  rw [shapeCast_self x1, shapeCast_self x3, dot0_eq]
  exact Cert.RegionSpec.layer_of_body 2048 256 256 x0 x1 x2 x3 bitsLt_bf16_f32 bitsLt_bf16_f32 shapeCasts_S1x256_S1x256
    broadcasts_S1x256_S2048x256

/-! ## From blocks to the array -/

/-- The printed index maps, decided over the 64 grid points: the state, the added term and the output move together,
    one block of rows per point; the weight and the bias row stay at block zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The layer update on a block of 2048 rows is the block of the layer update on the whole array, when the block's
    state and added term are rows q·2048 … of the whole's and the weight and bias are the whole's. -/
theorem layer_block0 (Hh : FVec Ideal S131072x256 .f32) (W : FVec Ideal S256x256 .f32) (B : FVec Ideal S1x256 .f32)
    (G : FVec Ideal S131072x256 .f32) (x0 : FVec Ideal S2048x256 .f32) (x1 : FVec Ideal S256x256 .f32)
    (x2 : FVec Ideal S1x256 .f32) (x3 : FVec Ideal S2048x256 .f32) (q : Nat)
    (h0 : ∀ (j : S2048x256.Idx) (i : S131072x256.Idx), (i 0).val = q * 2048 + (j 0).val → (i 1).val = (j 1).val → x0 j = Hh i)
    (h1 : x1 = W) (h2 : x2 = B)
    (h3 : ∀ (j : S2048x256.Idx) (i : S131072x256.Idx), (i 0).val = q * 2048 + (j 0).val → (i 1).val = (j 1).val → x3 j = G i)
    (j : S2048x256.Idx) (i : S131072x256.Idx) (hi0 : (i 0).val = q * 2048 + (j 0).val) (hi1 : (i 1).val = (j 1).val) :
    Cert.RegionSpec.layer 2048 256 256 x0 x1 x2 x3 j = Cert.RegionSpec.layer 131072 256 256 Hh W B G i := by
  subst h1 h2
  obtain ⟨a', c', rfl⟩ : ∃ (a' : Fin 2048) (c' : Fin 256), j = ix2 a' c' := ⟨j 0, j 1, eq_ix2 j⟩
  obtain ⟨a, c, rfl⟩ : ∃ (a : Fin 131072) (c : Fin 256), i = ix2 a c := ⟨i 0, i 1, eq_ix2 i⟩
  obtain rfl : c = c' := Fin.ext hi1
  exact Cert.RegionSpec.layer_rows 131072 256 256 2048 Hh x0 x1 x2 G x3 a a'
    (fun k => h0 (ix2 a' k) (ix2 a k) hi0 rfl) c (h3 (ix2 a' c) (ix2 a c) hi0 rfl)

/-- The whole-array function the region computes: the layer update of the four arrays as the region finds them. -/
abbrev L0 (c : Dev nD) : FVec Ideal S131072x256 .f32 :=
  Cert.RegionSpec.layer 131072 256 256 (V c (Pipeline.arrRef spec0 0)) (V c (Pipeline.arrRef spec0 1))
    (V c (Pipeline.arrRef spec0 2)) (V c (Pipeline.arrRef spec0 3))

/-- What point t writes back is block t of that function. -/
theorem flushed0_eq (c : Dev nD) (t : Fin cfg0.N) :
    (dat0 (F := Ideal) V c).flushed 4 t = ((cfg0.win 4).blk t).view.read (Elt Ideal) (L0 V c) := by
  show (cfg0.win 4).cut (grid0.coords t) ((dat0 (F := Ideal) V c).after 4 t) = _
  rw [after0_4]
  unfold out0_4
  rw [View.canon_unit_zero hz0]
  simp only [View.ld_unit_zero (S := S2048x256) hz0, View.ld_unit_zero (S := S256x256) hz0, View.ld_unit_zero (S := S1x256) hz0]
  rw [pay0_eq]
  obtain ⟨e00, e01, e10, e11, e20, e21, e30, e31, e40, e41⟩ := idx_facts0 t
  funext j
  show Cert.RegionSpec.layer 2048 256 256 (iblk0 V c 0 t) (iblk0 V c 1 t) (iblk0 V c 2 t) (iblk0 V c 3 t) j
    = L0 V c (((cfg0.win 4).blk t).view.emb j)
  refine layer_block0 (V c (Pipeline.arrRef spec0 0)) (V c (Pipeline.arrRef spec0 1)) (V c (Pipeline.arrRef spec0 2))
    (V c (Pipeline.arrRef spec0 3)) (iblk0 V c 0 t) (iblk0 V c 1 t) (iblk0 V c 2 t) (iblk0 V c 3 t) t.val ?_ ?_ ?_ ?_ j _ ?_ ?_
  · intro j' i' h0 h1
    show V c (Pipeline.arrRef spec0 0) (((cfg0.win 0).blk t).view.emb j') = V c (Pipeline.arrRef spec0 0) i'
    refine congrArg _ (funext fun a => Fin.ext ?_)
    match a with
    | ⟨0, _⟩ => show win0_0.index t (0 : Fin 2) * 2048 + 1 * (j' 0).val = (i' 0).val; omega
    | ⟨1, _⟩ => show win0_0.index t (1 : Fin 2) * 256 + 1 * (j' 1).val = (i' 1).val; omega
  · funext j'
    show V c (Pipeline.arrRef spec0 1) (((cfg0.win 1).blk t).view.emb j') = V c (Pipeline.arrRef spec0 1) j'
    refine congrArg _ (funext fun a => Fin.ext ?_)
    match a with
    | ⟨0, _⟩ => show win0_1.index t (0 : Fin 2) * 256 + 1 * (j' 0).val = (j' 0).val; omega
    | ⟨1, _⟩ => show win0_1.index t (1 : Fin 2) * 256 + 1 * (j' 1).val = (j' 1).val; omega
  · funext j'
    show V c (Pipeline.arrRef spec0 2) (((cfg0.win 2).blk t).view.emb j') = V c (Pipeline.arrRef spec0 2) j'
    refine congrArg _ (funext fun a => Fin.ext ?_)
    match a with
    | ⟨0, _⟩ => show win0_2.index t (0 : Fin 2) * 1 + 1 * (j' 0).val = (j' 0).val; omega
    | ⟨1, _⟩ => show win0_2.index t (1 : Fin 2) * 256 + 1 * (j' 1).val = (j' 1).val; omega
  · intro j' i' h0 h1
    show V c (Pipeline.arrRef spec0 3) (((cfg0.win 3).blk t).view.emb j') = V c (Pipeline.arrRef spec0 3) i'
    refine congrArg _ (funext fun a => Fin.ext ?_)
    match a with
    | ⟨0, _⟩ => show win0_3.index t (0 : Fin 2) * 2048 + 1 * (j' 0).val = (i' 0).val; omega
    | ⟨1, _⟩ => show win0_3.index t (1 : Fin 2) * 256 + 1 * (j' 1).val = (i' 1).val; omega
  · show win0_4.index t (0 : Fin 2) * 2048 + 1 * (j 0).val = t.val * 2048 + (j 0).val; omega
  · show win0_4.index t (1 : Fin 2) * 256 + 1 * (j 1).val = (j 1).val; omega

/-- An index of the output array is in point t's block iff each coordinate is in the block's range on its axis. -/
theorem mem_blk0 (t : Fin cfg0.N) (i : S131072x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v33).slice (win0_4.rect t)).set ↔ _
  rw [View.set_slice_whole, Rect.mem_set_unit]
  exact Iff.rfl

/-- Every index of the output array is in the block of the point its row divided by 2048 names. -/
theorem cover0 (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  obtain ⟨t, ht⟩ : ∃ t : Fin cfg0.N, t.val = (i 0).val / 2048 :=
    ⟨⟨(i 0).val / 2048, by show (i 0).val / 2048 < 64; omega⟩, rfl⟩
  obtain ⟨-, -, -, -, -, -, -, -, e40, e41⟩ := idx_facts0 t
  refine ⟨t, flush0_4 t, ?_⟩
  rw [mem_blk0]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 256 ≤ (i 1).val ∧ (i 1).val < win0_4.index t (1 : Fin 2) * 256 + 256
    omega

/-! ## The region's arrays -/

/-- The output array after the region is the host-spelt layer update of the input arrays as the region finds them. -/
theorem layer_arr0 (c : Dev nD) :
    (Gen.dat0 (F := Ideal) V c).arrAt 4 cfg0.N
      = Cert.Stages.layerHost (V c (Pipeline.arrRef spec0 0)) (V c (Pipeline.arrRef spec0 1))
          (V c (Pipeline.arrRef spec0 2)) (V c (Pipeline.arrRef spec0 3)) := by
  rw [Cert.RegionHost.layerHost_eq]
  exact (dat0 (F := Ideal) V c).arrAt_eq_of_cover 4 (L0 V c) (fun t _ => flushed0_eq V c t) cover0

/-- The input arrays are never written: after the region each is as the region found it. -/
theorem in_arr0_0 (c : Dev nD) : (Gen.dat0 (F := Ideal) V c).arrAt 0 cfg0.N = V c (Pipeline.arrRef spec0 0) :=
  ((Gen.dat0 (F := Ideal) V c).arrAt_in 0 rfl _).trans (A_eq0 V c 0)
theorem in_arr0_1 (c : Dev nD) : (Gen.dat0 (F := Ideal) V c).arrAt 1 cfg0.N = V c (Pipeline.arrRef spec0 1) :=
  ((Gen.dat0 (F := Ideal) V c).arrAt_in 1 rfl _).trans (A_eq0 V c 1)
theorem in_arr0_2 (c : Dev nD) : (Gen.dat0 (F := Ideal) V c).arrAt 2 cfg0.N = V c (Pipeline.arrRef spec0 2) :=
  ((Gen.dat0 (F := Ideal) V c).arrAt_in 2 rfl _).trans (A_eq0 V c 2)
theorem in_arr0_3 (c : Dev nD) : (Gen.dat0 (F := Ideal) V c).arrAt 3 cfg0.N = V c (Pipeline.arrRef spec0 3) :=
  ((Gen.dat0 (F := Ideal) V c).arrAt_in 3 rfl _).trans (A_eq0 V c 3)

end Cert.KernelIdeal.Regions

end
-- ==== Proof.RegionLayer1.lean ====
/-
  Region 1 of the kernel program — a tiled layer update, 64 blocks of 2048 rows — as a function of whole arrays: the
  output array after the region is elu((h·w + b) + g) of the four input arrays as the region finds them, in the host's
  spelling; the input arrays are as the region finds them.
  The body's stored value is the entry-by-entry layer update of its loaded blocks; block t of the state, of the added
  term and of the output is rows 2048·t … 2048·t + 2047 of its array, the weight and the bias row are read whole; a
  row of the update depends on the state and the added term through that row only; the 64 blocks cover the array.
-/
import proofs.«138804_j12352325943902_1_alg».proof.Proof.Gen.KernelIdeal.Frame
import Idealize.ShloMosaic.Lib.Pipeline.Value
import proofs.«138804_j12352325943902_1_alg».proof.Proof.Stages
import proofs.«138804_j12352325943902_1_alg».proof.Proof.RegionSpec
import proofs.«138804_j12352325943902_1_alg».proof.Proof.RegionHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's stored value -/

/-- The zero offsets, as a constant function. -/
theorem hz1 : (![0, 0] : Fin 2 → Nat) = fun _ => 0 := funext fun a => by fin_cases a <;> rfl

/-- The body's dimension numbers are the plain ones of a 2048×256 by 256×256 product. -/
theorem dot1_eq : dot_S2048x256_S256x256_S2048x256_1_0_0_1_n_n = DotDims.plain 2048 256 256 := rfl

/-- The body's stored value is the layer update of its four loaded blocks. -/
theorem pay1_eq (x0 : FVec Ideal S2048x256 .f32) (x1 : FVec Ideal S256x256 .f32) (x2 : FVec Ideal S1x256 .f32)
    (x3 : FVec Ideal S2048x256 .f32) :
    k1_pay1 (F := Ideal) x0 x1 x2 x3 = Cert.RegionSpec.layer 2048 256 256 x0 x1 x2 x3 := by
  unfold k1_pay1
  dsimp only
  rw [shapeCast_self x0, shapeCast_self x1, shapeCast_self x3, dot1_eq]
  exact Cert.RegionSpec.layer_of_body 2048 256 256 x0 x1 x2 x3 bitsLt_bf16_f32 bitsLt_bf16_f32 shapeCasts_S1x256_S1x256
    broadcasts_S1x256_S2048x256

/-! ## From blocks to the array -/

/-- The printed index maps, decided over the 64 grid points: the state, the added term and the output move together,
    one block of rows per point; the weight and the bias row stay at block zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The layer update on a block of 2048 rows is the block of the layer update on the whole array, when the block's
    state and added term are rows q·2048 … of the whole's and the weight and bias are the whole's. -/
theorem layer_block1 (Hh : FVec Ideal S131072x256 .f32) (W : FVec Ideal S256x256 .f32) (B : FVec Ideal S1x256 .f32)
    (G : FVec Ideal S131072x256 .f32) (x0 : FVec Ideal S2048x256 .f32) (x1 : FVec Ideal S256x256 .f32)
    (x2 : FVec Ideal S1x256 .f32) (x3 : FVec Ideal S2048x256 .f32) (q : Nat)
    (h0 : ∀ (j : S2048x256.Idx) (i : S131072x256.Idx), (i 0).val = q * 2048 + (j 0).val → (i 1).val = (j 1).val → x0 j = Hh i)
    (h1 : x1 = W) (h2 : x2 = B)
    (h3 : ∀ (j : S2048x256.Idx) (i : S131072x256.Idx), (i 0).val = q * 2048 + (j 0).val → (i 1).val = (j 1).val → x3 j = G i)
    (j : S2048x256.Idx) (i : S131072x256.Idx) (hi0 : (i 0).val = q * 2048 + (j 0).val) (hi1 : (i 1).val = (j 1).val) :
    Cert.RegionSpec.layer 2048 256 256 x0 x1 x2 x3 j = Cert.RegionSpec.layer 131072 256 256 Hh W B G i := by
  subst h1 h2
  obtain ⟨a', c', rfl⟩ : ∃ (a' : Fin 2048) (c' : Fin 256), j = ix2 a' c' := ⟨j 0, j 1, eq_ix2 j⟩
  obtain ⟨a, c, rfl⟩ : ∃ (a : Fin 131072) (c : Fin 256), i = ix2 a c := ⟨i 0, i 1, eq_ix2 i⟩
  obtain rfl : c = c' := Fin.ext hi1
  exact Cert.RegionSpec.layer_rows 131072 256 256 2048 Hh x0 x1 x2 G x3 a a'
    (fun k => h0 (ix2 a' k) (ix2 a k) hi0 rfl) c (h3 (ix2 a' c) (ix2 a c) hi0 rfl)

/-- The whole-array function the region computes: the layer update of the four arrays as the region finds them. -/
abbrev L1 (c : Dev nD) : FVec Ideal S131072x256 .f32 :=
  Cert.RegionSpec.layer 131072 256 256 (V c (Pipeline.arrRef spec1 0)) (V c (Pipeline.arrRef spec1 1))
    (V c (Pipeline.arrRef spec1 2)) (V c (Pipeline.arrRef spec1 3))

/-- What point t writes back is block t of that function. -/
theorem flushed1_eq (c : Dev nD) (t : Fin cfg1.N) :
    (dat1 (F := Ideal) V c).flushed 4 t = ((cfg1.win 4).blk t).view.read (Elt Ideal) (L1 V c) := by
  show (cfg1.win 4).cut (grid1.coords t) ((dat1 (F := Ideal) V c).after 4 t) = _
  rw [after1_4]
  unfold out1_4
  rw [View.canon_unit_zero hz1]
  simp only [View.ld_unit_zero (S := S2048x256) hz1, View.ld_unit_zero (S := S256x256) hz1, View.ld_unit_zero (S := S1x256) hz1]
  rw [pay1_eq]
  obtain ⟨e00, e01, e10, e11, e20, e21, e30, e31, e40, e41⟩ := idx_facts1 t
  funext j
  show Cert.RegionSpec.layer 2048 256 256 (iblk1 V c 0 t) (iblk1 V c 1 t) (iblk1 V c 2 t) (iblk1 V c 3 t) j
    = L1 V c (((cfg1.win 4).blk t).view.emb j)
  refine layer_block1 (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) t.val ?_ ?_ ?_ ?_ j _ ?_ ?_
  · intro j' i' h0 h1
    show V c (Pipeline.arrRef spec1 0) (((cfg1.win 0).blk t).view.emb j') = V c (Pipeline.arrRef spec1 0) i'
    refine congrArg _ (funext fun a => Fin.ext ?_)
    match a with
    | ⟨0, _⟩ => show win1_0.index t (0 : Fin 2) * 2048 + 1 * (j' 0).val = (i' 0).val; omega
    | ⟨1, _⟩ => show win1_0.index t (1 : Fin 2) * 256 + 1 * (j' 1).val = (i' 1).val; omega
  · funext j'
    show V c (Pipeline.arrRef spec1 1) (((cfg1.win 1).blk t).view.emb j') = V c (Pipeline.arrRef spec1 1) j'
    refine congrArg _ (funext fun a => Fin.ext ?_)
    match a with
    | ⟨0, _⟩ => show win1_1.index t (0 : Fin 2) * 256 + 1 * (j' 0).val = (j' 0).val; omega
    | ⟨1, _⟩ => show win1_1.index t (1 : Fin 2) * 256 + 1 * (j' 1).val = (j' 1).val; omega
  · funext j'
    show V c (Pipeline.arrRef spec1 2) (((cfg1.win 2).blk t).view.emb j') = V c (Pipeline.arrRef spec1 2) j'
    refine congrArg _ (funext fun a => Fin.ext ?_)
    match a with
    | ⟨0, _⟩ => show win1_2.index t (0 : Fin 2) * 1 + 1 * (j' 0).val = (j' 0).val; omega
    | ⟨1, _⟩ => show win1_2.index t (1 : Fin 2) * 256 + 1 * (j' 1).val = (j' 1).val; omega
  · intro j' i' h0 h1
    show V c (Pipeline.arrRef spec1 3) (((cfg1.win 3).blk t).view.emb j') = V c (Pipeline.arrRef spec1 3) i'
    refine congrArg _ (funext fun a => Fin.ext ?_)
    match a with
    | ⟨0, _⟩ => show win1_3.index t (0 : Fin 2) * 2048 + 1 * (j' 0).val = (i' 0).val; omega
    | ⟨1, _⟩ => show win1_3.index t (1 : Fin 2) * 256 + 1 * (j' 1).val = (i' 1).val; omega
  · show win1_4.index t (0 : Fin 2) * 2048 + 1 * (j 0).val = t.val * 2048 + (j 0).val; omega
  · show win1_4.index t (1 : Fin 2) * 256 + 1 * (j 1).val = (j 1).val; omega

/-- An index of the output array is in point t's block iff each coordinate is in the block's range on its axis. -/
theorem mem_blk1 (t : Fin cfg1.N) (i : S131072x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v59).slice (win1_4.rect t)).set ↔ _
  rw [View.set_slice_whole, Rect.mem_set_unit]
  exact Iff.rfl

/-- Every index of the output array is in the block of the point its row divided by 2048 names. -/
theorem cover1 (i : S131072x256.Idx) :
    ∃ t : Fin cfg1.N, (cfg1.win 4).flush t = true ∧ i ∈ ((cfg1.win 4).blk t).view.set := by
  have hi0 : (i 0).val < 131072 := (i 0).isLt
  have hi1 : (i 1).val < 256 := (i 1).isLt
  obtain ⟨t, ht⟩ : ∃ t : Fin cfg1.N, t.val = (i 0).val / 2048 :=
    ⟨⟨(i 0).val / 2048, by show (i 0).val / 2048 < 64; omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 256 ≤ (i 1).val ∧ (i 1).val < win1_4.index t (1 : Fin 2) * 256 + 256
    omega

/-! ## The region's arrays -/

/-- The output array after the region is the host-spelt layer update of the input arrays as the region finds them. -/
theorem layer_arr1 (c : Dev nD) :
    (Gen.dat1 (F := Ideal) V c).arrAt 4 cfg1.N
      = Cert.Stages.layerHost (V c (Pipeline.arrRef spec1 0)) (V c (Pipeline.arrRef spec1 1))
          (V c (Pipeline.arrRef spec1 2)) (V c (Pipeline.arrRef spec1 3)) := by
  rw [Cert.RegionHost.layerHost_eq]
  exact (dat1 (F := Ideal) V c).arrAt_eq_of_cover 4 (L1 V c) (fun t _ => flushed1_eq V c t) cover1

/-- The input arrays are never written: after the region each is as the region found it. -/
theorem in_arr1_0 (c : Dev nD) : (Gen.dat1 (F := Ideal) V c).arrAt 0 cfg1.N = V c (Pipeline.arrRef spec1 0) :=
  ((Gen.dat1 (F := Ideal) V c).arrAt_in 0 rfl _).trans (A_eq1 V c 0)
theorem in_arr1_1 (c : Dev nD) : (Gen.dat1 (F := Ideal) V c).arrAt 1 cfg1.N = V c (Pipeline.arrRef spec1 1) :=
  ((Gen.dat1 (F := Ideal) V c).arrAt_in 1 rfl _).trans (A_eq1 V c 1)
theorem in_arr1_2 (c : Dev nD) : (Gen.dat1 (F := Ideal) V c).arrAt 2 cfg1.N = V c (Pipeline.arrRef spec1 2) :=
  ((Gen.dat1 (F := Ideal) V c).arrAt_in 2 rfl _).trans (A_eq1 V c 2)
theorem in_arr1_3 (c : Dev nD) : (Gen.dat1 (F := Ideal) V c).arrAt 3 cfg1.N = V c (Pipeline.arrRef spec1 3) :=
  ((Gen.dat1 (F := Ideal) V c).arrAt_in 3 rfl _).trans (A_eq1 V c 3)

end Cert.KernelIdeal.Regions

end
-- ==== Proof.RegionLayer2.lean ====
/-
  Region 2 of the kernel program — a tiled layer update, 64 blocks of 2048 rows — as a function of whole arrays: the
  output array after the region is elu((h·w + b) + g) of the four input arrays as the region finds them, in the host's
  spelling; the input arrays are as the region finds them.
  The body's stored value is the entry-by-entry layer update of its loaded blocks; block t of the state, of the added
  term and of the output is rows 2048·t … 2048·t + 2047 of its array, the weight and the bias row are read whole; a
  row of the update depends on the state and the added term through that row only; the 64 blocks cover the array.
-/
import proofs.«138804_j12352325943902_1_alg».proof.Proof.Gen.KernelIdeal.Frame
import Idealize.ShloMosaic.Lib.Pipeline.Value
import proofs.«138804_j12352325943902_1_alg».proof.Proof.Stages
import proofs.«138804_j12352325943902_1_alg».proof.Proof.RegionSpec
import proofs.«138804_j12352325943902_1_alg».proof.Proof.RegionHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's stored value -/

/-- The zero offsets, as a constant function. -/
theorem hz2 : (![0, 0] : Fin 2 → Nat) = fun _ => 0 := funext fun a => by fin_cases a <;> rfl

/-- The body's dimension numbers are the plain ones of a 2048×256 by 256×256 product. -/
theorem dot2_eq : dot_S2048x256_S256x256_S2048x256_1_0_0_1_n_n = DotDims.plain 2048 256 256 := rfl

/-- The body's stored value is the layer update of its four loaded blocks. -/
theorem pay2_eq (x0 : FVec Ideal S2048x256 .f32) (x1 : FVec Ideal S256x256 .f32) (x2 : FVec Ideal S1x256 .f32)
    (x3 : FVec Ideal S2048x256 .f32) :
    k2_pay1 (F := Ideal) x0 x1 x2 x3 = Cert.RegionSpec.layer 2048 256 256 x0 x1 x2 x3 := by
  unfold k2_pay1
  dsimp only
  rw [shapeCast_self x0, shapeCast_self x1, shapeCast_self x3, dot2_eq]
  exact Cert.RegionSpec.layer_of_body 2048 256 256 x0 x1 x2 x3 bitsLt_bf16_f32 bitsLt_bf16_f32 shapeCasts_S1x256_S1x256
    broadcasts_S1x256_S2048x256

/-! ## From blocks to the array -/

/-- The printed index maps, decided over the 64 grid points: the state, the added term and the output move together,
    one block of rows per point; the weight and the bias row stay at block zero. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The layer update on a block of 2048 rows is the block of the layer update on the whole array, when the block's
    state and added term are rows q·2048 … of the whole's and the weight and bias are the whole's. -/
theorem layer_block2 (Hh : FVec Ideal S131072x256 .f32) (W : FVec Ideal S256x256 .f32) (B : FVec Ideal S1x256 .f32)
    (G : FVec Ideal S131072x256 .f32) (x0 : FVec Ideal S2048x256 .f32) (x1 : FVec Ideal S256x256 .f32)
    (x2 : FVec Ideal S1x256 .f32) (x3 : FVec Ideal S2048x256 .f32) (q : Nat)
    (h0 : ∀ (j : S2048x256.Idx) (i : S131072x256.Idx), (i 0).val = q * 2048 + (j 0).val → (i 1).val = (j 1).val → x0 j = Hh i)
    (h1 : x1 = W) (h2 : x2 = B)
    (h3 : ∀ (j : S2048x256.Idx) (i : S131072x256.Idx), (i 0).val = q * 2048 + (j 0).val → (i 1).val = (j 1).val → x3 j = G i)
    (j : S2048x256.Idx) (i : S131072x256.Idx) (hi0 : (i 0).val = q * 2048 + (j 0).val) (hi1 : (i 1).val = (j 1).val) :
    Cert.RegionSpec.layer 2048 256 256 x0 x1 x2 x3 j = Cert.RegionSpec.layer 131072 256 256 Hh W B G i := by
  subst h1 h2
  obtain ⟨a', c', rfl⟩ : ∃ (a' : Fin 2048) (c' : Fin 256), j = ix2 a' c' := ⟨j 0, j 1, eq_ix2 j⟩
  obtain ⟨a, c, rfl⟩ : ∃ (a : Fin 131072) (c : Fin 256), i = ix2 a c := ⟨i 0, i 1, eq_ix2 i⟩
  obtain rfl : c = c' := Fin.ext hi1
  exact Cert.RegionSpec.layer_rows 131072 256 256 2048 Hh x0 x1 x2 G x3 a a'
    (fun k => h0 (ix2 a' k) (ix2 a k) hi0 rfl) c (h3 (ix2 a' c) (ix2 a c) hi0 rfl)

/-- The whole-array function the region computes: the layer update of the four arrays as the region finds them. -/
abbrev L2 (c : Dev nD) : FVec Ideal S131072x256 .f32 :=
  Cert.RegionSpec.layer 131072 256 256 (V c (Pipeline.arrRef spec2 0)) (V c (Pipeline.arrRef spec2 1))
    (V c (Pipeline.arrRef spec2 2)) (V c (Pipeline.arrRef spec2 3))

/-- Block t of the state is its rows 2048·t … . -/
theorem rows2_0 (c : Dev nD) (t : Fin cfg2.N) (j' : S2048x256.Idx) (i' : S131072x256.Idx)
    (h0 : (i' 0).val = t.val * 2048 + (j' 0).val) (h1 : (i' 1).val = (j' 1).val) :
    iblk2 V c 0 t j' = V c (Pipeline.arrRef spec2 0) i' := by
  obtain ⟨e00, e01, -⟩ := idx_facts2 t
  show V c (Pipeline.arrRef spec2 0) (((cfg2.win 0).blk t).view.emb j') = V c (Pipeline.arrRef spec2 0) i'
  refine congrArg _ (funext fun a => Fin.ext ?_)
  match a with
  | ⟨0, _⟩ => show win2_0.index t (0 : Fin 2) * 2048 + 1 * (j' 0).val = (i' 0).val; omega
  | ⟨1, _⟩ => show win2_0.index t (1 : Fin 2) * 256 + 1 * (j' 1).val = (i' 1).val; omega

/-- The weight is read whole at every point. -/
theorem whole2_1 (c : Dev nD) (t : Fin cfg2.N) : iblk2 V c 1 t = V c (Pipeline.arrRef spec2 1) := by
  obtain ⟨-, -, e10, e11, -⟩ := idx_facts2 t
  funext j'
  show V c (Pipeline.arrRef spec2 1) (((cfg2.win 1).blk t).view.emb j') = V c (Pipeline.arrRef spec2 1) j'
  refine congrArg _ (funext fun a => Fin.ext ?_)
  match a with
  | ⟨0, _⟩ => show win2_1.index t (0 : Fin 2) * 256 + 1 * (j' 0).val = (j' 0).val; omega
  | ⟨1, _⟩ => show win2_1.index t (1 : Fin 2) * 256 + 1 * (j' 1).val = (j' 1).val; omega

/-- The bias row is read whole at every point. -/
theorem whole2_2 (c : Dev nD) (t : Fin cfg2.N) : iblk2 V c 2 t = V c (Pipeline.arrRef spec2 2) := by
  obtain ⟨-, -, -, -, e20, e21, -⟩ := idx_facts2 t
  funext j'
  show V c (Pipeline.arrRef spec2 2) (((cfg2.win 2).blk t).view.emb j') = V c (Pipeline.arrRef spec2 2) j'
  refine congrArg _ (funext fun a => Fin.ext ?_)
  match a with
  | ⟨0, _⟩ => show win2_2.index t (0 : Fin 2) * 1 + 1 * (j' 0).val = (j' 0).val; omega
  | ⟨1, _⟩ => show win2_2.index t (1 : Fin 2) * 256 + 1 * (j' 1).val = (j' 1).val; omega

/-- Block t of the added term is its rows 2048·t … . -/
theorem rows2_3 (c : Dev nD) (t : Fin cfg2.N) (j' : S2048x256.Idx) (i' : S131072x256.Idx)
    (h0 : (i' 0).val = t.val * 2048 + (j' 0).val) (h1 : (i' 1).val = (j' 1).val) :
    iblk2 V c 3 t j' = V c (Pipeline.arrRef spec2 3) i' := by
  obtain ⟨-, -, -, -, -, -, e30, e31, -⟩ := idx_facts2 t
  show V c (Pipeline.arrRef spec2 3) (((cfg2.win 3).blk t).view.emb j') = V c (Pipeline.arrRef spec2 3) i'
  refine congrArg _ (funext fun a => Fin.ext ?_)
  match a with
  | ⟨0, _⟩ => show win2_3.index t (0 : Fin 2) * 2048 + 1 * (j' 0).val = (i' 0).val; omega
  | ⟨1, _⟩ => show win2_3.index t (1 : Fin 2) * 256 + 1 * (j' 1).val = (i' 1).val; omega

/-- What point t writes back is block t of that function. -/
theorem flushed2_eq (c : Dev nD) (t : Fin cfg2.N) :
    (dat2 (F := Ideal) V c).flushed 4 t = ((cfg2.win 4).blk t).view.read (Elt Ideal) (L2 V c) := by
  show (cfg2.win 4).cut (grid2.coords t) ((dat2 (F := Ideal) V c).after 4 t) = _
  rw [after2_4]
  unfold out2_4
  rw [View.canon_unit_zero hz2]
  simp only [View.ld_unit_zero (S := S2048x256) hz2, View.ld_unit_zero (S := S256x256) hz2, View.ld_unit_zero (S := S1x256) hz2]
  rw [pay2_eq]
  obtain ⟨-, -, -, -, -, -, -, -, e40, e41⟩ := idx_facts2 t
  funext j
  show Cert.RegionSpec.layer 2048 256 256 (iblk2 V c 0 t) (iblk2 V c 1 t) (iblk2 V c 2 t) (iblk2 V c 3 t) j
    = L2 V c (((cfg2.win 4).blk t).view.emb j)
  refine layer_block2 (V c (Pipeline.arrRef spec2 0)) (V c (Pipeline.arrRef spec2 1)) (V c (Pipeline.arrRef spec2 2))
    (V c (Pipeline.arrRef spec2 3)) (iblk2 V c 0 t) (iblk2 V c 1 t) (iblk2 V c 2 t) (iblk2 V c 3 t) t.val
    (rows2_0 V c t) (whole2_1 V c t) (whole2_2 V c t) (rows2_3 V c t) j _ ?_ ?_
  · show win2_4.index t (0 : Fin 2) * 2048 + 1 * (j 0).val = t.val * 2048 + (j 0).val; omega
  · show win2_4.index t (1 : Fin 2) * 256 + 1 * (j 1).val = (j 1).val; omega

/-- An index of the output array is in point t's block iff each coordinate is in the block's range on its axis. -/
theorem mem_blk2 (t : Fin cfg2.N) (i : S131072x256.Idx) :
    i ∈ ((cfg2.win 4).blk t).view.set ↔ ∀ a : Fin 2, win2_4.index t a * S2048x256.size a ≤ (i a).val
      ∧ (i a).val < win2_4.index t a * S2048x256.size a + S2048x256.size a := by
  show i ∈ ((View.whole main_v85).slice (win2_4.rect t)).set ↔ _
  rw [View.set_slice_whole, Rect.mem_set_unit]
  exact Iff.rfl

/-- Every index of the output array is in the block of the point its row divided by 2048 names. -/
theorem cover2 (i : S131072x256.Idx) :
    ∃ t : Fin cfg2.N, (cfg2.win 4).flush t = true ∧ i ∈ ((cfg2.win 4).blk t).view.set := by
  have hi0 : (i 0).val < 131072 := (i 0).isLt
  have hi1 : (i 1).val < 256 := (i 1).isLt
  obtain ⟨t, ht⟩ : ∃ t : Fin cfg2.N, t.val = (i 0).val / 2048 :=
    ⟨⟨(i 0).val / 2048, by show (i 0).val / 2048 < 64; omega⟩, rfl⟩
  obtain ⟨-, -, -, -, -, -, -, -, e40, e41⟩ := idx_facts2 t
  refine ⟨t, flush2_4 t, ?_⟩
  rw [mem_blk2]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 256 ≤ (i 1).val ∧ (i 1).val < win2_4.index t (1 : Fin 2) * 256 + 256
    omega

/-! ## The region's arrays -/

/-- The output array after the region is the host-spelt layer update of the input arrays as the region finds them. -/
theorem layer_arr2 (c : Dev nD) :
    (Gen.dat2 (F := Ideal) V c).arrAt 4 cfg2.N
      = Cert.Stages.layerHost (V c (Pipeline.arrRef spec2 0)) (V c (Pipeline.arrRef spec2 1))
          (V c (Pipeline.arrRef spec2 2)) (V c (Pipeline.arrRef spec2 3)) := by
  rw [Cert.RegionHost.layerHost_eq]
  exact (dat2 (F := Ideal) V c).arrAt_eq_of_cover 4 (L2 V c) (fun t _ => flushed2_eq V c t) cover2

/-- The input arrays are never written: after the region each is as the region found it. -/
theorem in_arr2_0 (c : Dev nD) : (Gen.dat2 (F := Ideal) V c).arrAt 0 cfg2.N = V c (Pipeline.arrRef spec2 0) :=
  ((Gen.dat2 (F := Ideal) V c).arrAt_in 0 rfl _).trans (A_eq2 V c 0)
theorem in_arr2_1 (c : Dev nD) : (Gen.dat2 (F := Ideal) V c).arrAt 1 cfg2.N = V c (Pipeline.arrRef spec2 1) :=
  ((Gen.dat2 (F := Ideal) V c).arrAt_in 1 rfl _).trans (A_eq2 V c 1)
theorem in_arr2_2 (c : Dev nD) : (Gen.dat2 (F := Ideal) V c).arrAt 2 cfg2.N = V c (Pipeline.arrRef spec2 2) :=
  ((Gen.dat2 (F := Ideal) V c).arrAt_in 2 rfl _).trans (A_eq2 V c 2)
theorem in_arr2_3 (c : Dev nD) : (Gen.dat2 (F := Ideal) V c).arrAt 3 cfg2.N = V c (Pipeline.arrRef spec2 3) :=
  ((Gen.dat2 (F := Ideal) V c).arrAt_in 3 rfl _).trans (A_eq2 V c 3)

end Cert.KernelIdeal.Regions

end
-- ==== Proof.RegionFinal.lean ====
/-
  Region 3 of the kernel program — the tiled read-out, 4 blocks of 1024 rows — as a function of whole arrays: the output
  array after the region is max(p·w1 + b1, 0)·w2 + b2 of the five input arrays as the region finds them, in the host's
  spelling; the input arrays are as the region finds them.
  The body's stored value is the entry-by-entry read-out of its loaded blocks; block t of the pooled array and of the
  output is rows 1024·t … 1024·t + 1023 of its array, the weights and the bias rows are read whole; a row of the
  read-out depends on the pooled array through that row only; the 4 blocks cover the array.
-/
import proofs.«138804_j12352325943902_1_alg».proof.Proof.Gen.KernelIdeal.Frame
import Idealize.ShloMosaic.Lib.Pipeline.Value
import proofs.«138804_j12352325943902_1_alg».proof.Proof.Stages
import proofs.«138804_j12352325943902_1_alg».proof.Proof.RegionSpec
import proofs.«138804_j12352325943902_1_alg».proof.Proof.RegionHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's stored value -/

/-- The zero offsets, as a constant function. -/
theorem hz3 : (![0, 0] : Fin 2 → Nat) = fun _ => 0 := funext fun a => by fin_cases a <;> rfl

/-- The body's two dimension-number records are the plain ones. -/
theorem dot3a_eq : dot_S1024x256_S256x512_S1024x512_1_0_0_1_n_n = DotDims.plain 1024 256 512 := rfl
theorem dot3b_eq : dot_S1024x512_S512x10_S1024x10_1_0_0_1_n_n = DotDims.plain 1024 512 10 := rfl

/-- The body's stored value is the read-out of its five loaded blocks. -/
theorem pay3_eq (x0 : FVec Ideal S1024x256 .f32) (x1 : FVec Ideal S256x512 .f32) (x2 : FVec Ideal S1x512 .f32)
    (x3 : FVec Ideal S512x10 .f32) (x4 : FVec Ideal S1x10 .f32) :
    k3_pay1 (F := Ideal) x0 x1 x2 x3 x4 = Cert.RegionSpec.readout 1024 256 512 10 x0 x1 x2 x3 x4 := by
  unfold k3_pay1
  dsimp only
  rw [shapeCast_self x0, dot3a_eq, dot3b_eq]
  exact Cert.RegionSpec.readout_of_body 1024 256 512 10 x0 x1 x2 x3 x4 bitsLt_bf16_f32 bitsLt_bf16_f32 bitsLt_bf16_f32
    bitsLt_bf16_f32 shapeCasts_S1x512_S1x512 broadcasts_S1x512_S1024x512 shapeCasts_S1x10_S1x10 broadcasts_S1x10_S1024x10

/-! ## From blocks to the array -/

/-- The printed index maps, decided over the 4 grid points: the pooled array and the output move together, one block
    of rows per point; the weights and the bias rows stay at block zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The read-out on a block of 1024 rows is the block of the read-out on the whole array, when the block's pooled rows
    are rows q·1024 … of the whole's and the weights and bias rows are the whole's. -/
theorem readout_block (P : FVec Ideal S4096x256 .f32) (W1 : FVec Ideal S256x512 .f32) (B1 : FVec Ideal S1x512 .f32)
    (W2 : FVec Ideal S512x10 .f32) (B2 : FVec Ideal S1x10 .f32) (x0 : FVec Ideal S1024x256 .f32)
    (x1 : FVec Ideal S256x512 .f32) (x2 : FVec Ideal S1x512 .f32) (x3 : FVec Ideal S512x10 .f32) (x4 : FVec Ideal S1x10 .f32)
    (q : Nat)
    (h0 : ∀ (j : S1024x256.Idx) (i : S4096x256.Idx), (i 0).val = q * 1024 + (j 0).val → (i 1).val = (j 1).val → x0 j = P i)
    (h1 : x1 = W1) (h2 : x2 = B1) (h3 : x3 = W2) (h4 : x4 = B2)
    (j : S1024x10.Idx) (i : S4096x10.Idx) (hi0 : (i 0).val = q * 1024 + (j 0).val) (hi1 : (i 1).val = (j 1).val) :
    Cert.RegionSpec.readout 1024 256 512 10 x0 x1 x2 x3 x4 j = Cert.RegionSpec.readout 4096 256 512 10 P W1 B1 W2 B2 i := by
  subst h1 h2 h3 h4
  obtain ⟨a', c', rfl⟩ : ∃ (a' : Fin 1024) (c' : Fin 10), j = ix2 a' c' := ⟨j 0, j 1, eq_ix2 j⟩
  obtain ⟨a, c, rfl⟩ : ∃ (a : Fin 4096) (c : Fin 10), i = ix2 a c := ⟨i 0, i 1, eq_ix2 i⟩
  obtain rfl : c = c' := Fin.ext hi1
  exact Cert.RegionSpec.readout_rows 4096 256 512 10 1024 P x0 x1 x2 x3 x4 a a'
    (fun k => h0 (ix2 a' k) (ix2 a k) hi0 rfl) c

/-- The whole-array function the region computes: the read-out of the five arrays as the region finds them. -/
abbrev R3 (c : Dev nD) : FVec Ideal S4096x10 .f32 :=
  Cert.RegionSpec.readout 4096 256 512 10 (V c (Pipeline.arrRef spec3 0)) (V c (Pipeline.arrRef spec3 1))
    (V c (Pipeline.arrRef spec3 2)) (V c (Pipeline.arrRef spec3 3)) (V c (Pipeline.arrRef spec3 4))

/-- Block t of the pooled array is its rows 1024·t … . -/
theorem rows3_0 (c : Dev nD) (t : Fin cfg3.N) (j' : S1024x256.Idx) (i' : S4096x256.Idx)
    (h0 : (i' 0).val = t.val * 1024 + (j' 0).val) (h1 : (i' 1).val = (j' 1).val) :
    iblk3 V c 0 t j' = V c (Pipeline.arrRef spec3 0) i' := by
  obtain ⟨e00, e01, -⟩ := idx_facts3 t
  show V c (Pipeline.arrRef spec3 0) (((cfg3.win 0).blk t).view.emb j') = V c (Pipeline.arrRef spec3 0) i'
  refine congrArg _ (funext fun a => Fin.ext ?_)
  match a with
  | ⟨0, _⟩ => show win3_0.index t (0 : Fin 2) * 1024 + 1 * (j' 0).val = (i' 0).val; omega
  | ⟨1, _⟩ => show win3_0.index t (1 : Fin 2) * 256 + 1 * (j' 1).val = (i' 1).val; omega

/-- The first weight is read whole at every point. -/
theorem whole3_1 (c : Dev nD) (t : Fin cfg3.N) : iblk3 V c 1 t = V c (Pipeline.arrRef spec3 1) := by
  obtain ⟨-, -, e10, e11, e20, e21, e30, e31, e40, e41, -, -⟩ := idx_facts3 t
  funext j'
  show V c (Pipeline.arrRef spec3 1) (((cfg3.win 1).blk t).view.emb j') = V c (Pipeline.arrRef spec3 1) j'
  refine congrArg _ (funext fun a => Fin.ext ?_)
  match a with
  | ⟨0, _⟩ => show win3_1.index t (0 : Fin 2) * 256 + 1 * (j' 0).val = (j' 0).val; omega
  | ⟨1, _⟩ => show win3_1.index t (1 : Fin 2) * 512 + 1 * (j' 1).val = (j' 1).val; omega

/-- The first bias row is read whole at every point. -/
theorem whole3_2 (c : Dev nD) (t : Fin cfg3.N) : iblk3 V c 2 t = V c (Pipeline.arrRef spec3 2) := by
  obtain ⟨-, -, e10, e11, e20, e21, e30, e31, e40, e41, -, -⟩ := idx_facts3 t
  funext j'
  show V c (Pipeline.arrRef spec3 2) (((cfg3.win 2).blk t).view.emb j') = V c (Pipeline.arrRef spec3 2) j'
  refine congrArg _ (funext fun a => Fin.ext ?_)
  match a with
  | ⟨0, _⟩ => show win3_2.index t (0 : Fin 2) * 1 + 1 * (j' 0).val = (j' 0).val; omega
  | ⟨1, _⟩ => show win3_2.index t (1 : Fin 2) * 512 + 1 * (j' 1).val = (j' 1).val; omega

/-- The second weight is read whole at every point. -/
theorem whole3_3 (c : Dev nD) (t : Fin cfg3.N) : iblk3 V c 3 t = V c (Pipeline.arrRef spec3 3) := by
  obtain ⟨-, -, e10, e11, e20, e21, e30, e31, e40, e41, -, -⟩ := idx_facts3 t
  funext j'
  show V c (Pipeline.arrRef spec3 3) (((cfg3.win 3).blk t).view.emb j') = V c (Pipeline.arrRef spec3 3) j'
  refine congrArg _ (funext fun a => Fin.ext ?_)
  match a with
  | ⟨0, _⟩ => show win3_3.index t (0 : Fin 2) * 512 + 1 * (j' 0).val = (j' 0).val; omega
  | ⟨1, _⟩ => show win3_3.index t (1 : Fin 2) * 10 + 1 * (j' 1).val = (j' 1).val; omega

/-- The second bias row is read whole at every point. -/
theorem whole3_4 (c : Dev nD) (t : Fin cfg3.N) : iblk3 V c 4 t = V c (Pipeline.arrRef spec3 4) := by
  obtain ⟨-, -, e10, e11, e20, e21, e30, e31, e40, e41, -, -⟩ := idx_facts3 t
  funext j'
  show V c (Pipeline.arrRef spec3 4) (((cfg3.win 4).blk t).view.emb j') = V c (Pipeline.arrRef spec3 4) j'
  refine congrArg _ (funext fun a => Fin.ext ?_)
  match a with
  | ⟨0, _⟩ => show win3_4.index t (0 : Fin 2) * 1 + 1 * (j' 0).val = (j' 0).val; omega
  | ⟨1, _⟩ => show win3_4.index t (1 : Fin 2) * 10 + 1 * (j' 1).val = (j' 1).val; omega

/-- What point t writes back is block t of that function. -/
theorem flushed3_eq (c : Dev nD) (t : Fin cfg3.N) :
    (dat3 (F := Ideal) V c).flushed 5 t = ((cfg3.win 5).blk t).view.read (Elt Ideal) (R3 V c) := by
  show (cfg3.win 5).cut (grid3.coords t) ((dat3 (F := Ideal) V c).after 5 t) = _
  rw [after3_5]
  unfold out3_5
  rw [View.canon_unit_zero hz3]
  simp only [View.ld_unit_zero (S := S1024x256) hz3, View.ld_unit_zero (S := S256x512) hz3, View.ld_unit_zero (S := S1x512) hz3,
    View.ld_unit_zero (S := S512x10) hz3, View.ld_unit_zero (S := S1x10) hz3]
  rw [pay3_eq]
  obtain ⟨-, -, -, -, -, -, -, -, -, -, e50, e51⟩ := idx_facts3 t
  funext j
  show Cert.RegionSpec.readout 1024 256 512 10 (iblk3 V c 0 t) (iblk3 V c 1 t) (iblk3 V c 2 t) (iblk3 V c 3 t) (iblk3 V c 4 t) j
    = R3 V c (((cfg3.win 5).blk t).view.emb j)
  refine readout_block (V c (Pipeline.arrRef spec3 0)) (V c (Pipeline.arrRef spec3 1)) (V c (Pipeline.arrRef spec3 2))
    (V c (Pipeline.arrRef spec3 3)) (V c (Pipeline.arrRef spec3 4)) (iblk3 V c 0 t) (iblk3 V c 1 t) (iblk3 V c 2 t)
    (iblk3 V c 3 t) (iblk3 V c 4 t) t.val (rows3_0 V c t) (whole3_1 V c t) (whole3_2 V c t) (whole3_3 V c t) (whole3_4 V c t)
    j _ ?_ ?_
  · show win3_5.index t (0 : Fin 2) * 1024 + 1 * (j 0).val = t.val * 1024 + (j 0).val; omega
  · show win3_5.index t (1 : Fin 2) * 10 + 1 * (j 1).val = (j 1).val; omega

/-- An index of the output array is in point t's block iff each coordinate is in the block's range on its axis. -/
theorem mem_blk3 (t : Fin cfg3.N) (i : S4096x10.Idx) :
    i ∈ ((cfg3.win 5).blk t).view.set ↔ ∀ a : Fin 2, win3_5.index t a * S1024x10.size a ≤ (i a).val
      ∧ (i a).val < win3_5.index t a * S1024x10.size a + S1024x10.size a := by
  show i ∈ ((View.whole main_v93).slice (win3_5.rect t)).set ↔ _
  rw [View.set_slice_whole, Rect.mem_set_unit]
  exact Iff.rfl

/-- Every index of the output array is in the block of the point its row divided by 1024 names. -/
theorem cover3 (i : S4096x10.Idx) :
    ∃ t : Fin cfg3.N, (cfg3.win 5).flush t = true ∧ i ∈ ((cfg3.win 5).blk t).view.set := by
  have hi0 : (i 0).val < 4096 := (i 0).isLt
  have hi1 : (i 1).val < 10 := (i 1).isLt
  obtain ⟨t, ht⟩ : ∃ t : Fin cfg3.N, t.val = (i 0).val / 1024 :=
    ⟨⟨(i 0).val / 1024, by show (i 0).val / 1024 < 4; omega⟩, rfl⟩
  obtain ⟨-, -, -, -, -, -, -, -, -, -, e50, e51⟩ := idx_facts3 t
  refine ⟨t, flush3_5 t, ?_⟩
  rw [mem_blk3]
  intro a
  match a with
  | ⟨0, _⟩ =>
    show win3_5.index t (0 : Fin 2) * 1024 ≤ (i 0).val ∧ (i 0).val < win3_5.index t (0 : Fin 2) * 1024 + 1024
    omega
  | ⟨1, _⟩ =>
    show win3_5.index t (1 : Fin 2) * 10 ≤ (i 1).val ∧ (i 1).val < win3_5.index t (1 : Fin 2) * 10 + 10
    omega

/-! ## The region's arrays -/

/-- The output array after the region is the host-spelt read-out of the input arrays as the region finds them. -/
theorem final_arr (c : Dev nD) :
    (Gen.dat3 (F := Ideal) V c).arrAt 5 cfg3.N
      = Cert.Stages.finalHost (V c (Pipeline.arrRef spec3 0)) (V c (Pipeline.arrRef spec3 1))
          (V c (Pipeline.arrRef spec3 2)) (V c (Pipeline.arrRef spec3 3)) (V c (Pipeline.arrRef spec3 4)) := by
  rw [Cert.RegionHost.finalHost_eq]
  exact (dat3 (F := Ideal) V c).arrAt_eq_of_cover 5 (R3 V c) (fun t _ => flushed3_eq V c t) cover3

/-- The input arrays are never written: after the region each is as the region found it. -/
theorem in_arr3_0 (c : Dev nD) : (Gen.dat3 (F := Ideal) V c).arrAt 0 cfg3.N = V c (Pipeline.arrRef spec3 0) :=
  ((Gen.dat3 (F := Ideal) V c).arrAt_in 0 rfl _).trans (A_eq3 V c 0)
theorem in_arr3_1 (c : Dev nD) : (Gen.dat3 (F := Ideal) V c).arrAt 1 cfg3.N = V c (Pipeline.arrRef spec3 1) :=
  ((Gen.dat3 (F := Ideal) V c).arrAt_in 1 rfl _).trans (A_eq3 V c 1)
theorem in_arr3_2 (c : Dev nD) : (Gen.dat3 (F := Ideal) V c).arrAt 2 cfg3.N = V c (Pipeline.arrRef spec3 2) :=
  ((Gen.dat3 (F := Ideal) V c).arrAt_in 2 rfl _).trans (A_eq3 V c 2)
theorem in_arr3_3 (c : Dev nD) : (Gen.dat3 (F := Ideal) V c).arrAt 3 cfg3.N = V c (Pipeline.arrRef spec3 3) :=
  ((Gen.dat3 (F := Ideal) V c).arrAt_in 3 rfl _).trans (A_eq3 V c 3)
theorem in_arr3_4 (c : Dev nD) : (Gen.dat3 (F := Ideal) V c).arrAt 4 cfg3.N = V c (Pipeline.arrRef spec3 4) :=
  ((Gen.dat3 (F := Ideal) V c).arrAt_in 4 rfl _).trans (A_eq3 V c 4)

end Cert.KernelIdeal.Regions

end
-- ==== Proof.RegionValues.lean ====
/-
  What the four regions leave in their arrays, collected: each input array as it was entered, each output array at
  its stage's function of the input arrays.
-/
import proofs.«138804_j12352325943902_1_alg».proof.Proof.KerLine
import proofs.«138804_j12352325943902_1_alg».proof.Proof.RegionLayer0
import proofs.«138804_j12352325943902_1_alg».proof.Proof.RegionLayer1
import proofs.«138804_j12352325943902_1_alg».proof.Proof.RegionLayer2
import proofs.«138804_j12352325943902_1_alg».proof.Proof.RegionFinal

noncomputable section

namespace Cert.KernelIdeal.Regions

open Cert.KernelIdeal Cert.KernelIdeal.Gen Idealize.ShloMosaic Idealize.ShloMosaic.TcCoe

set_option maxHeartbeats 4000000 in
/-- Region 0's input arrays end as they were entered. -/
theorem in0 (V : (c : Dev nD) → (b : Ref sig .tc) → Buf (Elt Ideal) ((c : Thread nD τ).loc b)) (c : Dev nD) (w : Fin 5) (hw : w ≠ 4) :
    (dat0 (F := Ideal) V c).arrAt w cfg0.N = V c (Pipeline.arrRef spec0 w) := by
  match w, hw with
  | 0, _ => exact in_arr0_0 V c
  | 1, _ => exact in_arr0_1 V c
  | 2, _ => exact in_arr0_2 V c
  | 3, _ => exact in_arr0_3 V c
  | 4, hw => exact absurd rfl hw

set_option maxHeartbeats 4000000 in
/-- Region 1's input arrays end as they were entered. -/
theorem in1 (V : (c : Dev nD) → (b : Ref sig .tc) → Buf (Elt Ideal) ((c : Thread nD τ).loc b)) (c : Dev nD) (w : Fin 5) (hw : w ≠ 4) :
    (dat1 (F := Ideal) V c).arrAt w cfg1.N = V c (Pipeline.arrRef spec1 w) := by
  match w, hw with
  | 0, _ => exact in_arr1_0 V c
  | 1, _ => exact in_arr1_1 V c
  | 2, _ => exact in_arr1_2 V c
  | 3, _ => exact in_arr1_3 V c
  | 4, hw => exact absurd rfl hw

set_option maxHeartbeats 4000000 in
/-- Region 2's input arrays end as they were entered. -/
theorem in2 (V : (c : Dev nD) → (b : Ref sig .tc) → Buf (Elt Ideal) ((c : Thread nD τ).loc b)) (c : Dev nD) (w : Fin 5) (hw : w ≠ 4) :
    (dat2 (F := Ideal) V c).arrAt w cfg2.N = V c (Pipeline.arrRef spec2 w) := by
  match w, hw with
  | 0, _ => exact in_arr2_0 V c
  | 1, _ => exact in_arr2_1 V c
  | 2, _ => exact in_arr2_2 V c
  | 3, _ => exact in_arr2_3 V c
  | 4, hw => exact absurd rfl hw

set_option maxHeartbeats 4000000 in
/-- Region 3's input arrays end as they were entered. -/
theorem in3 (V : (c : Dev nD) → (b : Ref sig .tc) → Buf (Elt Ideal) ((c : Thread nD τ).loc b)) (c : Dev nD) (w : Fin 6) (hw : w ≠ 5) :
    (dat3 (F := Ideal) V c).arrAt w cfg3.N = V c (Pipeline.arrRef spec3 w) := by
  match w, hw with
  | 0, _ => exact in_arr3_0 V c
  | 1, _ => exact in_arr3_1 V c
  | 2, _ => exact in_arr3_2 V c
  | 3, _ => exact in_arr3_3 V c
  | 4, _ => exact in_arr3_4 V c
  | 5, hw => exact absurd rfl hw

/-- The regions' arrays at their exits. -/
theorem regionValues : Cert.KernelIdeal.KerLine.RegionValues :=
  ⟨fun V c => layer_arr0 V c, in0, fun V c => layer_arr1 V c, in1, fun V c => layer_arr2 V c, in2,
    fun V c => final_arr V c, in3⟩

end Cert.KernelIdeal.Regions

end
-- ==== Proof.RefOps.lean ====
/-
  The reference program as a list of host operations.

  The program is a straight line: three layer updates and a read-out. Each call of an outlined function (the
  exponential linear unit, which itself calls two selections; the rectifier) is written out as the callee's
  operations over that call's own buffers, in the callee's order. The list is cut where the printed windows end
  and where a layer ends, so that each window is the concatenation of two pieces and each layer of at most two.
-/
import proofs.«138804_j12352325943902_1_alg».proof.ReferenceIdeal
import proofs.«138804_j12352325943902_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

/-- The first layer update: statements 1 … 43 of the first window (the call of the exponential linear unit unfolded into its fifteen operations). -/
abbrev ops_p0a : List (HloOp τ sig (Elt F)) :=
  [ StableHlo.unary main_arg2 main_v0 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v0 main_v1 rfl shapeCasts_S1x256x256_S256x256,
    StableHlo.binary main_arg0 main_v1 main_v2 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg3 main_v3 ((extractStridedSlice S1x256 ![0, 0] · slices_S3x256_S1x256_0_0) : (⟨S3x256, .f32⟩ : BufTy).Contents (Elt F) → (⟨S1x256, .f32⟩ : BufTy).Contents (Elt F)),
    StableHlo.reshape main_v3 main_v4 rfl shapeCasts_S1x256_S256,
    StableHlo.unary main_v4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S131072x256 ![0, 1] bcast_S1x256_S131072x256_0_1 : (⟨S1x256, .f32⟩ : BufTy).Contents (Elt F) → (⟨S131072x256, .f32⟩ : BufTy).Contents (Elt F)),
    StableHlo.binary main_v2 main_v6 main_v7 (addf : (⟨S131072x256, .f32⟩ : BufTy).Contents (Elt F) → (⟨S131072x256, .f32⟩ : BufTy).Contents (Elt F) → (⟨S131072x256, .f32⟩ : BufTy).Contents (Elt F)),
    StableHlo.nullary main_cst (constant S_ .f32 0x00000000#32),
    StableHlo.unary main_cst main_v8 (broadcastInDim S4096x256 ![] bcast_S_S4096x256 : (⟨S_, .f32⟩ : BufTy).Contents (Elt F) → (⟨S4096x256, .f32⟩ : BufTy).Contents (Elt F)),
    StableHlo.unary main_arg1 main_v9 (broadcastInDim S131072x1 ![0] bcast_S131072_S131072x1_0 : (⟨S131072, .i32⟩ : BufTy).Contents (Elt F) → (⟨S131072x1, .i32⟩ : BufTy).Contents (Elt F)),
    StableHlo.ternary main_v8 main_v9 main_arg0 main_v10 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    StableHlo.nullary main_cst_0 (constant S_ .f32 0x3F800000#32),
    StableHlo.unary main_cst_0 main_v11 (broadcastInDim S131072x1 ![] bcast_S_S131072x1 : (⟨S_, .f32⟩ : BufTy).Contents (Elt F) → (⟨S131072x1, .f32⟩ : BufTy).Contents (Elt F)),
    StableHlo.nullary main_cst_1 (constant S_ .f32 0x00000000#32),
    StableHlo.unary main_cst_1 main_v12 (broadcastInDim S4096x1 ![] bcast_S_S4096x1 : (⟨S_, .f32⟩ : BufTy).Contents (Elt F) → (⟨S4096x1, .f32⟩ : BufTy).Contents (Elt F)),
    StableHlo.unary main_arg1 main_v13 (broadcastInDim S131072x1 ![0] bcast_S131072_S131072x1_0 : (⟨S131072, .i32⟩ : BufTy).Contents (Elt F) → (⟨S131072x1, .i32⟩ : BufTy).Contents (Elt F)),
    StableHlo.ternary main_v12 main_v13 main_v11 main_v14 ((fun x i u => Host.scatterAdd scatter_S4096x1_S131072x1_S131072x1_1_0_0_1 x i u) : (⟨S4096x1, .f32⟩ : BufTy).Contents (Elt F) → (⟨S131072x1, .i32⟩ : BufTy).Contents (Elt F) → (⟨S131072x1, .f32⟩ : BufTy).Contents (Elt F) → (⟨S4096x1, .f32⟩ : BufTy).Contents (Elt F)),
    StableHlo.nullary main_cst_2 (constant S_ .f32 0x3F800000#32),
    StableHlo.unary main_cst_2 main_v15 (broadcastInDim S4096x1 ![] bcast_S_S4096x1 : (⟨S_, .f32⟩ : BufTy).Contents (Elt F) → (⟨S4096x1, .f32⟩ : BufTy).Contents (Elt F)),
    StableHlo.binary main_v14 main_v15 main_v16 (maximumf : (⟨S4096x1, .f32⟩ : BufTy).Contents (Elt F) → (⟨S4096x1, .f32⟩ : BufTy).Contents (Elt F) → (⟨S4096x1, .f32⟩ : BufTy).Contents (Elt F)),
    StableHlo.unary main_v16 main_v17 (broadcastInDim S4096x256 ![0, 1] bcast_S4096x1_S4096x256_0_1 : (⟨S4096x1, .f32⟩ : BufTy).Contents (Elt F) → (⟨S4096x256, .f32⟩ : BufTy).Contents (Elt F)),
    StableHlo.binary main_v10 main_v17 main_v18 (Host.divf : (⟨S4096x256, .f32⟩ : BufTy).Contents (Elt F) → (⟨S4096x256, .f32⟩ : BufTy).Contents (Elt F) → (⟨S4096x256, .f32⟩ : BufTy).Contents (Elt F)),
    StableHlo.unary main_arg4 main_v19 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v19 main_v20 rfl shapeCasts_S1x256x256_S256x256,
    StableHlo.binary main_v18 main_v20 main_v21 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg5 main_v22 ((extractStridedSlice S1x256 ![0, 0] · slices_S3x256_S1x256_0_0) : (⟨S3x256, .f32⟩ : BufTy).Contents (Elt F) → (⟨S1x256, .f32⟩ : BufTy).Contents (Elt F)),
    StableHlo.reshape main_v22 main_v23 rfl shapeCasts_S1x256_S256,
    StableHlo.unary main_v23 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S4096x256 ![0, 1] bcast_S1x256_S4096x256_0_1 : (⟨S1x256, .f32⟩ : BufTy).Contents (Elt F) → (⟨S4096x256, .f32⟩ : BufTy).Contents (Elt F)),
    StableHlo.binary main_v21 main_v25 main_v26 (addf : (⟨S4096x256, .f32⟩ : BufTy).Contents (Elt F) → (⟨S4096x256, .f32⟩ : BufTy).Contents (Elt F) → (⟨S4096x256, .f32⟩ : BufTy).Contents (Elt F)),
    StableHlo.nullary main_c (constantI S_ 32 0#32),
    StableHlo.unary main_c main_v27 (broadcastInDim S131072 ![] bcast_S_S131072 : (⟨S_, .i32⟩ : BufTy).Contents (Elt F) → (⟨S131072, .i32⟩ : BufTy).Contents (Elt F)),
    StableHlo.binary main_arg1 main_v27 main_v28 (cmpi .slt : (⟨S131072, .i32⟩ : BufTy).Contents (Elt F) → (⟨S131072, .i32⟩ : BufTy).Contents (Elt F) → (⟨S131072, .i1⟩ : BufTy).Contents (Elt F)),
    StableHlo.nullary main_c_3 (constantI S_ 32 4096#32),
    StableHlo.unary main_c_3 main_v29 (broadcastInDim S131072 ![] bcast_S_S131072 : (⟨S_, .i32⟩ : BufTy).Contents (Elt F) → (⟨S131072, .i32⟩ : BufTy).Contents (Elt F)),
    StableHlo.binary main_arg1 main_v29 main_v30 (addi : (⟨S131072, .i32⟩ : BufTy).Contents (Elt F) → (⟨S131072, .i32⟩ : BufTy).Contents (Elt F) → (⟨S131072, .i32⟩ : BufTy).Contents (Elt F)),
    StableHlo.ternary main_v28 main_v30 main_arg1 main_v31 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v31 main_v32 (broadcastInDim S131072x1 ![0] bcast_S131072_S131072x1_0 : (⟨S131072, .i32⟩ : BufTy).Contents (Elt F) → (⟨S131072x1, .i32⟩ : BufTy).Contents (Elt F)),
    StableHlo.binary main_v26 main_v32 main_v33 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    StableHlo.binary main_v7 main_v33 main_v34 (addf : (⟨S131072x256, .f32⟩ : BufTy).Contents (Elt F) → (⟨S131072x256, .f32⟩ : BufTy).Contents (Elt F) → (⟨S131072x256, .f32⟩ : BufTy).Contents (Elt F)),
    StableHlo.TRef.nullary main_call0.cst (constant S_ .f32 0x00000000#32),
    StableHlo.TRef.unary main_call0.cst main_call0.v0 (broadcastInDim S131072x256 ![] bcast_S_S131072x256),
    StableHlo.TRef.binary (StableHlo.TRef.of main_v34) main_call0.v0 main_call0.v1 (cmpf .ogt),
    StableHlo.TRef.nullary main_call0.cst_0 (constant S_ .f32 0x00000000#32),
    StableHlo.TRef.unary main_call0.cst_0 main_call0.v2 (broadcastInDim S131072x256 ![] bcast_S_S131072x256),
    StableHlo.TRef.binary (StableHlo.TRef.of main_v34) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S131072x256 ![] bcast_S_S131072x256),
    StableHlo.TRef.ternary main_call0.v3 main_call0.call0.v1 (StableHlo.TRef.of main_v34) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S131072x256 ![] bcast_S_S131072x256),
    StableHlo.TRef.binary main_call0.v6 main_call0.v5 main_call0.v7 mulf,
    StableHlo.TRef.ternary main_call0.v1 (StableHlo.TRef.of main_v34) main_call0.v7 main_call0.call1.v0 select ]

/-- The second layer update's first eighteen operations: the rest of the first window. -/
abbrev ops_p0b : List (HloOp τ sig (Elt F)) :=
  [ StableHlo.unary main_arg2 main_v36 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v36 main_v37 rfl shapeCasts_S1x256x256_S256x256,
    StableHlo.binary main_v35 main_v37 main_v38 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg3 main_v39 ((extractStridedSlice S1x256 ![1, 0] · slices_S3x256_S1x256_1_0) : (⟨S3x256, .f32⟩ : BufTy).Contents (Elt F) → (⟨S1x256, .f32⟩ : BufTy).Contents (Elt F)),
    StableHlo.reshape main_v39 main_v40 rfl shapeCasts_S1x256_S256,
    StableHlo.unary main_v40 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S131072x256 ![0, 1] bcast_S1x256_S131072x256_0_1 : (⟨S1x256, .f32⟩ : BufTy).Contents (Elt F) → (⟨S131072x256, .f32⟩ : BufTy).Contents (Elt F)),
    StableHlo.binary main_v38 main_v42 main_v43 (addf : (⟨S131072x256, .f32⟩ : BufTy).Contents (Elt F) → (⟨S131072x256, .f32⟩ : BufTy).Contents (Elt F) → (⟨S131072x256, .f32⟩ : BufTy).Contents (Elt F)),
    StableHlo.nullary main_cst_4 (constant S_ .f32 0x00000000#32),
    StableHlo.unary main_cst_4 main_v44 (broadcastInDim S4096x256 ![] bcast_S_S4096x256 : (⟨S_, .f32⟩ : BufTy).Contents (Elt F) → (⟨S4096x256, .f32⟩ : BufTy).Contents (Elt F)),
    StableHlo.unary main_arg1 main_v45 (broadcastInDim S131072x1 ![0] bcast_S131072_S131072x1_0 : (⟨S131072, .i32⟩ : BufTy).Contents (Elt F) → (⟨S131072x1, .i32⟩ : BufTy).Contents (Elt F)),
    StableHlo.ternary main_v44 main_v45 main_v35 main_v46 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    StableHlo.nullary main_cst_5 (constant S_ .f32 0x3F800000#32),
    StableHlo.unary main_cst_5 main_v47 (broadcastInDim S131072x1 ![] bcast_S_S131072x1 : (⟨S_, .f32⟩ : BufTy).Contents (Elt F) → (⟨S131072x1, .f32⟩ : BufTy).Contents (Elt F)),
    StableHlo.nullary main_cst_6 (constant S_ .f32 0x00000000#32),
    StableHlo.unary main_cst_6 main_v48 (broadcastInDim S4096x1 ![] bcast_S_S4096x1 : (⟨S_, .f32⟩ : BufTy).Contents (Elt F) → (⟨S4096x1, .f32⟩ : BufTy).Contents (Elt F)),
    StableHlo.unary main_arg1 main_v49 (broadcastInDim S131072x1 ![0] bcast_S131072_S131072x1_0 : (⟨S131072, .i32⟩ : BufTy).Contents (Elt F) → (⟨S131072x1, .i32⟩ : BufTy).Contents (Elt F)),
    StableHlo.ternary main_v48 main_v49 main_v47 main_v50 ((fun x i u => Host.scatterAdd scatter_S4096x1_S131072x1_S131072x1_1_0_0_1 x i u) : (⟨S4096x1, .f32⟩ : BufTy).Contents (Elt F) → (⟨S131072x1, .i32⟩ : BufTy).Contents (Elt F) → (⟨S131072x1, .f32⟩ : BufTy).Contents (Elt F) → (⟨S4096x1, .f32⟩ : BufTy).Contents (Elt F)) ]

/-- The rest of the second layer update: the head of the second window, its call unfolded. -/
abbrev ops_p1a : List (HloOp τ sig (Elt F)) :=
  [ StableHlo.nullary main_cst_7 (constant S_ .f32 0x3F800000#32),
    StableHlo.unary main_cst_7 main_v51 (broadcastInDim S4096x1 ![] bcast_S_S4096x1 : (⟨S_, .f32⟩ : BufTy).Contents (Elt F) → (⟨S4096x1, .f32⟩ : BufTy).Contents (Elt F)),
    StableHlo.binary main_v50 main_v51 main_v52 (maximumf : (⟨S4096x1, .f32⟩ : BufTy).Contents (Elt F) → (⟨S4096x1, .f32⟩ : BufTy).Contents (Elt F) → (⟨S4096x1, .f32⟩ : BufTy).Contents (Elt F)),
    StableHlo.unary main_v52 main_v53 (broadcastInDim S4096x256 ![0, 1] bcast_S4096x1_S4096x256_0_1 : (⟨S4096x1, .f32⟩ : BufTy).Contents (Elt F) → (⟨S4096x256, .f32⟩ : BufTy).Contents (Elt F)),
    StableHlo.binary main_v46 main_v53 main_v54 (Host.divf : (⟨S4096x256, .f32⟩ : BufTy).Contents (Elt F) → (⟨S4096x256, .f32⟩ : BufTy).Contents (Elt F) → (⟨S4096x256, .f32⟩ : BufTy).Contents (Elt F)),
    StableHlo.unary main_arg4 main_v55 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v55 main_v56 rfl shapeCasts_S1x256x256_S256x256,
    StableHlo.binary main_v54 main_v56 main_v57 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg5 main_v58 ((extractStridedSlice S1x256 ![1, 0] · slices_S3x256_S1x256_1_0) : (⟨S3x256, .f32⟩ : BufTy).Contents (Elt F) → (⟨S1x256, .f32⟩ : BufTy).Contents (Elt F)),
    StableHlo.reshape main_v58 main_v59 rfl shapeCasts_S1x256_S256,
    StableHlo.unary main_v59 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S4096x256 ![0, 1] bcast_S1x256_S4096x256_0_1 : (⟨S1x256, .f32⟩ : BufTy).Contents (Elt F) → (⟨S4096x256, .f32⟩ : BufTy).Contents (Elt F)),
    StableHlo.binary main_v57 main_v61 main_v62 (addf : (⟨S4096x256, .f32⟩ : BufTy).Contents (Elt F) → (⟨S4096x256, .f32⟩ : BufTy).Contents (Elt F) → (⟨S4096x256, .f32⟩ : BufTy).Contents (Elt F)),
    StableHlo.nullary main_c_8 (constantI S_ 32 0#32),
    StableHlo.unary main_c_8 main_v63 (broadcastInDim S131072 ![] bcast_S_S131072 : (⟨S_, .i32⟩ : BufTy).Contents (Elt F) → (⟨S131072, .i32⟩ : BufTy).Contents (Elt F)),
    StableHlo.binary main_arg1 main_v63 main_v64 (cmpi .slt : (⟨S131072, .i32⟩ : BufTy).Contents (Elt F) → (⟨S131072, .i32⟩ : BufTy).Contents (Elt F) → (⟨S131072, .i1⟩ : BufTy).Contents (Elt F)),
    StableHlo.nullary main_c_9 (constantI S_ 32 4096#32),
    StableHlo.unary main_c_9 main_v65 (broadcastInDim S131072 ![] bcast_S_S131072 : (⟨S_, .i32⟩ : BufTy).Contents (Elt F) → (⟨S131072, .i32⟩ : BufTy).Contents (Elt F)),
    StableHlo.binary main_arg1 main_v65 main_v66 (addi : (⟨S131072, .i32⟩ : BufTy).Contents (Elt F) → (⟨S131072, .i32⟩ : BufTy).Contents (Elt F) → (⟨S131072, .i32⟩ : BufTy).Contents (Elt F)),
    StableHlo.ternary main_v64 main_v66 main_arg1 main_v67 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v67 main_v68 (broadcastInDim S131072x1 ![0] bcast_S131072_S131072x1_0 : (⟨S131072, .i32⟩ : BufTy).Contents (Elt F) → (⟨S131072x1, .i32⟩ : BufTy).Contents (Elt F)),
    StableHlo.binary main_v62 main_v68 main_v69 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    StableHlo.binary main_v43 main_v69 main_v70 (addf : (⟨S131072x256, .f32⟩ : BufTy).Contents (Elt F) → (⟨S131072x256, .f32⟩ : BufTy).Contents (Elt F) → (⟨S131072x256, .f32⟩ : BufTy).Contents (Elt F)),
    StableHlo.TRef.nullary main_call1.cst (constant S_ .f32 0x00000000#32),
    StableHlo.TRef.unary main_call1.cst main_call1.v0 (broadcastInDim S131072x256 ![] bcast_S_S131072x256),
    StableHlo.TRef.binary (StableHlo.TRef.of main_v70) main_call1.v0 main_call1.v1 (cmpf .ogt),
    StableHlo.TRef.nullary main_call1.cst_0 (constant S_ .f32 0x00000000#32),
    StableHlo.TRef.unary main_call1.cst_0 main_call1.v2 (broadcastInDim S131072x256 ![] bcast_S_S131072x256),
    StableHlo.TRef.binary (StableHlo.TRef.of main_v70) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S131072x256 ![] bcast_S_S131072x256),
    StableHlo.TRef.ternary main_call1.v3 main_call1.call0.v1 (StableHlo.TRef.of main_v70) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S131072x256 ![] bcast_S_S131072x256),
    StableHlo.TRef.binary main_call1.v6 main_call1.v5 main_call1.v7 mulf,
    StableHlo.TRef.ternary main_call1.v1 (StableHlo.TRef.of main_v70) main_call1.v7 main_call1.call1.v0 select ]

/-- The third layer update's first thirty-six operations: the rest of the second window. -/
abbrev ops_p1b : List (HloOp τ sig (Elt F)) :=
  [ StableHlo.unary main_arg2 main_v72 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v72 main_v73 rfl shapeCasts_S1x256x256_S256x256,
    StableHlo.binary main_v71 main_v73 main_v74 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    StableHlo.unary main_arg3 main_v75 ((extractStridedSlice S1x256 ![2, 0] · slices_S3x256_S1x256_2_0) : (⟨S3x256, .f32⟩ : BufTy).Contents (Elt F) → (⟨S1x256, .f32⟩ : BufTy).Contents (Elt F)),
    StableHlo.reshape main_v75 main_v76 rfl shapeCasts_S1x256_S256,
    StableHlo.unary main_v76 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S131072x256 ![0, 1] bcast_S1x256_S131072x256_0_1 : (⟨S1x256, .f32⟩ : BufTy).Contents (Elt F) → (⟨S131072x256, .f32⟩ : BufTy).Contents (Elt F)),
    StableHlo.binary main_v74 main_v78 main_v79 (addf : (⟨S131072x256, .f32⟩ : BufTy).Contents (Elt F) → (⟨S131072x256, .f32⟩ : BufTy).Contents (Elt F) → (⟨S131072x256, .f32⟩ : BufTy).Contents (Elt F)),
    StableHlo.nullary main_cst_10 (constant S_ .f32 0x00000000#32),
    StableHlo.unary main_cst_10 main_v80 (broadcastInDim S4096x256 ![] bcast_S_S4096x256 : (⟨S_, .f32⟩ : BufTy).Contents (Elt F) → (⟨S4096x256, .f32⟩ : BufTy).Contents (Elt F)),
    StableHlo.unary main_arg1 main_v81 (broadcastInDim S131072x1 ![0] bcast_S131072_S131072x1_0 : (⟨S131072, .i32⟩ : BufTy).Contents (Elt F) → (⟨S131072x1, .i32⟩ : BufTy).Contents (Elt F)),
    StableHlo.ternary main_v80 main_v81 main_v71 main_v82 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    StableHlo.nullary main_cst_11 (constant S_ .f32 0x3F800000#32),
    StableHlo.unary main_cst_11 main_v83 (broadcastInDim S131072x1 ![] bcast_S_S131072x1 : (⟨S_, .f32⟩ : BufTy).Contents (Elt F) → (⟨S131072x1, .f32⟩ : BufTy).Contents (Elt F)),
    StableHlo.nullary main_cst_12 (constant S_ .f32 0x00000000#32),
    StableHlo.unary main_cst_12 main_v84 (broadcastInDim S4096x1 ![] bcast_S_S4096x1 : (⟨S_, .f32⟩ : BufTy).Contents (Elt F) → (⟨S4096x1, .f32⟩ : BufTy).Contents (Elt F)),
    StableHlo.unary main_arg1 main_v85 (broadcastInDim S131072x1 ![0] bcast_S131072_S131072x1_0 : (⟨S131072, .i32⟩ : BufTy).Contents (Elt F) → (⟨S131072x1, .i32⟩ : BufTy).Contents (Elt F)),
    StableHlo.ternary main_v84 main_v85 main_v83 main_v86 ((fun x i u => Host.scatterAdd scatter_S4096x1_S131072x1_S131072x1_1_0_0_1 x i u) : (⟨S4096x1, .f32⟩ : BufTy).Contents (Elt F) → (⟨S131072x1, .i32⟩ : BufTy).Contents (Elt F) → (⟨S131072x1, .f32⟩ : BufTy).Contents (Elt F) → (⟨S4096x1, .f32⟩ : BufTy).Contents (Elt F)),
    StableHlo.nullary main_cst_13 (constant S_ .f32 0x3F800000#32),
    StableHlo.unary main_cst_13 main_v87 (broadcastInDim S4096x1 ![] bcast_S_S4096x1 : (⟨S_, .f32⟩ : BufTy).Contents (Elt F) → (⟨S4096x1, .f32⟩ : BufTy).Contents (Elt F)),
    StableHlo.binary main_v86 main_v87 main_v88 (maximumf : (⟨S4096x1, .f32⟩ : BufTy).Contents (Elt F) → (⟨S4096x1, .f32⟩ : BufTy).Contents (Elt F) → (⟨S4096x1, .f32⟩ : BufTy).Contents (Elt F)),
    StableHlo.unary main_v88 main_v89 (broadcastInDim S4096x256 ![0, 1] bcast_S4096x1_S4096x256_0_1 : (⟨S4096x1, .f32⟩ : BufTy).Contents (Elt F) → (⟨S4096x256, .f32⟩ : BufTy).Contents (Elt F)),
    StableHlo.binary main_v82 main_v89 main_v90 (Host.divf : (⟨S4096x256, .f32⟩ : BufTy).Contents (Elt F) → (⟨S4096x256, .f32⟩ : BufTy).Contents (Elt F) → (⟨S4096x256, .f32⟩ : BufTy).Contents (Elt F)),
    StableHlo.unary main_arg4 main_v91 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v91 main_v92 rfl shapeCasts_S1x256x256_S256x256,
    StableHlo.binary main_v90 main_v92 main_v93 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg5 main_v94 ((extractStridedSlice S1x256 ![2, 0] · slices_S3x256_S1x256_2_0) : (⟨S3x256, .f32⟩ : BufTy).Contents (Elt F) → (⟨S1x256, .f32⟩ : BufTy).Contents (Elt F)),
    StableHlo.reshape main_v94 main_v95 rfl shapeCasts_S1x256_S256,
    StableHlo.unary main_v95 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S4096x256 ![0, 1] bcast_S1x256_S4096x256_0_1 : (⟨S1x256, .f32⟩ : BufTy).Contents (Elt F) → (⟨S4096x256, .f32⟩ : BufTy).Contents (Elt F)),
    StableHlo.binary main_v93 main_v97 main_v98 (addf : (⟨S4096x256, .f32⟩ : BufTy).Contents (Elt F) → (⟨S4096x256, .f32⟩ : BufTy).Contents (Elt F) → (⟨S4096x256, .f32⟩ : BufTy).Contents (Elt F)),
    StableHlo.nullary main_c_14 (constantI S_ 32 0#32),
    StableHlo.unary main_c_14 main_v99 (broadcastInDim S131072 ![] bcast_S_S131072 : (⟨S_, .i32⟩ : BufTy).Contents (Elt F) → (⟨S131072, .i32⟩ : BufTy).Contents (Elt F)),
    StableHlo.binary main_arg1 main_v99 main_v100 (cmpi .slt : (⟨S131072, .i32⟩ : BufTy).Contents (Elt F) → (⟨S131072, .i32⟩ : BufTy).Contents (Elt F) → (⟨S131072, .i1⟩ : BufTy).Contents (Elt F)),
    StableHlo.nullary main_c_15 (constantI S_ 32 4096#32),
    StableHlo.unary main_c_15 main_v101 (broadcastInDim S131072 ![] bcast_S_S131072 : (⟨S_, .i32⟩ : BufTy).Contents (Elt F) → (⟨S131072, .i32⟩ : BufTy).Contents (Elt F)) ]

/-- The rest of the third layer update: the head of the third window, its call unfolded. -/
abbrev ops_p2a : List (HloOp τ sig (Elt F)) :=
  [ StableHlo.binary main_arg1 main_v101 main_v102 (addi : (⟨S131072, .i32⟩ : BufTy).Contents (Elt F) → (⟨S131072, .i32⟩ : BufTy).Contents (Elt F) → (⟨S131072, .i32⟩ : BufTy).Contents (Elt F)),
    StableHlo.ternary main_v100 main_v102 main_arg1 main_v103 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v103 main_v104 (broadcastInDim S131072x1 ![0] bcast_S131072_S131072x1_0 : (⟨S131072, .i32⟩ : BufTy).Contents (Elt F) → (⟨S131072x1, .i32⟩ : BufTy).Contents (Elt F)),
    StableHlo.binary main_v98 main_v104 main_v105 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    StableHlo.binary main_v79 main_v105 main_v106 (addf : (⟨S131072x256, .f32⟩ : BufTy).Contents (Elt F) → (⟨S131072x256, .f32⟩ : BufTy).Contents (Elt F) → (⟨S131072x256, .f32⟩ : BufTy).Contents (Elt F)),
    StableHlo.TRef.nullary main_call2.cst (constant S_ .f32 0x00000000#32),
    StableHlo.TRef.unary main_call2.cst main_call2.v0 (broadcastInDim S131072x256 ![] bcast_S_S131072x256),
    StableHlo.TRef.binary (StableHlo.TRef.of main_v106) main_call2.v0 main_call2.v1 (cmpf .ogt),
    StableHlo.TRef.nullary main_call2.cst_0 (constant S_ .f32 0x00000000#32),
    StableHlo.TRef.unary main_call2.cst_0 main_call2.v2 (broadcastInDim S131072x256 ![] bcast_S_S131072x256),
    StableHlo.TRef.binary (StableHlo.TRef.of main_v106) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S131072x256 ![] bcast_S_S131072x256),
    StableHlo.TRef.ternary main_call2.v3 main_call2.call0.v1 (StableHlo.TRef.of main_v106) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S131072x256 ![] bcast_S_S131072x256),
    StableHlo.TRef.binary main_call2.v6 main_call2.v5 main_call2.v7 mulf,
    StableHlo.TRef.ternary main_call2.v1 (StableHlo.TRef.of main_v106) main_call2.v7 main_call2.call1.v0 select ]

/-- The read-out: the mean over the segments, the two dense maps, the rectifier's call unfolded into its three operations. -/
abbrev ops_p2b : List (HloOp τ sig (Elt F)) :=
  [ StableHlo.nullary main_cst_16 (constant S_ .f32 0x00000000#32),
    StableHlo.unary main_cst_16 main_v108 (broadcastInDim S4096x256 ![] bcast_S_S4096x256 : (⟨S_, .f32⟩ : BufTy).Contents (Elt F) → (⟨S4096x256, .f32⟩ : BufTy).Contents (Elt F)),
    StableHlo.unary main_arg1 main_v109 (broadcastInDim S131072x1 ![0] bcast_S131072_S131072x1_0 : (⟨S131072, .i32⟩ : BufTy).Contents (Elt F) → (⟨S131072x1, .i32⟩ : BufTy).Contents (Elt F)),
    StableHlo.ternary main_v108 main_v109 main_v107 main_v110 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    StableHlo.nullary main_cst_17 (constant S_ .f32 0x3F800000#32),
    StableHlo.unary main_cst_17 main_v111 (broadcastInDim S131072x1 ![] bcast_S_S131072x1 : (⟨S_, .f32⟩ : BufTy).Contents (Elt F) → (⟨S131072x1, .f32⟩ : BufTy).Contents (Elt F)),
    StableHlo.nullary main_cst_18 (constant S_ .f32 0x00000000#32),
    StableHlo.unary main_cst_18 main_v112 (broadcastInDim S4096x1 ![] bcast_S_S4096x1 : (⟨S_, .f32⟩ : BufTy).Contents (Elt F) → (⟨S4096x1, .f32⟩ : BufTy).Contents (Elt F)),
    StableHlo.unary main_arg1 main_v113 (broadcastInDim S131072x1 ![0] bcast_S131072_S131072x1_0 : (⟨S131072, .i32⟩ : BufTy).Contents (Elt F) → (⟨S131072x1, .i32⟩ : BufTy).Contents (Elt F)),
    StableHlo.ternary main_v112 main_v113 main_v111 main_v114 ((fun x i u => Host.scatterAdd scatter_S4096x1_S131072x1_S131072x1_1_0_0_1 x i u) : (⟨S4096x1, .f32⟩ : BufTy).Contents (Elt F) → (⟨S131072x1, .i32⟩ : BufTy).Contents (Elt F) → (⟨S131072x1, .f32⟩ : BufTy).Contents (Elt F) → (⟨S4096x1, .f32⟩ : BufTy).Contents (Elt F)),
    StableHlo.nullary main_cst_19 (constant S_ .f32 0x3F800000#32),
    StableHlo.unary main_cst_19 main_v115 (broadcastInDim S4096x1 ![] bcast_S_S4096x1 : (⟨S_, .f32⟩ : BufTy).Contents (Elt F) → (⟨S4096x1, .f32⟩ : BufTy).Contents (Elt F)),
    StableHlo.binary main_v114 main_v115 main_v116 (maximumf : (⟨S4096x1, .f32⟩ : BufTy).Contents (Elt F) → (⟨S4096x1, .f32⟩ : BufTy).Contents (Elt F) → (⟨S4096x1, .f32⟩ : BufTy).Contents (Elt F)),
    StableHlo.unary main_v116 main_v117 (broadcastInDim S4096x256 ![0, 1] bcast_S4096x1_S4096x256_0_1 : (⟨S4096x1, .f32⟩ : BufTy).Contents (Elt F) → (⟨S4096x256, .f32⟩ : BufTy).Contents (Elt F)),
    StableHlo.binary main_v110 main_v117 main_v118 (Host.divf : (⟨S4096x256, .f32⟩ : BufTy).Contents (Elt F) → (⟨S4096x256, .f32⟩ : BufTy).Contents (Elt F) → (⟨S4096x256, .f32⟩ : BufTy).Contents (Elt F)),
    StableHlo.binary main_v118 main_arg6 main_v119 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    StableHlo.unary main_arg7 main_v120 (broadcastInDim S1x512 ![1] bcast_S512_S1x512_1 : (⟨S512, .f32⟩ : BufTy).Contents (Elt F) → (⟨S1x512, .f32⟩ : BufTy).Contents (Elt F)),
    StableHlo.unary main_v120 main_v121 (broadcastInDim S4096x512 ![0, 1] bcast_S1x512_S4096x512_0_1 : (⟨S1x512, .f32⟩ : BufTy).Contents (Elt F) → (⟨S4096x512, .f32⟩ : BufTy).Contents (Elt F)),
    StableHlo.binary main_v119 main_v121 main_v122 (addf : (⟨S4096x512, .f32⟩ : BufTy).Contents (Elt F) → (⟨S4096x512, .f32⟩ : BufTy).Contents (Elt F) → (⟨S4096x512, .f32⟩ : BufTy).Contents (Elt F)),
    StableHlo.TRef.nullary main_call3.cst (constant S_ .f32 0x00000000#32),
    StableHlo.TRef.unary main_call3.cst main_call3.v0 (broadcastInDim S4096x512 ![] bcast_S_S4096x512),
    StableHlo.TRef.binary (StableHlo.TRef.of main_v122) main_call3.v0 main_call3.v1 maximumf,
    StableHlo.binary main_v123 main_arg8 main_v124 ((fun l r => Host.dotGeneral dot_S4096x512_S512x10_S4096x10_1_0_0_1_n_n none l r) : (⟨S4096x512, .f32⟩ : BufTy).Contents (Elt F) → (⟨S512x10, .f32⟩ : BufTy).Contents (Elt F) → (⟨S4096x10, .f32⟩ : BufTy).Contents (Elt F)),
    StableHlo.unary main_arg9 main_v125 (broadcastInDim S1x10 ![1] bcast_S10_S1x10_1 : (⟨S10, .f32⟩ : BufTy).Contents (Elt F) → (⟨S1x10, .f32⟩ : BufTy).Contents (Elt F)),
    StableHlo.unary main_v125 main_v126 (broadcastInDim S4096x10 ![0, 1] bcast_S1x10_S4096x10_0_1 : (⟨S1x10, .f32⟩ : BufTy).Contents (Elt F) → (⟨S4096x10, .f32⟩ : BufTy).Contents (Elt F)),
    StableHlo.binary main_v124 main_v126 main_v127 (addf : (⟨S4096x10, .f32⟩ : BufTy).Contents (Elt F) → (⟨S4096x10, .f32⟩ : BufTy).Contents (Elt F) → (⟨S4096x10, .f32⟩ : BufTy).Contents (Elt F)) ]

/-- The first layer update's operations. -/
abbrev opsL0 : List (HloOp τ sig (Elt F)) := ops_p0a
/-- The second layer update's operations. -/
abbrev opsL1 : List (HloOp τ sig (Elt F)) := ops_p0b ++ ops_p1a
/-- The third layer update's operations. -/
abbrev opsL2 : List (HloOp τ sig (Elt F)) := ops_p1b ++ ops_p2a
/-- The read-out's operations. -/
abbrev opsL3 : List (HloOp τ sig (Elt F)) := ops_p2b

/-- The program's 194 operations in order, the calls unfolded: three layer updates, then the read-out. -/
abbrev ops : List (HloOp τ sig (Elt F)) := opsL0 ++ opsL1 ++ opsL2 ++ opsL3

end Cert.ReferenceIdeal.RefRun

end
-- ==== Proof.RefMainEq.lean ====
/-
  The reference program is the straight line of its operations.

  Each printed window, once the outlined functions' bodies are put in place of their calls and the sequencing is
  re-associated, is the line of its two pieces; the whole program is the three windows in order, hence the line of
  the whole list.
-/
import proofs.«138804_j12352325943902_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

set_option maxRecDepth 8192 in
set_option maxHeartbeats 4000000 in
/-- The first window is the line of its two pieces. -/
theorem main_part0_eq (c : Dev nD) : main_part0 (F := F) c = seq (ops_p0a ++ ops_p0b) := by
  simp only [main_part0, fn_elu.body, fn_where.body, fn_where_0.body, seq, bind_assoc, pure_bind]
  rfl

set_option maxRecDepth 8192 in
set_option maxHeartbeats 4000000 in
/-- The second window is the line of its two pieces. -/
theorem main_part1_eq (c : Dev nD) : main_part1 (F := F) c = seq (ops_p1a ++ ops_p1b) := by
  simp only [main_part1, fn_elu.body, fn_where.body, fn_where_0.body, seq, bind_assoc, pure_bind]
  rfl

set_option maxRecDepth 8192 in
set_option maxHeartbeats 4000000 in
/-- The third window is the line of its two pieces. -/
theorem main_part2_eq (c : Dev nD) : main_part2 (F := F) c = seq (ops_p2a ++ ops_p2b) := by
  simp only [main_part2, fn_elu.body, fn_where.body, fn_where_0.body, fn_relu.body, seq, bind_assoc, pure_bind]
  rfl

/-- The list of all operations, regrouped by windows. -/
theorem ops_windows : (ops : List (HloOp τ sig (Elt F))) = (ops_p0a ++ ops_p0b) ++ ((ops_p1a ++ ops_p1b) ++ (ops_p2a ++ ops_p2b)) := by
  simp only [ops, opsL0, opsL1, opsL2, opsL3, List.append_assoc]

/-- The program is the line of its operations. -/
theorem main_eq (c : Dev nD) : main (F := F) c = seq ops := by
  rw [ops_windows, seq_append (ops_p0a ++ ops_p0b), seq_append (ops_p1a ++ ops_p1b), ← main_part0_eq c, ← main_part1_eq c, ← main_part2_eq c]
  rfl

end Cert.ReferenceIdeal.RefRun

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefSub.lean ====
/-
  Side conditions of the reference's run, piece by piece.

  Every operation of the list touches TensorCore buffers only and determines its result; the signature scopes no
  buffer and no semaphore; and each piece of the list writes exactly the buffers listed for it, so that a buffer not
  in a piece's list keeps its contents through the piece.
-/
import proofs.«138804_j12352325943902_1_alg».proof.Proof.RefOps
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_p0a_sub : (ops_p0a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_p0a_fresh : (ops_p0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops_p0b_sub : (ops_p0b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

set_option maxRecDepth 8192 in
theorem ops_p0b_fresh : (ops_p0b : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 8192 in
theorem ops_p1a_sub : (ops_p1a : List (HloOp τ sig (Elt F))).Forall fun op => op.bufs ⊆ tcRefs τ sig :=
  ⟨nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_p1a_fresh : (ops_p1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops_p1b_sub : (ops_p1b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub ..⟩

set_option maxRecDepth 8192 in
theorem ops_p1b_fresh : (ops_p1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops_p2a_sub : (ops_p2a : List (HloOp τ sig (Elt F))).Forall fun op => op.bufs ⊆ tcRefs τ sig :=
  ⟨binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_p2a_fresh : (ops_p2a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem ops_p2b_sub : (ops_p2b : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem ops_p2b_fresh : (ops_p2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Every operation touches TensorCore buffers only. -/
theorem ops_sub : (ops : List (HloOp τ sig (Elt F))).Forall fun op => op.bufs ⊆ tcRefs τ sig :=
  forall_append (forall_append (forall_append ops_p0a_sub (forall_append ops_p0b_sub ops_p1a_sub))
    (forall_append ops_p1b_sub ops_p2a_sub)) ops_p2b_sub

/-- Every operation determines its result. -/
theorem ops_fresh : ∀ op ∈ (ops : List (HloOp τ sig (Elt F))), op.fresh = ∅ :=
  List.forall_iff_forall_mem.mp
    (forall_append (forall_append (forall_append ops_p0a_fresh (forall_append ops_p0b_fresh ops_p1a_fresh))
      (forall_append ops_p1b_fresh ops_p2a_fresh)) ops_p2b_fresh)

end Cert.ReferenceIdeal.RefRun

end
-- ==== Proof.RefRunMain.lean ====
/-
  The reference's run: from any memory with zero counters, every weakly fair execution of the program on the
  TensorCores terminates, and each TensorCore buffer ends at the fold of the program's operations over the contents
  the launch gave it. The program is a straight line of host operations (it launches no kernel), so this is the
  library's statement for such a line at the list of the program's operations.
-/
import proofs.«138804_j12352325943902_1_alg».proof.Proof.RefMainEq
import proofs.«138804_j12352325943902_1_alg».proof.Proof.RefSub

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

/-- For any float values, from any memory with zero counters: every weakly fair execution of the program on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefKeep.lean ====
/-
  What each stage of the reference's line leaves alone.

  Each stage (a layer update, the read-out) writes the buffers of its own values and no other: the list of them is
  read off the operations. A buffer outside the list, in particular each of the program's ten arguments, keeps its
  contents through the stage.
-/
import proofs.«138804_j12352325943902_1_alg».proof.Proof.RefOps
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

/-- The buffers that the operations of `opsL0` write. -/
abbrev opsL0_W : List (Ref sig .tc) :=
  [main_v0, main_v1, main_v2, main_v3, main_v4, main_v5, main_v6, main_v7, main_cst, main_v8, main_v9, main_v10, main_cst_0, main_v11, main_cst_1, main_v12, main_v13, main_v14, main_cst_2, main_v15, main_v16, main_v17, main_v18, main_v19, main_v20, main_v21, main_v22, main_v23, main_v24, main_v25, main_v26, main_c, main_v27, main_v28, main_c_3, main_v29, main_v30, main_v31, main_v32, main_v33, main_v34, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]

set_option maxRecDepth 8192 in
theorem ops_p0a_writes : (ops_p0a : List (HloOp τ sig (Elt F))).Forall fun op =>
    op.writes ⊆ (opsL0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsL0` does not write keeps its contents through it. -/
theorem opsL0_keep (V : Valuation τ sig (Elt F)) (r : Ref sig .tc) (h : r ∉ opsL0_W) :
    after opsL0 V (Proc.devRef .tc r) = V (Proc.devRef .tc r) :=
  after_of_writes_sub opsL0 V (ops_p0a_writes) h
theorem opsL0_arg0 (V : Valuation τ sig (Elt F)) :
    after opsL0 V (main_arg0 : DevRef τ sig) = V (main_arg0 : DevRef τ sig) := opsL0_keep V main_arg0 (by decide)
theorem opsL0_arg1 (V : Valuation τ sig (Elt F)) :
    after opsL0 V (main_arg1 : DevRef τ sig) = V (main_arg1 : DevRef τ sig) := opsL0_keep V main_arg1 (by decide)
theorem opsL0_arg2 (V : Valuation τ sig (Elt F)) :
    after opsL0 V (main_arg2 : DevRef τ sig) = V (main_arg2 : DevRef τ sig) := opsL0_keep V main_arg2 (by decide)
theorem opsL0_arg3 (V : Valuation τ sig (Elt F)) :
    after opsL0 V (main_arg3 : DevRef τ sig) = V (main_arg3 : DevRef τ sig) := opsL0_keep V main_arg3 (by decide)
theorem opsL0_arg4 (V : Valuation τ sig (Elt F)) :
    after opsL0 V (main_arg4 : DevRef τ sig) = V (main_arg4 : DevRef τ sig) := opsL0_keep V main_arg4 (by decide)
theorem opsL0_arg5 (V : Valuation τ sig (Elt F)) :
    after opsL0 V (main_arg5 : DevRef τ sig) = V (main_arg5 : DevRef τ sig) := opsL0_keep V main_arg5 (by decide)
theorem opsL0_arg6 (V : Valuation τ sig (Elt F)) :
    after opsL0 V (main_arg6 : DevRef τ sig) = V (main_arg6 : DevRef τ sig) := opsL0_keep V main_arg6 (by decide)
theorem opsL0_arg7 (V : Valuation τ sig (Elt F)) :
    after opsL0 V (main_arg7 : DevRef τ sig) = V (main_arg7 : DevRef τ sig) := opsL0_keep V main_arg7 (by decide)
theorem opsL0_arg8 (V : Valuation τ sig (Elt F)) :
    after opsL0 V (main_arg8 : DevRef τ sig) = V (main_arg8 : DevRef τ sig) := opsL0_keep V main_arg8 (by decide)
theorem opsL0_arg9 (V : Valuation τ sig (Elt F)) :
    after opsL0 V (main_arg9 : DevRef τ sig) = V (main_arg9 : DevRef τ sig) := opsL0_keep V main_arg9 (by decide)

/-- The buffers that the operations of `opsL1` write. -/
abbrev opsL1_W : List (Ref sig .tc) :=
  [main_v36, main_v37, main_v38, main_v39, main_v40, main_v41, main_v42, main_v43, main_cst_4, main_v44, main_v45, main_v46, main_cst_5, main_v47, main_cst_6, main_v48, main_v49, main_v50, main_cst_7, main_v51, main_v52, main_v53, main_v54, main_v55, main_v56, main_v57, main_v58, main_v59, main_v60, main_v61, main_v62, main_c_8, main_v63, main_v64, main_c_9, main_v65, main_v66, main_v67, main_v68, main_v69, main_v70, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

set_option maxRecDepth 8192 in
theorem ops_p0b_writes : (ops_p0b : List (HloOp τ sig (Elt F))).Forall fun op =>
    op.writes ⊆ (opsL1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops_p1a_writes : (ops_p1a : List (HloOp τ sig (Elt F))).Forall fun op =>
    op.writes ⊆ (opsL1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsL1` does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V (forall_append ops_p0b_writes ops_p1a_writes) h
theorem opsL1_arg0 (V : Valuation τ sig (Elt F)) :
    after opsL1 V (main_arg0 : DevRef τ sig) = V (main_arg0 : DevRef τ sig) := opsL1_keep V main_arg0 (by decide)
theorem opsL1_arg1 (V : Valuation τ sig (Elt F)) :
    after opsL1 V (main_arg1 : DevRef τ sig) = V (main_arg1 : DevRef τ sig) := opsL1_keep V main_arg1 (by decide)
theorem opsL1_arg2 (V : Valuation τ sig (Elt F)) :
    after opsL1 V (main_arg2 : DevRef τ sig) = V (main_arg2 : DevRef τ sig) := opsL1_keep V main_arg2 (by decide)
theorem opsL1_arg3 (V : Valuation τ sig (Elt F)) :
    after opsL1 V (main_arg3 : DevRef τ sig) = V (main_arg3 : DevRef τ sig) := opsL1_keep V main_arg3 (by decide)
theorem opsL1_arg4 (V : Valuation τ sig (Elt F)) :
    after opsL1 V (main_arg4 : DevRef τ sig) = V (main_arg4 : DevRef τ sig) := opsL1_keep V main_arg4 (by decide)
theorem opsL1_arg5 (V : Valuation τ sig (Elt F)) :
    after opsL1 V (main_arg5 : DevRef τ sig) = V (main_arg5 : DevRef τ sig) := opsL1_keep V main_arg5 (by decide)
theorem opsL1_arg6 (V : Valuation τ sig (Elt F)) :
    after opsL1 V (main_arg6 : DevRef τ sig) = V (main_arg6 : DevRef τ sig) := opsL1_keep V main_arg6 (by decide)
theorem opsL1_arg7 (V : Valuation τ sig (Elt F)) :
    after opsL1 V (main_arg7 : DevRef τ sig) = V (main_arg7 : DevRef τ sig) := opsL1_keep V main_arg7 (by decide)
theorem opsL1_arg8 (V : Valuation τ sig (Elt F)) :
    after opsL1 V (main_arg8 : DevRef τ sig) = V (main_arg8 : DevRef τ sig) := opsL1_keep V main_arg8 (by decide)
theorem opsL1_arg9 (V : Valuation τ sig (Elt F)) :
    after opsL1 V (main_arg9 : DevRef τ sig) = V (main_arg9 : DevRef τ sig) := opsL1_keep V main_arg9 (by decide)

/-- The buffers that the operations of `opsL2` write. -/
abbrev opsL2_W : List (Ref sig .tc) :=
  [main_v72, main_v73, main_v74, main_v75, main_v76, main_v77, main_v78, main_v79, main_cst_10, main_v80, main_v81, main_v82, main_cst_11, main_v83, main_cst_12, main_v84, main_v85, main_v86, main_cst_13, main_v87, main_v88, main_v89, main_v90, main_v91, main_v92, main_v93, main_v94, main_v95, main_v96, main_v97, main_v98, main_c_14, main_v99, main_v100, main_c_15, main_v101, main_v102, main_v103, main_v104, main_v105, main_v106, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]

set_option maxRecDepth 8192 in
theorem ops_p1b_writes : (ops_p1b : List (HloOp τ sig (Elt F))).Forall fun op =>
    op.writes ⊆ (opsL2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops_p2a_writes : (ops_p2a : List (HloOp τ sig (Elt F))).Forall fun op =>
    op.writes ⊆ (opsL2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsL2` does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V (forall_append ops_p1b_writes ops_p2a_writes) h
theorem opsL2_arg0 (V : Valuation τ sig (Elt F)) :
    after opsL2 V (main_arg0 : DevRef τ sig) = V (main_arg0 : DevRef τ sig) := opsL2_keep V main_arg0 (by decide)
theorem opsL2_arg1 (V : Valuation τ sig (Elt F)) :
    after opsL2 V (main_arg1 : DevRef τ sig) = V (main_arg1 : DevRef τ sig) := opsL2_keep V main_arg1 (by decide)
theorem opsL2_arg2 (V : Valuation τ sig (Elt F)) :
    after opsL2 V (main_arg2 : DevRef τ sig) = V (main_arg2 : DevRef τ sig) := opsL2_keep V main_arg2 (by decide)
theorem opsL2_arg3 (V : Valuation τ sig (Elt F)) :
    after opsL2 V (main_arg3 : DevRef τ sig) = V (main_arg3 : DevRef τ sig) := opsL2_keep V main_arg3 (by decide)
theorem opsL2_arg4 (V : Valuation τ sig (Elt F)) :
    after opsL2 V (main_arg4 : DevRef τ sig) = V (main_arg4 : DevRef τ sig) := opsL2_keep V main_arg4 (by decide)
theorem opsL2_arg5 (V : Valuation τ sig (Elt F)) :
    after opsL2 V (main_arg5 : DevRef τ sig) = V (main_arg5 : DevRef τ sig) := opsL2_keep V main_arg5 (by decide)
theorem opsL2_arg6 (V : Valuation τ sig (Elt F)) :
    after opsL2 V (main_arg6 : DevRef τ sig) = V (main_arg6 : DevRef τ sig) := opsL2_keep V main_arg6 (by decide)
theorem opsL2_arg7 (V : Valuation τ sig (Elt F)) :
    after opsL2 V (main_arg7 : DevRef τ sig) = V (main_arg7 : DevRef τ sig) := opsL2_keep V main_arg7 (by decide)
theorem opsL2_arg8 (V : Valuation τ sig (Elt F)) :
    after opsL2 V (main_arg8 : DevRef τ sig) = V (main_arg8 : DevRef τ sig) := opsL2_keep V main_arg8 (by decide)
theorem opsL2_arg9 (V : Valuation τ sig (Elt F)) :
    after opsL2 V (main_arg9 : DevRef τ sig) = V (main_arg9 : DevRef τ sig) := opsL2_keep V main_arg9 (by decide)

/-- The buffers that the operations of `opsL3` write. -/
abbrev opsL3_W : List (Ref sig .tc) :=
  [main_cst_16, main_v108, main_v109, main_v110, main_cst_17, main_v111, main_cst_18, main_v112, main_v113, main_v114, main_cst_19, main_v115, main_v116, main_v117, main_v118, main_v119, main_v120, main_v121, main_v122, main_call3.cst.ref, main_call3.v0.ref, main_call3.v1.ref, main_v124, main_v125, main_v126, main_v127]

set_option maxRecDepth 8192 in
theorem ops_p2b_writes : (ops_p2b : List (HloOp τ sig (Elt F))).Forall fun op =>
    op.writes ⊆ (opsL3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that `opsL3` does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V (ops_p2b_writes) h
theorem opsL3_arg0 (V : Valuation τ sig (Elt F)) :
    after opsL3 V (main_arg0 : DevRef τ sig) = V (main_arg0 : DevRef τ sig) := opsL3_keep V main_arg0 (by decide)
theorem opsL3_arg1 (V : Valuation τ sig (Elt F)) :
    after opsL3 V (main_arg1 : DevRef τ sig) = V (main_arg1 : DevRef τ sig) := opsL3_keep V main_arg1 (by decide)
theorem opsL3_arg2 (V : Valuation τ sig (Elt F)) :
    after opsL3 V (main_arg2 : DevRef τ sig) = V (main_arg2 : DevRef τ sig) := opsL3_keep V main_arg2 (by decide)
theorem opsL3_arg3 (V : Valuation τ sig (Elt F)) :
    after opsL3 V (main_arg3 : DevRef τ sig) = V (main_arg3 : DevRef τ sig) := opsL3_keep V main_arg3 (by decide)
theorem opsL3_arg4 (V : Valuation τ sig (Elt F)) :
    after opsL3 V (main_arg4 : DevRef τ sig) = V (main_arg4 : DevRef τ sig) := opsL3_keep V main_arg4 (by decide)
theorem opsL3_arg5 (V : Valuation τ sig (Elt F)) :
    after opsL3 V (main_arg5 : DevRef τ sig) = V (main_arg5 : DevRef τ sig) := opsL3_keep V main_arg5 (by decide)
theorem opsL3_arg6 (V : Valuation τ sig (Elt F)) :
    after opsL3 V (main_arg6 : DevRef τ sig) = V (main_arg6 : DevRef τ sig) := opsL3_keep V main_arg6 (by decide)
theorem opsL3_arg7 (V : Valuation τ sig (Elt F)) :
    after opsL3 V (main_arg7 : DevRef τ sig) = V (main_arg7 : DevRef τ sig) := opsL3_keep V main_arg7 (by decide)
theorem opsL3_arg8 (V : Valuation τ sig (Elt F)) :
    after opsL3 V (main_arg8 : DevRef τ sig) = V (main_arg8 : DevRef τ sig) := opsL3_keep V main_arg8 (by decide)
theorem opsL3_arg9 (V : Valuation τ sig (Elt F)) :
    after opsL3 V (main_arg9 : DevRef τ sig) = V (main_arg9 : DevRef τ sig) := opsL3_keep V main_arg9 (by decide)

end Cert.ReferenceIdeal.RefRun

end
-- ==== Proof.RefSpec.lean ====
/-
  The stages of the network as whole-array functions on the extended reals, in the spelling of the reference's host
  operations.

  With S rows, G segments and D features: idxCol idx is the index vector as an [S,1] column; cnt idx is
  max(number of rows of each segment, 1) as a [G,1] column (a scatter-add of ones into zeros, then the maximum with
  1); segSum h idx the per-segment sums of the rows of h (a scatter-add into zeros); the per-segment mean is
  segSum / cnt spread over the columns; wrapIdx adds G to a negative index; gath p w b idx gathers the rows of p·w + b at
  the wrapped indices; wSlice_k and bRow_k take the k-th [D,D] weight and the k-th bias as a [1,D] row.
  A layer is layerHost h w_k b_k (gath (mean h) w'_k b'_k), and the result is finalHost of the last layer's mean.
-/
import proofs.«138804_j12352325943902_1_alg».proof.ReferenceIdeal
import proofs.«138804_j12352325943902_1_alg».proof.Proof.Gen.ReferenceIdeal
import proofs.«138804_j12352325943902_1_alg».proof.Proof.Stages
import Idealize.ShloMosaic.PureOps.Ideal

noncomputable section

namespace Cert.ReferenceIdeal.RefSpec

open Idealize.ShloMosaic Cert.ReferenceIdeal Cert.ReferenceIdeal.Gen

/-- The index vector as a column. -/
def idxCol (idx : (⟨S131072, .i32⟩ : BufTy).Contents (Elt Ideal)) : (⟨S131072x1, .i32⟩ : BufTy).Contents (Elt Ideal) :=
  broadcastInDim S131072x1 ![0] bcast_S131072_S131072x1_0 idx

/-- max(rows per segment, 1), a [G,1] column. -/
def cnt (idx : (⟨S131072, .i32⟩ : BufTy).Contents (Elt Ideal)) : FVec Ideal S4096x1 .f32 :=
  maximumf (Host.scatterAdd (F := Ideal) scatter_S4096x1_S131072x1_S131072x1_1_0_0_1
      (broadcastInDim S4096x1 ![] bcast_S_S4096x1 (constant (F := Ideal) S_ .f32 0x00000000#32)) (idxCol idx)
      (broadcastInDim S131072x1 ![] bcast_S_S131072x1 (constant (F := Ideal) S_ .f32 0x3F800000#32)))
    (broadcastInDim S4096x1 ![] bcast_S_S4096x1 (constant (F := Ideal) S_ .f32 0x3F800000#32))

/-- The per-segment sums of the rows of h. -/
def segSum (h : FVec Ideal S131072x256 .f32) (idx : (⟨S131072, .i32⟩ : BufTy).Contents (Elt Ideal)) : FVec Ideal S4096x256 .f32 :=
  Host.scatterAdd (F := Ideal) scatter_S4096x256_S131072x1_S131072x256_1_0_0_1
    (broadcastInDim S4096x256 ![] bcast_S_S4096x256 (constant (F := Ideal) S_ .f32 0x00000000#32)) (idxCol idx) h

/-- The per-segment mean, as a quotient by cnt. -/
def mean (h : FVec Ideal S131072x256 .f32) (idx : (⟨S131072, .i32⟩ : BufTy).Contents (Elt Ideal)) : FVec Ideal S4096x256 .f32 :=
  Host.divf (F := Ideal) (segSum h idx) (broadcastInDim S4096x256 ![0, 1] bcast_S4096x1_S4096x256_0_1 (cnt idx))

/-- A negative index read from the end. -/
def wrapIdx (idx : (⟨S131072, .i32⟩ : BufTy).Contents (Elt Ideal)) : (⟨S131072, .i32⟩ : BufTy).Contents (Elt Ideal) :=
  select (cmpi .slt idx (broadcastInDim S131072 ![] bcast_S_S131072 (constantI S_ 32 0#32)))
    (addi idx (broadcastInDim S131072 ![] bcast_S_S131072 (constantI S_ 32 4096#32))) idx

/-- The rows of p·w + b at the wrapped indices. -/
def gath (p : FVec Ideal S4096x256 .f32) (w : FVec Ideal S256x256 .f32) (b : FVec Ideal S1x256 .f32)
    (idx : (⟨S131072, .i32⟩ : BufTy).Contents (Elt Ideal)) : FVec Ideal S131072x256 .f32 :=
  Host.gather gather_S4096x256_S131072x1_S131072x256_1_0_n_n_0_1_1256
    (addf (Host.dotGeneral (F := Ideal) dot_S4096x256_S256x256_S4096x256_1_0_0_1_n_n none p w)
      (broadcastInDim S4096x256 ![0, 1] bcast_S1x256_S4096x256_0_1 b)) (idxCol (wrapIdx idx))

/-- The weight of layer 0. -/
def wSlice0 (a : FVec Ideal S3x256x256 .f32) : FVec Ideal S256x256 .f32 :=
  shapeCast S256x256 (extractStridedSlice S1x256x256 ![0, 0, 0] a slices_S3x256x256_S1x256x256_0_0_0) shapeCasts_S1x256x256_S256x256
/-- The bias of layer 0 as a one-row array. -/
def bRow0 (a : FVec Ideal S3x256 .f32) : FVec Ideal S1x256 .f32 :=
  broadcastInDim S1x256 ![1] bcast_S256_S1x256_1
    (shapeCast S256 (extractStridedSlice S1x256 ![0, 0] a slices_S3x256_S1x256_0_0) shapeCasts_S1x256_S256)
/-- Layer 0. -/
def layer0 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice0 a2) (bRow0 a3) (gath (mean h idx) (wSlice0 a4) (bRow0 a5) idx)
/-- The weight of layer 1. -/
def wSlice1 (a : FVec Ideal S3x256x256 .f32) : FVec Ideal S256x256 .f32 :=
  shapeCast S256x256 (extractStridedSlice S1x256x256 ![1, 0, 0] a slices_S3x256x256_S1x256x256_1_0_0) shapeCasts_S1x256x256_S256x256
/-- The bias of layer 1 as a one-row array. -/
def bRow1 (a : FVec Ideal S3x256 .f32) : FVec Ideal S1x256 .f32 :=
  broadcastInDim S1x256 ![1] bcast_S256_S1x256_1
    (shapeCast S256 (extractStridedSlice S1x256 ![1, 0] a slices_S3x256_S1x256_1_0) shapeCasts_S1x256_S256)
/-- Layer 1. -/
def layer1 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice1 a2) (bRow1 a3) (gath (mean h idx) (wSlice1 a4) (bRow1 a5) idx)
/-- The weight of layer 2. -/
def wSlice2 (a : FVec Ideal S3x256x256 .f32) : FVec Ideal S256x256 .f32 :=
  shapeCast S256x256 (extractStridedSlice S1x256x256 ![2, 0, 0] a slices_S3x256x256_S1x256x256_2_0_0) shapeCasts_S1x256x256_S256x256
/-- The bias of layer 2 as a one-row array. -/
def bRow2 (a : FVec Ideal S3x256 .f32) : FVec Ideal S1x256 .f32 :=
  broadcastInDim S1x256 ![1] bcast_S256_S1x256_1
    (shapeCast S256 (extractStridedSlice S1x256 ![2, 0] a slices_S3x256_S1x256_2_0) shapeCasts_S1x256_S256)
/-- Layer 2. -/
def layer2 (h : FVec Ideal S131072x256 .f32) (idx : (⟨S131072, .i32⟩ : BufTy).Contents (Elt Ideal))
    (a2 : FVec Ideal S3x256x256 .f32) (a3 : FVec Ideal S3x256 .f32) (a4 : FVec Ideal S3x256x256 .f32) (a5 : FVec Ideal S3x256 .f32) :
    FVec Ideal S131072x256 .f32 :=
  Cert.Stages.layerHost h (wSlice2 a2) (bRow2 a3) (gath (mean h idx) (wSlice2 a4) (bRow2 a5) idx)

/-- The program's result as a function of its ten arguments. -/
def out (a0 : FVec Ideal S131072x256 .f32) (a1 : (⟨S131072, .i32⟩ : BufTy).Contents (Elt Ideal))
    (a2 : FVec Ideal S3x256x256 .f32) (a3 : FVec Ideal S3x256 .f32) (a4 : FVec Ideal S3x256x256 .f32) (a5 : FVec Ideal S3x256 .f32)
    (a6 : FVec Ideal S256x512 .f32) (a7 : FVec Ideal S512 .f32) (a8 : FVec Ideal S512x10 .f32) (a9 : FVec Ideal S10 .f32) :
    FVec Ideal S4096x10 .f32 :=
  Cert.Stages.finalHost (mean (layer2 (layer1 (layer0 a0 a1 a2 a3 a4 a5) a1 a2 a3 a4 a5) a1 a2 a3 a4 a5) a1) a6
    (broadcastInDim S1x512 ![1] bcast_S512_S1x512_1 a7) a8 (broadcastInDim S1x10 ![1] bcast_S10_S1x10_1 a9)

end Cert.ReferenceIdeal.RefSpec

end
-- ==== Proof.RefL0.lean ====
/-
  The reference's first layer update, read off its operations.

  The stage's operations are folded over any contents of the buffers: each operation's result at its own buffer is
  its function of its operands' contents, and every other buffer is left as it was. At the stage's result buffer the
  fold is the stage's whole-array function of the contents it started from.
-/
import proofs.«138804_j12352325943902_1_alg».proof.Proof.RefOps
import proofs.«138804_j12352325943902_1_alg».proof.Proof.RefSpec
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
set_option pp.maxSteps 5000
set_option pp.deepTerms false

set_option maxRecDepth 8192 in
set_option maxHeartbeats 4000000 in
/-- Layer 0: its result buffer holds the layer's function of the state it read and the arguments. -/
theorem layer0_eq (V : Valuation τ sig (Elt Ideal)) :
    after opsL0 V (main_v35 : DevRef τ sig)
      = RefSpec.layer0 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  simp only [opsL0, ops_p0a]
  after_results_simp
  rfl

end Cert.ReferenceIdeal.RefRun

end
-- ==== Proof.RefL1.lean ====
/-
  The reference's second layer update, read off its operations.

  The stage's operations are folded over any contents of the buffers: each operation's result at its own buffer is
  its function of its operands' contents, and every other buffer is left as it was. At the stage's result buffer the
  fold is the stage's whole-array function of the contents it started from.
-/
import proofs.«138804_j12352325943902_1_alg».proof.Proof.RefOps
import proofs.«138804_j12352325943902_1_alg».proof.Proof.RefSpec
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
set_option pp.maxSteps 5000
set_option pp.deepTerms false

set_option maxRecDepth 8192 in
set_option maxHeartbeats 4000000 in
/-- Layer 1: its result buffer holds the layer's function of the state it read and the arguments. -/
theorem layer1_eq (V : Valuation τ sig (Elt Ideal)) :
    after opsL1 V (main_v71 : DevRef τ sig)
      = RefSpec.layer1 (V (main_v35 : DevRef τ sig)) (V (main_arg1 : DevRef τ sig)) (V (main_arg2 : DevRef τ sig)) (V (main_arg3 : DevRef τ sig)) (V (main_arg4 : DevRef τ sig)) (V (main_arg5 : DevRef τ sig)) := by
  rw [show (opsL1 : List (HloOp τ sig (Elt Ideal))) = ops_p0b ++ ops_p1a from rfl, after_append]
  simp only [opsL1, ops_p0b, ops_p1a]
  after_results_simp
  rfl

end Cert.ReferenceIdeal.RefRun

end
-- ==== Proof.RefL2.lean ====
/-
  The reference's third layer update, read off its operations.

  The stage's operations are folded over any contents of the buffers: each operation's result at its own buffer is
  its function of its operands' contents, and every other buffer is left as it was. At the stage's result buffer the
  fold is the stage's whole-array function of the contents it started from.
-/
import proofs.«138804_j12352325943902_1_alg».proof.Proof.RefOps
import proofs.«138804_j12352325943902_1_alg».proof.Proof.RefSpec
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
set_option pp.maxSteps 5000
set_option pp.deepTerms false

set_option maxRecDepth 8192 in
set_option maxHeartbeats 4000000 in
/-- Layer 2: its result buffer holds the layer's function of the state it read and the arguments. -/
theorem layer2_eq (V : Valuation τ sig (Elt Ideal)) :
    after opsL2 V (main_v107 : DevRef τ sig)
      = RefSpec.layer2 (V (main_v71 : DevRef τ sig)) (V (main_arg1 : DevRef τ sig)) (V (main_arg2 : DevRef τ sig)) (V (main_arg3 : DevRef τ sig)) (V (main_arg4 : DevRef τ sig)) (V (main_arg5 : DevRef τ sig)) := by
  rw [show (opsL2 : List (HloOp τ sig (Elt Ideal))) = ops_p1b ++ ops_p2a from rfl, after_append]
  simp only [opsL2, ops_p1b, ops_p2a]
  after_results_simp
  rfl

end Cert.ReferenceIdeal.RefRun

end
-- ==== Proof.RefL3.lean ====
/-
  The reference's read-out, read off its operations.

  The stage's operations are folded over any contents of the buffers: each operation's result at its own buffer is
  its function of its operands' contents, and every other buffer is left as it was. At the stage's result buffer the
  fold is the stage's whole-array function of the contents it started from.
-/
import proofs.«138804_j12352325943902_1_alg».proof.Proof.RefOps
import proofs.«138804_j12352325943902_1_alg».proof.Proof.RefSpec
import proofs.«138804_j12352325943902_1_alg».proof.Proof.LibRunWindows

noncomputable section

namespace Cert.ReferenceIdeal.RefRun

open Cert.ReferenceIdeal Cert.ReferenceIdeal.Gen Idealize.ShloMosaic Idealize.ShloMosaic.TcCoe Idealize.SL.Sem Idealize.ShloMosaic.StableHlo
set_option pp.maxSteps 5000
set_option pp.deepTerms false

set_option maxRecDepth 8192 in
set_option maxHeartbeats 4000000 in
/-- The read-out: the result buffer holds the read-out of the mean of the last state. -/
theorem final_eq (V : Valuation τ sig (Elt Ideal)) :
    after opsL3 V (main_v127 : DevRef τ sig)
      = Cert.Stages.finalHost (RefSpec.mean (V (main_v107 : DevRef τ sig)) (V (main_arg1 : DevRef τ sig))) (V (main_arg6 : DevRef τ sig))
          (broadcastInDim S1x512 ![1] bcast_S512_S1x512_1 (V (main_arg7 : DevRef τ sig))) (V (main_arg8 : DevRef τ sig))
          (broadcastInDim S1x10 ![1] bcast_S10_S1x10_1 (V (main_arg9 : DevRef τ sig))) := by
  simp only [opsL3, ops_p2b]
  after_results_simp
  rfl

end Cert.ReferenceIdeal.RefRun

end
-- ==== Proof.RefOut.lean ====
/-
  The reference's result as a function of its arguments.

  The fold over the whole list is the fold over its four stages in turn. Each layer update reads the state the
  stage before it left and the arguments, which every stage leaves alone; so the result buffer ends at the read-out
  of the mean of the third layer's state, each layer's state being that layer's function of the one before — the
  specification's term, by unfolding its definition — and each argument buffer ends as it began.
-/
import proofs.«138804_j12352325943902_1_alg».proof.Proof.RefKeep
import proofs.«138804_j12352325943902_1_alg».proof.Proof.RefL0
import proofs.«138804_j12352325943902_1_alg».proof.Proof.RefL1
import proofs.«138804_j12352325943902_1_alg».proof.Proof.RefL2
import proofs.«138804_j12352325943902_1_alg».proof.Proof.RefL3

noncomputable section

namespace Cert.ReferenceIdeal.RefRun

open Cert.ReferenceIdeal Cert.ReferenceIdeal.Gen Idealize.ShloMosaic Idealize.ShloMosaic.TcCoe Idealize.SL.Sem Idealize.ShloMosaic.StableHlo
variable {F : FTy → Type} [FloatOps F]

/-- The fold over the whole list, stage by stage. -/
theorem after_ops (V : Valuation τ sig (Elt F)) :
    after ops V = after opsL3 (after opsL2 (after opsL1 (after opsL0 V))) :=
  (after_append ((opsL0 ++ opsL1) ++ opsL2) opsL3 V).trans
    (congrArg (after opsL3) ((after_append (opsL0 ++ opsL1) opsL2 V).trans
      (congrArg (after opsL2) (after_append opsL0 opsL1 V))))

/-- The result buffer ends at the specification's function of the ten arguments' contents. -/
theorem out_eq (V : Valuation τ sig (Elt Ideal)) :
    after ops V (main_v127 : DevRef τ sig)
      = RefSpec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops, final_eq, layer2_eq, layer1_eq, layer0_eq]
  simp only [opsL2_arg1, opsL2_arg2, opsL2_arg3, opsL2_arg4, opsL2_arg5, opsL2_arg6, opsL2_arg7, opsL2_arg8, opsL2_arg9,
    opsL1_arg1, opsL1_arg2, opsL1_arg3, opsL1_arg4, opsL1_arg5, opsL1_arg6, opsL1_arg7, opsL1_arg8, opsL1_arg9,
    opsL0_arg1, opsL0_arg2, opsL0_arg3, opsL0_arg4, opsL0_arg5, opsL0_arg6, opsL0_arg7, opsL0_arg8, opsL0_arg9]
  rfl

theorem arg0_eq (V : Valuation τ sig (Elt F)) :
    after ops V (main_arg0 : DevRef τ sig) = V (main_arg0 : DevRef τ sig) := by
  rw [after_ops, opsL3_arg0, opsL2_arg0, opsL1_arg0, opsL0_arg0]

theorem arg1_eq (V : Valuation τ sig (Elt F)) :
    after ops V (main_arg1 : DevRef τ sig) = V (main_arg1 : DevRef τ sig) := by
  rw [after_ops, opsL3_arg1, opsL2_arg1, opsL1_arg1, opsL0_arg1]

theorem arg2_eq (V : Valuation τ sig (Elt F)) :
    after ops V (main_arg2 : DevRef τ sig) = V (main_arg2 : DevRef τ sig) := by
  rw [after_ops, opsL3_arg2, opsL2_arg2, opsL1_arg2, opsL0_arg2]

theorem arg3_eq (V : Valuation τ sig (Elt F)) :
    after ops V (main_arg3 : DevRef τ sig) = V (main_arg3 : DevRef τ sig) := by
  rw [after_ops, opsL3_arg3, opsL2_arg3, opsL1_arg3, opsL0_arg3]

theorem arg4_eq (V : Valuation τ sig (Elt F)) :
    after ops V (main_arg4 : DevRef τ sig) = V (main_arg4 : DevRef τ sig) := by
  rw [after_ops, opsL3_arg4, opsL2_arg4, opsL1_arg4, opsL0_arg4]

theorem arg5_eq (V : Valuation τ sig (Elt F)) :
    after ops V (main_arg5 : DevRef τ sig) = V (main_arg5 : DevRef τ sig) := by
  rw [after_ops, opsL3_arg5, opsL2_arg5, opsL1_arg5, opsL0_arg5]

theorem arg6_eq (V : Valuation τ sig (Elt F)) :
    after ops V (main_arg6 : DevRef τ sig) = V (main_arg6 : DevRef τ sig) := by
  rw [after_ops, opsL3_arg6, opsL2_arg6, opsL1_arg6, opsL0_arg6]

theorem arg7_eq (V : Valuation τ sig (Elt F)) :
    after ops V (main_arg7 : DevRef τ sig) = V (main_arg7 : DevRef τ sig) := by
  rw [after_ops, opsL3_arg7, opsL2_arg7, opsL1_arg7, opsL0_arg7]

theorem arg8_eq (V : Valuation τ sig (Elt F)) :
    after ops V (main_arg8 : DevRef τ sig) = V (main_arg8 : DevRef τ sig) := by
  rw [after_ops, opsL3_arg8, opsL2_arg8, opsL1_arg8, opsL0_arg8]

theorem arg9_eq (V : Valuation τ sig (Elt F)) :
    after ops V (main_arg9 : DevRef τ sig) = V (main_arg9 : DevRef τ sig) := by
  rw [after_ops, opsL3_arg9, opsL2_arg9, opsL1_arg9, opsL0_arg9]

end Cert.ReferenceIdeal.RefRun

end
-- ==== Proof.RefRun.lean ====
/-
  The reference's run, read back: from any memory with zero counters, every weakly fair execution terminates with
  the result buffer at the specification's function of the arguments' launch contents and every argument buffer
  unchanged.
-/
import proofs.«138804_j12352325943902_1_alg».proof.Proof.RefRunMain
import proofs.«138804_j12352325943902_1_alg».proof.Proof.RefOut

noncomputable section

namespace Cert.ReferenceIdeal.RefRun

open Cert.ReferenceIdeal Cert.ReferenceIdeal.Gen Idealize.ShloMosaic Idealize.ShloMosaic.TcCoe Idealize.SL.Sem Idealize.ShloMosaic.StableHlo
/-- At the extended reals, on every device: the result is the specification's function of the arguments, and the
    arguments end as they began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v127)
        = RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v127).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefRun

end
-- ==== Proof.Bridge.lean ====
/-
  The kernel program's function of its arguments is the reference's.

  The two differ in one place only: the per-segment mean. The kernel program multiplies the per-segment sums by
  1 / max(count, 1), computed once; the reference divides them by max(count, 1). On the extended reals a quotient by
  y ≠ 0 is the product with the inverse of y, and 1 / y is that inverse; max(count, 1) is at least 1, so it is not 0,
  whatever the count. Hence s · (1 / max(c, 1)) = s / max(c, 1) for every s and c, with no finiteness. Everything else
  — the scatter-adds, the small products, the gathers, the slices, the two stages — is the same operation on both
  sides, applied to equal operands.
-/
import proofs.«138804_j12352325943902_1_alg».proof.Proof.KerSpec
import proofs.«138804_j12352325943902_1_alg».proof.Proof.RefSpec
import proofs.«138804_j12352325943902_1_alg».proof.Proof.LibHostBroadcast
import proofs.«138804_j12352325943902_1_alg».proof.Proof.LibSpellings
import Idealize.ShloMosaic.Lib.ValueIdx

noncomputable section

namespace Cert.Bridge

open Idealize.ShloMosaic Idealize.ShloMosaic.ValueIdx

/-- s · (1 / max(c, 1)) = s / max(c, 1) on the extended reals. -/
theorem mul_inv_eq_div (s c : EReal) : s * Ideal.div 1 (max c 1) = Ideal.div s (max c 1) := by
  have hy : max c 1 ≠ 0 := ne_of_gt (lt_of_lt_of_le zero_lt_one (le_max_right c 1))
  unfold Ideal.div
  rw [if_neg hy, if_neg hy, one_mul]

attribute [local irreducible] Host.scatterAdd Host.gather

theorem idxCol_eq (idx) : Cert.KernelIdeal.KerSpec.idxCol idx = Cert.ReferenceIdeal.RefSpec.idxCol idx := rfl
theorem cnt_eq (idx) : Cert.KernelIdeal.KerSpec.cnt idx = Cert.ReferenceIdeal.RefSpec.cnt idx := rfl
theorem segSum_eq (h idx) : Cert.KernelIdeal.KerSpec.segSum h idx = Cert.ReferenceIdeal.RefSpec.segSum h idx := rfl

/-- The two spellings of the per-segment mean are one array. -/
theorem mean_eq (h idx) : Cert.KernelIdeal.KerSpec.mean h idx = Cert.ReferenceIdeal.RefSpec.mean h idx := by
  funext i
  obtain ⟨p, c, rfl⟩ : ∃ (p : Fin 4096) (c : Fin 256), i = ix2 p c := ⟨i 0, i 1, eq_ix2 i⟩
  unfold Cert.KernelIdeal.KerSpec.mean Cert.ReferenceIdeal.RefSpec.mean Cert.KernelIdeal.KerSpec.invCnt
  rw [mulf_apply, Cert.LibHostBroadcast.col_to_mat, ← segSum_eq, ← cnt_eq]
  show _ * Ideal.div _ _ = Ideal.div _ (broadcastInDim _ _ _ _ (ix2 p c))
  rw [Cert.LibHostBroadcast.col_to_mat, Cert.LibHostBroadcast.scalar_to_any]
  unfold Cert.KernelIdeal.KerSpec.cnt
  rw [maximumf_apply, Cert.LibHostBroadcast.scalar_to_any]
  show _ * Ideal.div (Ideal.ofBits .f32 0x3F800000#32) (max _ (Ideal.ofBits .f32 0x3F800000#32)) = Ideal.div _ (max _ (Ideal.ofBits .f32 0x3F800000#32))
  rw [Cert.LibSpellings.ofBits_one_f32]
  exact mul_inv_eq_div _ _

theorem wrapIdx_eq (idx) : Cert.KernelIdeal.KerSpec.wrapIdx idx = Cert.ReferenceIdeal.RefSpec.wrapIdx idx := rfl
theorem gath_eq (p w b idx) : Cert.KernelIdeal.KerSpec.gath p w b idx = Cert.ReferenceIdeal.RefSpec.gath p w b idx := rfl
theorem wSlice0_eq (a) : Cert.KernelIdeal.KerSpec.wSlice0 a = Cert.ReferenceIdeal.RefSpec.wSlice0 a := rfl
theorem bRow0_eq (a) : Cert.KernelIdeal.KerSpec.bRow0 a = Cert.ReferenceIdeal.RefSpec.bRow0 a := rfl
/-- Layer 0 is one function in the two spellings. -/
theorem layer0_eq (h idx a2 a3 a4 a5) : Cert.KernelIdeal.KerSpec.layer0 h idx a2 a3 a4 a5 = Cert.ReferenceIdeal.RefSpec.layer0 h idx a2 a3 a4 a5 := by
  unfold Cert.KernelIdeal.KerSpec.layer0 Cert.ReferenceIdeal.RefSpec.layer0
  simp only [mean_eq, gath_eq, wSlice0_eq, bRow0_eq]
theorem wSlice1_eq (a) : Cert.KernelIdeal.KerSpec.wSlice1 a = Cert.ReferenceIdeal.RefSpec.wSlice1 a := rfl
theorem bRow1_eq (a) : Cert.KernelIdeal.KerSpec.bRow1 a = Cert.ReferenceIdeal.RefSpec.bRow1 a := rfl
/-- Layer 1 is one function in the two spellings. -/
theorem layer1_eq (h idx a2 a3 a4 a5) : Cert.KernelIdeal.KerSpec.layer1 h idx a2 a3 a4 a5 = Cert.ReferenceIdeal.RefSpec.layer1 h idx a2 a3 a4 a5 := by
  unfold Cert.KernelIdeal.KerSpec.layer1 Cert.ReferenceIdeal.RefSpec.layer1
  simp only [mean_eq, gath_eq, wSlice1_eq, bRow1_eq]
theorem wSlice2_eq (a) : Cert.KernelIdeal.KerSpec.wSlice2 a = Cert.ReferenceIdeal.RefSpec.wSlice2 a := rfl
theorem bRow2_eq (a) : Cert.KernelIdeal.KerSpec.bRow2 a = Cert.ReferenceIdeal.RefSpec.bRow2 a := rfl
/-- Layer 2 is one function in the two spellings. -/
theorem layer2_eq (h idx a2 a3 a4 a5) : Cert.KernelIdeal.KerSpec.layer2 h idx a2 a3 a4 a5 = Cert.ReferenceIdeal.RefSpec.layer2 h idx a2 a3 a4 a5 := by
  unfold Cert.KernelIdeal.KerSpec.layer2 Cert.ReferenceIdeal.RefSpec.layer2
  simp only [mean_eq, gath_eq, wSlice2_eq, bRow2_eq]

/-- The kernel program's function of its ten arguments is the reference's. -/
theorem out_eq (a0 a1 a2 a3 a4 a5 a6 a7 a8 a9) :
    Cert.KernelIdeal.KerSpec.out a0 a1 a2 a3 a4 a5 a6 a7 a8 a9 = Cert.ReferenceIdeal.RefSpec.out a0 a1 a2 a3 a4 a5 a6 a7 a8 a9 := by
  unfold Cert.KernelIdeal.KerSpec.out Cert.ReferenceIdeal.RefSpec.out
  simp only [layer0_eq, layer1_eq, layer2_eq, mean_eq]

end Cert.Bridge

end
-- ==== Proof.lean ====
/-
  The certificate of a three-layer network over S = 131072 rows in G = 4096 segments with D = 256 features,
      h ← elu((h·W_k + b_k) + (mean_seg(h)·W'_k + b'_k)[idx])   for k = 0, 1, 2,
      out = max(mean_seg(h)·F1 + f1, 0)·F2 + f2,
  where mean_seg is the per-segment mean of the rows (per-segment sum over max(count, 1)).

  The kernel program runs each layer update as a pipelined region over 64 blocks of 2048 rows and the read-out as a
  region over 4 blocks of 1024 segments, with the per-segment sums, the small products and the gathers as host
  operations between them; the reference is one line of host operations.

  * The three frame claims: the two kernel programs' by their segment chains; the reference's is its run with the
    result dropped.
  * The idealization rewrote no operation, so the preservation claim is trivial.
  * The algebraic claim. Seen from outside a region is one whole-array operation (its blocks are the restriction of
    one function of the input arrays to the rows of the block, and the blocks cover the array), and that function is
    the host's spelling of the same stage on the extended reals: a matrix unit's product of operands narrowed to
    16 bits is the plain sum of products; where(y > 0, y, exp y − 1) is jax.nn.elu's 1·expm1 form. So the kernel
    program's result is the fold of one line of operations, which differs from the reference's line in one place:
    the mean is the sum times 1 / max(count, 1) instead of the sum over max(count, 1). These agree for every sum and
    count, since max(count, 1) ≥ 1 is never 0 and a quotient by y ≠ 0 is the product with the inverse of y.
    No finiteness of the inputs is used.
-/
import proofs.«138804_j12352325943902_1_alg».proof.Defs
import proofs.«138804_j12352325943902_1_alg».proof.Proof.Gen.Kernel
import proofs.«138804_j12352325943902_1_alg».proof.Proof.Gen.Kernel.Frame
import proofs.«138804_j12352325943902_1_alg».proof.Proof.Gen.KernelIdeal
import proofs.«138804_j12352325943902_1_alg».proof.Proof.Gen.KernelIdeal.Frame
import proofs.«138804_j12352325943902_1_alg».proof.Proof.Gen.ReferenceIdeal
import proofs.«138804_j12352325943902_1_alg».proof.Proof.Gen.Pre_finite_inputs
import proofs.«138804_j12352325943902_1_alg».proof.Proof.KerRun
import proofs.«138804_j12352325943902_1_alg».proof.Proof.KerValue
import proofs.«138804_j12352325943902_1_alg».proof.Proof.RegionValues
import proofs.«138804_j12352325943902_1_alg».proof.Proof.RefRun
import proofs.«138804_j12352325943902_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both idealized programs end at the network's function of the arguments. -/
theorem algebraic : Cert.algebraic_KernelIdeal_ReferenceIdeal := by
  intro m ρ m' ρ' _ hagree
  refine ⟨fun c => Cert.KernelIdeal.KerSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KerValue.out_read m ρ Cert.KernelIdeal.Regions.regionValues c), (h c).2⟩)
      (Cert.KernelIdeal.KerRun.run_named (F := Ideal) m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.Bridge.out_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
